-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S20000 : Shape := ⟨1, ![20000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S128 .f32) (main_arg17 : FVec F S64 .f32) (main_arg18 : FVec F S64 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  main_v83

def fn_part3 {F : FTy → Type} [FloatOps F] (main_arg13 : FVec F S1x64 .f32) (main_arg14 : FVec F S1 .f32) (main_arg15 : FVec F S128 .f32) (main_arg16 : FVec F S128 .f32) (main_arg17 : FVec F S64 .f32) (main_arg18 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S1x64 .f32 := Host.absf main_arg13
  let main_cst_20 : FVec F S_ .f32 := constant S_ .f32 0x7F800000#32
  let main_v55 : FVec F S1x64 .f32 := broadcastInDim S1x64 ![] bcast_S_S1x64 main_cst_20
  let main_v56 : IVec S1x64 1 := cmpf .olt main_v54 main_v55
  let main_c_21 : IVec S_ 1 := constantI S_ 1 1#1
  let main_v57 : IVec S_ 1 := (fun x v => Host.reduce IntOp.andi x v reducesTo_S1x64_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_v63 main_v67

def fn_part2 {F : FTy → Type} [FloatOps F] (main_arg9 : FVec F S128x128 .f32) (main_arg10 : FVec F S128 .f32) (main_arg11 : FVec F S64x128 .f32) (main_arg12 : FVec F S64 .f32) (main_arg13 : FVec F S1x64 .f32) (main_arg14 : FVec F S1 .f32) (main_arg15 : FVec F S128 .f32) (main_arg16 : FVec F S128 .f32) (main_arg17 : FVec F S64 .f32) (main_arg18 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64x128 .f32 := Host.absf main_arg11
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S64x128 .f32) (main_arg12 : FVec F S64 .f32) (main_arg13 : FVec F S1x64 .f32) (main_arg14 : FVec F S1 .f32) (main_arg15 : FVec F S128 .f32) (main_arg16 : FVec F S128 .f32) (main_arg17 : FVec F S64 .f32) (main_arg18 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S100000x128 .f32) (main_arg1 : IVec S2x1600000 32) (main_arg2 : IVec S20000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S64x128 .f32) (main_arg12 : FVec F S64 .f32) (main_arg13 : FVec F S1x64 .f32) (main_arg14 : FVec F S1 .f32) (main_arg15 : FVec F S128 .f32) (main_arg16 : FVec F S128 .f32) (main_arg17 : FVec F S64 .f32) (main_arg18 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S2x1600000 : Shape := ⟨2, ![2, 1600000]⟩
abbrev S20000 : Shape := ⟨1, ![20000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S5000x128 : Shape := ⟨2, ![5000, 128]⟩
abbrev S5000x1 : Shape := ⟨2, ![5000, 1]⟩
abbrev S1x128 : Shape := ⟨2, ![1, 128]⟩
abbrev S20000x1 : Shape := ⟨2, ![20000, 1]⟩
abbrev S20000x128 : Shape := ⟨2, ![20000, 128]⟩
abbrev S20000x64 : Shape := ⟨2, ![20000, 64]⟩
abbrev S5000x64 : Shape := ⟨2, ![5000, 64]⟩
abbrev S128x64 : Shape := ⟨2, ![128, 64]⟩
abbrev S64x1 : Shape := ⟨2, ![64, 1]⟩
abbrev S1x1 : Shape := ⟨2, ![1, 1]⟩

abbrev nBuf : Space → Nat
  | .hbm => 100
  | .vmem => 56
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S20000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S64x128, .f32⟩
  | .hbm, ⟨12, _⟩ => ⟨S64, .f32⟩
  | .hbm, ⟨13, _⟩ => ⟨S1x64, .f32⟩
  | .hbm, ⟨14, _⟩ => ⟨S1, .f32⟩
  | .hbm, ⟨15, _⟩ => ⟨S128, .f32⟩
  | .hbm, ⟨16, _⟩ => ⟨S128, .f32⟩
  | .hbm, ⟨17, _⟩ => ⟨S64, .f32⟩
  | .hbm, ⟨18, _⟩ => ⟨S64, .f32⟩
  | .hbm, ⟨19, _⟩ => ⟨S1x1600000, .i32⟩
  | .hbm, ⟨20, _⟩ => ⟨S1600000, .i32⟩
  | .hbm, ⟨21, _⟩ => ⟨S1x1600000, .i32⟩
  | .hbm, ⟨22, _⟩ => ⟨S1600000, .i32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S_, .f32⟩
  | .hbm, ⟨33, _⟩ => ⟨S100000x128, .f32⟩
  | .hbm, ⟨34, _⟩ => ⟨S1600000x1, .i32⟩
  | .hbm, ⟨35, _⟩ => ⟨S100000x128, .f32⟩
  | .hbm, ⟨36, _⟩ => ⟨S_, .f32⟩
  | .hbm, ⟨37, _⟩ => ⟨S1600000, .f32⟩
  | .hbm, ⟨38, _⟩ => ⟨S_, .f32⟩
  | .hbm, ⟨39, _⟩ => ⟨S100000, .f32⟩
  | .hbm, ⟨40, _⟩ => ⟨S1600000x1, .i32⟩
  | .hbm, ⟨41, _⟩ => ⟨S100000, .f32⟩
  | .hbm, ⟨42, _⟩ => ⟨S100000x1, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x128, .f32⟩
  | .hbm, ⟨58, _⟩ => ⟨S_, .i32⟩
  | .hbm, ⟨59, _⟩ => ⟨S20000, .i32⟩
  | .hbm, ⟨60, _⟩ => ⟨S20000, .i1⟩
  | .hbm, ⟨61, _⟩ => ⟨S_, .i32⟩
  | .hbm, ⟨62, _⟩ => ⟨S20000, .i32⟩
  | .hbm, ⟨63, _⟩ => ⟨S20000, .i32⟩
  | .hbm, ⟨64, _⟩ => ⟨S20000, .i32⟩
  | .hbm, ⟨65, _⟩ => ⟨S20000x1, .i32⟩
  | .hbm, ⟨66, _⟩ => ⟨S20000x128, .f32⟩
  | .hbm, ⟨67, _⟩ => ⟨S20000x128, .f32⟩
  | .hbm, ⟨68, _⟩ => ⟨S_, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S20000x128, .f32⟩
  | .hbm, ⟨75, _⟩ => ⟨S20000x128, .f32⟩
  | .hbm, ⟨76, _⟩ => ⟨S20000x128, .f32⟩
  | .hbm, ⟨77, _⟩ => ⟨S_, .f32⟩
  | .hbm, ⟨78, _⟩ => ⟨S128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S20000x128, .f32⟩
  | .hbm, ⟨83, _⟩ => ⟨S20000x64, .f32⟩
  | .hbm, ⟨84, _⟩ => ⟨S_, .f32⟩
  | .hbm, ⟨85, _⟩ => ⟨S64, .f32⟩
  | .hbm, ⟨86, _⟩ => ⟨S_, .f32⟩
  | .hbm, ⟨87, _⟩ => ⟨S64, .f32⟩
  | .hbm, ⟨88, _⟩ => ⟨S64, .f32⟩
  | .hbm, ⟨89, _⟩ => ⟨S1x64, .f32⟩
  | .hbm, ⟨90, _⟩ => ⟨S20000x64, .f32⟩
  | .hbm, ⟨91, _⟩ => ⟨S20000x64, .f32⟩
  | .hbm, ⟨92, _⟩ => ⟨S20000x64, .f32⟩
  | .hbm, ⟨93, _⟩ => ⟨S_, .f32⟩
  | .hbm, ⟨94, _⟩ => ⟨S64, .f32⟩
  | .hbm, ⟨95, _⟩ => ⟨S_, .f32⟩
  | .hbm, ⟨96, _⟩ => ⟨S64, .f32⟩
  | .hbm, ⟨97, _⟩ => ⟨S64, .f32⟩
  | .hbm, ⟨98, _⟩ => ⟨S20000x64, .f32⟩
  | .hbm, ⟨99, _⟩ => ⟨S20000x1, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128, .f32⟩
  | .local _ .vmem, ⟨31, _⟩ => ⟨S128, .f32⟩
  | .local _ .vmem, ⟨32, _⟩ => ⟨S128, .f32⟩
  | .local _ .vmem, ⟨33, _⟩ => ⟨S128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S64x128, .f32⟩
  | .local _ .vmem, ⟨39, _⟩ => ⟨S64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S64, .f32⟩
  | .local _ .vmem, ⟨45, _⟩ => ⟨S64, .f32⟩
  | .local _ .vmem, ⟨46, _⟩ => ⟨S64, .f32⟩
  | .local _ .vmem, ⟨47, _⟩ => ⟨S64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S1x64, .f32⟩
  | .local _ .vmem, ⟨53, _⟩ => ⟨S1, .f32⟩
  | .local _ .vmem, ⟨54, _⟩ => ⟨S5000x1, .f32⟩
  | .local _ .vmem, ⟨55, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_3 : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_5 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_8 : Ref sig .tc := ⟨.hbm, 68, rfl⟩
abbrev main_v39 : Ref sig .tc := ⟨.hbm, 69, rfl⟩
abbrev main_cst_9 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_10 : Ref sig .tc := ⟨.hbm, 77, rfl⟩
abbrev main_v46 : Ref sig .tc := ⟨.hbm, 78, rfl⟩
abbrev main_cst_11 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_12 : Ref sig .tc := ⟨.hbm, 84, rfl⟩
abbrev main_v51 : Ref sig .tc := ⟨.hbm, 85, rfl⟩
abbrev main_cst_13 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_14 : Ref sig .tc := ⟨.hbm, 93, rfl⟩
abbrev main_v58 : Ref sig .tc := ⟨.hbm, 94, rfl⟩
abbrev main_cst_15 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg3_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg5_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg2_0 : Ref sig .tc := ⟨.vmem, 53, rfl⟩
abbrev cc6_stg3_0 : Ref sig .tc := ⟨.vmem, 54, rfl⟩
abbrev cc6_stg3_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem3_1 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem4_0 : DmaSem sig := 47
abbrev cc5_sem5_0 : DmaSem sig := 48
abbrev cc5_sem5_1 : DmaSem sig := 49
abbrev cc6_sem0_0 : DmaSem sig := 50
abbrev cc6_sem0_1 : DmaSem sig := 51
abbrev cc6_sem1_0 : DmaSem sig := 52
abbrev cc6_sem2_0 : DmaSem sig := 53
abbrev cc6_sem3_0 : DmaSem sig := 54
abbrev cc6_sem3_1 : DmaSem sig := 55

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S20000 : S_.BroadcastsInDim S20000 (![] : Fin 0 → Fin S20000.rank)
  bcast_S20000_S20000x1_0 : S20000.BroadcastsInDim S20000x1 (![0] : Fin 1 → Fin S20000x1.rank)
  reducesTo_S20000x128_S128_d0 : S20000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  shapeCasts_S128_S128 : S128.ShapeCasts S128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  reducesTo_S20000x64_S64_d0 : S20000x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  shapeCasts_S5000x64_S5000x64 : S5000x64.ShapeCasts S5000x64
  shapeCasts_S64_S64 : S64.ShapeCasts S64
  inb_S1x64_S1x64_0_0 : ∀ a, (![0, 0] : Fin 2 → Nat) a + S1x64.size a ≤ S1x64.size a
  h_S1x64 : 0 < S1x64.numel
  transposes_S1x64_p1_0_S64x1 : S1x64.Transposes [1, 0] S64x1
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S20000x1_S20000x128_1_0_n_n_0_1_1128_wf : GatherDims.WF S100000x128 S20000x1 S20000x128 [1] [0] [] [0] [] 1 ![1, 128]
  dot_S5000x128_S128x64_S5000x64_1_0_0_1_n_n_wf : DotDims.WF S5000x128 S128x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S20000x128.size a
  hwx2_0 : ∀ i : grid2.Coords, EltTy.bits .f32 = 32 ∨ (Rect.block (s := S20000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S20000x128.size a
  hwx2_3 : ∀ i : grid2.Coords, EltTy.bits .f32 = 32 ∨ (Rect.block (s := S20000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S20000x128.size a
  hwx3_0 : ∀ i : grid3.Coords, EltTy.bits .f32 = 32 ∨ (Rect.block (s := S20000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S20000x128.size a
  hwx3_5 : ∀ i : grid3.Coords, EltTy.bits .f32 = 32 ∨ (Rect.block (s := S20000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S20000x128.size a
  hwx4_0 : ∀ i : grid4.Coords, EltTy.bits .f32 = 32 ∨ (Rect.block (s := S20000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S20000x64.size a
  hwx4_3 : ∀ i : grid4.Coords, EltTy.bits .f32 = 32 ∨ (Rect.block (s := S20000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S20000x64.size a
  hwx5_0 : ∀ i : grid5.Coords, EltTy.bits .f32 = 32 ∨ (Rect.block (s := S20000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64.size a ≤ S64.size a
  hwx5_1 : ∀ i : grid5.Coords, EltTy.bits .f32 = 32 ∨ (Rect.block (s := S64) S64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64.size a ≤ S64.size a
  hwx5_2 : ∀ i : grid5.Coords, EltTy.bits .f32 = 32 ∨ (Rect.block (s := S64) S64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64.size a ≤ S64.size a
  hwx5_3 : ∀ i : grid5.Coords, EltTy.bits .f32 = 32 ∨ (Rect.block (s := S64) S64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64.size a ≤ S64.size a
  hwx5_4 : ∀ i : grid5.Coords, EltTy.bits .f32 = 32 ∨ (Rect.block (s := S64) S64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S20000x64.size a
  hwx5_5 : ∀ i : grid5.Coords, EltTy.bits .f32 = 32 ∨ (Rect.block (s := S20000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S20000x64.size a
  hwx6_0 : ∀ i : grid6.Coords, EltTy.bits .f32 = 32 ∨ (Rect.block (s := S20000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1.size a ≤ S1.size a
  hwx6_2 : ∀ i : grid6.Coords, EltTy.bits .f32 = 32 ∨ (Rect.block (s := S1) S1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x1.size a ≤ S20000x1.size a
  hwx6_3 : ∀ i : grid6.Coords, EltTy.bits .f32 = 32 ∨ (Rect.block (s := S20000x1) S5000x1.size (cc6_transform_3 i) (hinb6_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S20000x1_S20000x128_1_0_n_n_0_1_1128 : GatherDims S100000x128 S20000x1 S20000x128 where
  offsetDims := [1]
  collapsedSliceDims := [0]
  operandBatchingDims := []
  startIndicesBatchingDims := []
  startIndexMap := [0]
  indexVectorDim := 1
  sliceSizes := ![1, 128]
  wf := gather_S100000x128_S20000x1_S20000x128_1_0_n_n_0_1_1128_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v38) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg16) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v49) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v49) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v50) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v50) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v53) S64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v60) S64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg17) S64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg18) S64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v61) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v61) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg13) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg14) S1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v62) S5000x1.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S20000 : Shape := ⟨1, ![20000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S20000x1 : Shape := ⟨2, ![20000, 1]⟩
abbrev S20000x128 : Shape := ⟨2, ![20000, 128]⟩
abbrev S128x64 : Shape := ⟨2, ![128, 64]⟩
abbrev S20000x64 : Shape := ⟨2, ![20000, 64]⟩
abbrev S64x1 : Shape := ⟨2, ![64, 1]⟩
abbrev S1x1 : Shape := ⟨2, ![1, 1]⟩

abbrev nBuf : Space → Nat
  | .hbm => 192
  | .vmem => 0
  | .smem => 0
  | _ => 0

abbrev hbmTy0_0 (i : Nat) : BufTy := match i % 128 with
  | 0 => ⟨S100000x128, .f32⟩
  | 1 => ⟨S2x1600000, .i32⟩
  | 2 => ⟨S20000, .i32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S64x128, .f32⟩
  | 12 => ⟨S64, .f32⟩
  | 13 => ⟨S1x64, .f32⟩
  | 14 => ⟨S1, .f32⟩
  | 15 => ⟨S128, .f32⟩
  | 16 => ⟨S128, .f32⟩
  | 17 => ⟨S64, .f32⟩
  | 18 => ⟨S64, .f32⟩
  | 19 => ⟨S1x1600000, .i32⟩
  | 20 => ⟨S1600000, .i32⟩
  | 21 => ⟨S1x1600000, .i32⟩
  | 22 => ⟨S1600000, .i32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x128, .f32⟩
  | 32 => ⟨S_, .f32⟩
  | 33 => ⟨S100000x128, .f32⟩
  | 34 => ⟨S1600000x1, .i32⟩
  | 35 => ⟨S100000x128, .f32⟩
  | 36 => ⟨S_, .f32⟩
  | 37 => ⟨S1600000, .f32⟩
  | 38 => ⟨S_, .f32⟩
  | 39 => ⟨S100000, .f32⟩
  | 40 => ⟨S1600000x1, .i32⟩
  | 41 => ⟨S100000, .f32⟩
  | 42 => ⟨S_, .f32⟩
  | 43 => ⟨S100000, .f32⟩
  | 44 => ⟨S100000, .f32⟩
  | 45 => ⟨S100000x1, .f32⟩
  | 46 => ⟨S100000x128, .f32⟩
  | 47 => ⟨S100000x128, .f32⟩
  | 48 => ⟨S128x128, .f32⟩
  | 49 => ⟨S100000x128, .f32⟩
  | 50 => ⟨S1x128, .f32⟩
  | 51 => ⟨S100000x128, .f32⟩
  | 52 => ⟨S100000x128, .f32⟩
  | 53 => ⟨S128x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x128, .f32⟩
  | 68 => ⟨S_, .f32⟩
  | 69 => ⟨S100000x128, .f32⟩
  | 70 => ⟨S1600000x1, .i32⟩
  | 71 => ⟨S100000x128, .f32⟩
  | 72 => ⟨S_, .f32⟩
  | 73 => ⟨S1600000, .f32⟩
  | 74 => ⟨S_, .f32⟩
  | 75 => ⟨S100000, .f32⟩
  | 76 => ⟨S1600000x1, .i32⟩
  | 77 => ⟨S100000, .f32⟩
  | 78 => ⟨S_, .f32⟩
  | 79 => ⟨S100000, .f32⟩
  | 80 => ⟨S100000, .f32⟩
  | 81 => ⟨S100000x1, .f32⟩
  | 82 => ⟨S100000x128, .f32⟩
  | 83 => ⟨S100000x128, .f32⟩
  | 84 => ⟨S128x128, .f32⟩
  | 85 => ⟨S100000x128, .f32⟩
  | 86 => ⟨S1x128, .f32⟩
  | 87 => ⟨S100000x128, .f32⟩
  | 88 => ⟨S100000x128, .f32⟩
  | 89 => ⟨S128x128, .f32⟩
  | 90 => ⟨S100000x128, .f32⟩
  | 91 => ⟨S100000x128, .f32⟩
  | 92 => ⟨S_, .i32⟩
  | 93 => ⟨S20000, .i32⟩
  | 94 => ⟨S20000, .i1⟩
  | 95 => ⟨S_, .i32⟩
  | 96 => ⟨S20000, .i32⟩
  | 97 => ⟨S20000, .i32⟩
  | 98 => ⟨S20000, .i32⟩
  | 99 => ⟨S20000x1, .i32⟩
  | 100 => ⟨S20000x128, .f32⟩
  | 101 => ⟨S128x128, .f32⟩
  | 102 => ⟨S20000x128, .f32⟩
  | 103 => ⟨S1x128, .f32⟩
  | 104 => ⟨S20000x128, .f32⟩
  | 105 => ⟨S20000x128, .f32⟩
  | 106 => ⟨S_, .f32⟩
  | 107 => ⟨S128, .f32⟩
  | 108 => ⟨S_, .f32⟩
  | 109 => ⟨S128, .f32⟩
  | 110 => ⟨S128, .f32⟩
  | 111 => ⟨S1x128, .f32⟩
  | 112 => ⟨S20000x128, .f32⟩
  | 113 => ⟨S20000x128, .f32⟩
  | 114 => ⟨S20000x128, .f32⟩
  | 115 => ⟨S_, .f32⟩
  | 116 => ⟨S128, .f32⟩
  | 117 => ⟨S_, .f32⟩
  | 118 => ⟨S128, .f32⟩
  | 119 => ⟨S128, .f32⟩
  | 120 => ⟨S1x128, .f32⟩
  | 121 => ⟨S20000x128, .f32⟩
  | 122 => ⟨S20000x128, .f32⟩
  | 123 => ⟨S_, .f32⟩
  | 124 => ⟨S128, .f32⟩
  | 125 => ⟨S128, .f32⟩
  | 126 => ⟨S128, .f32⟩
  | 127 => ⟨S1x128, .f32⟩
  | _ => ⟨S100000x128, .f32⟩

abbrev hbmTy0_1 (i : Nat) : BufTy := match i % 128 with
  | 0 => ⟨S20000x128, .f32⟩
  | 1 => ⟨S20000x128, .f32⟩
  | 2 => ⟨S1x128, .f32⟩
  | 3 => ⟨S20000x128, .f32⟩
  | 4 => ⟨S20000x128, .f32⟩
  | 5 => ⟨S1x128, .f32⟩
  | 6 => ⟨S20000x128, .f32⟩
  | 7 => ⟨S20000x128, .f32⟩
  | 8 => ⟨S_, .f32⟩
  | 9 => ⟨S_, .f32⟩
  | 10 => ⟨S20000x128, .f32⟩
  | 11 => ⟨S20000x128, .i1⟩
  | 12 => ⟨S_, .f32⟩
  | 13 => ⟨S20000x128, .f32⟩
  | 14 => ⟨S20000x128, .f32⟩
  | 15 => ⟨S20000x128, .f32⟩
  | 16 => ⟨S128x64, .f32⟩
  | 17 => ⟨S20000x64, .f32⟩
  | 18 => ⟨S1x64, .f32⟩
  | 19 => ⟨S20000x64, .f32⟩
  | 20 => ⟨S20000x64, .f32⟩
  | 21 => ⟨S_, .f32⟩
  | 22 => ⟨S64, .f32⟩
  | 23 => ⟨S_, .f32⟩
  | 24 => ⟨S64, .f32⟩
  | 25 => ⟨S64, .f32⟩
  | 26 => ⟨S1x64, .f32⟩
  | 27 => ⟨S20000x64, .f32⟩
  | 28 => ⟨S20000x64, .f32⟩
  | 29 => ⟨S20000x64, .f32⟩
  | 30 => ⟨S_, .f32⟩
  | 31 => ⟨S64, .f32⟩
  | 32 => ⟨S_, .f32⟩
  | 33 => ⟨S64, .f32⟩
  | 34 => ⟨S64, .f32⟩
  | 35 => ⟨S1x64, .f32⟩
  | 36 => ⟨S20000x64, .f32⟩
  | 37 => ⟨S20000x64, .f32⟩
  | 38 => ⟨S_, .f32⟩
  | 39 => ⟨S64, .f32⟩
  | 40 => ⟨S64, .f32⟩
  | 41 => ⟨S64, .f32⟩
  | 42 => ⟨S1x64, .f32⟩
  | 43 => ⟨S20000x64, .f32⟩
  | 44 => ⟨S20000x64, .f32⟩
  | 45 => ⟨S1x64, .f32⟩
  | 46 => ⟨S20000x64, .f32⟩
  | 47 => ⟨S20000x64, .f32⟩
  | 48 => ⟨S1x64, .f32⟩
  | 49 => ⟨S20000x64, .f32⟩
  | 50 => ⟨S20000x64, .f32⟩
  | 51 => ⟨S_, .f32⟩
  | 52 => ⟨S_, .f32⟩
  | 53 => ⟨S20000x64, .f32⟩
  | 54 => ⟨S20000x64, .i1⟩
  | 55 => ⟨S_, .f32⟩
  | 56 => ⟨S20000x64, .f32⟩
  | 57 => ⟨S20000x64, .f32⟩
  | 58 => ⟨S20000x64, .f32⟩
  | 59 => ⟨S64x1, .f32⟩
  | 60 => ⟨S20000x1, .f32⟩
  | 61 => ⟨S1x1, .f32⟩
  | 62 => ⟨S20000x1, .f32⟩
  | 63 => ⟨S20000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_call0_cst : Ref sig .tc := ⟨.hbm, 56, rfl⟩
abbrev main_call0_v0 : Ref sig .tc := ⟨.hbm, 57, rfl⟩
abbrev main_v31 : Ref sig .tc := ⟨.hbm, 58, rfl⟩
abbrev main_c_4 : Ref sig .tc := ⟨.hbm, 59, rfl⟩
abbrev main_v32 : Ref sig .tc := ⟨.hbm, 60, rfl⟩
abbrev main_v33 : Ref sig .tc := ⟨.hbm, 61, rfl⟩
abbrev main_c_5 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_6 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_7 : Ref sig .tc := ⟨.hbm, 72, rfl⟩
abbrev main_v42 : Ref sig .tc := ⟨.hbm, 73, rfl⟩
abbrev main_cst_8 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_9 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_c_10 : Ref sig .tc := ⟨.hbm, 92, rfl⟩
abbrev main_v59 : Ref sig .tc := ⟨.hbm, 93, rfl⟩
abbrev main_v60 : Ref sig .tc := ⟨.hbm, 94, rfl⟩
abbrev main_c_11 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_12 : Ref sig .tc := ⟨.hbm, 106, rfl⟩
abbrev main_v71 : Ref sig .tc := ⟨.hbm, 107, rfl⟩
abbrev main_cst_13 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_14 : Ref sig .tc := ⟨.hbm, 115, rfl⟩
abbrev main_v78 : Ref sig .tc := ⟨.hbm, 116, rfl⟩
abbrev main_cst_15 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_16 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_17 : Ref sig .tc := ⟨.hbm, 136, rfl⟩
abbrev main_call1_cst : Ref sig .tc := ⟨.hbm, 137, rfl⟩
abbrev main_call1_v0 : Ref sig .tc := ⟨.hbm, 138, rfl⟩
abbrev main_call1_v1 : Ref sig .tc := ⟨.hbm, 139, rfl⟩
abbrev main_call1_v2 : Ref sig .tc := ⟨.hbm, 140, rfl⟩
abbrev main_call1_v3 : Ref sig .tc := ⟨.hbm, 141, rfl⟩
abbrev main_call1_v4 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_18 : Ref sig .tc := ⟨.hbm, 149, rfl⟩
abbrev main_v102 : Ref sig .tc := ⟨.hbm, 150, rfl⟩
abbrev main_cst_19 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_cst_20 : Ref sig .tc := ⟨.hbm, 158, rfl⟩
abbrev main_v109 : Ref sig .tc := ⟨.hbm, 159, rfl⟩
abbrev main_cst_21 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_cst_22 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_cst_23 : Ref sig .tc := ⟨.hbm, 179, rfl⟩
abbrev main_call2_cst : Ref sig .tc := ⟨.hbm, 180, rfl⟩
abbrev main_call2_v0 : Ref sig .tc := ⟨.hbm, 181, rfl⟩
abbrev main_call2_v1 : Ref sig .tc := ⟨.hbm, 182, rfl⟩
abbrev main_call2_v2 : Ref sig .tc := ⟨.hbm, 183, rfl⟩
abbrev main_call2_v3 : Ref sig .tc := ⟨.hbm, 184, rfl⟩
abbrev main_call2_v4 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S1x128_S20000x128_0_1 : S1x128.BroadcastsInDim S20000x128 (![0, 1] : Fin 2 → Fin S20000x128.rank)
  reducesTo_S20000x128_S128_d0 : S20000x128.ReducesTo [0] S128
  h_S_ : 0 < S_.numel
  bcast_S_S128 : S_.BroadcastsInDim S128 (![] : Fin 0 → Fin S128.rank)
  bcast_S_S20000x128 : S_.BroadcastsInDim S20000x128 (![] : Fin 0 → Fin S20000x128.rank)
  transposes_S64x128_S128x64_1_0 : S64x128.Transposes [1, 0] S128x64
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  reducesTo_S20000x64_S64_d0 : S20000x64.ReducesTo [0] S64
  bcast_S_S64 : S_.BroadcastsInDim S64 (![] : Fin 0 → Fin S64.rank)
  bcast_S_S20000x64 : S_.BroadcastsInDim S20000x64 (![] : Fin 0 → Fin S20000x64.rank)
  transposes_S1x64_S64x1_1_0 : S1x64.Transposes [1, 0] S64x1
  bcast_S1_S1x1_1 : S1.BroadcastsInDim S1x1 (![1] : Fin 1 → Fin S1x1.rank)
  bcast_S1x1_S20000x1_0_1 : S1x1.BroadcastsInDim S20000x1 (![0, 1] : Fin 2 → Fin S20000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S20000x1_S20000x128_1_0_n_n_0_1_1128_wf : GatherDims.WF S100000x128 S20000x1 S20000x128 [1] [0] [] [0] [] 1 ![1, 128]
  dot_S20000x128_S128x128_S20000x128_1_0_0_1_n_n_wf : DotDims.WF S20000x128 S128x128 S20000x128 [1] [0] [0] [1] [] []
  dot_S20000x128_S128x64_S20000x64_1_0_0_1_n_n_wf : DotDims.WF S20000x128 S128x64 S20000x64 [1] [0] [0] [1] [] []
  dot_S20000x64_S64x1_S20000x1_1_0_0_1_n_n_wf : DotDims.WF S20000x64 S64x1 S20000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S20000x1_S20000x128_1_0_n_n_0_1_1128 : GatherDims S100000x128 S20000x1 S20000x128 where
  offsetDims := [1]
  collapsedSliceDims := [0]
  operandBatchingDims := []
  startIndicesBatchingDims := []
  startIndexMap := [0]
  indexVectorDim := 1
  sliceSizes := ![1, 128]
  wf := gather_S100000x128_S20000x1_S20000x128_1_0_n_n_0_1_1128_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf
def dot_S20000x64_S64x1_S20000x1_1_0_0_1_n_n : DotDims S20000x64 S64x1 S20000x1 where
  lhsContracting := [1]
  rhsContracting := [0]
  lhsNonContracting := [0]
  rhsNonContracting := [1]
  lhsBatch := []
  rhsBatch := []
  wf := dot_S20000x64_S64x1_S20000x1_1_0_0_1_n_n_wf

class Facts : Prop extends Facts₀ where

variable [Facts]
-- ==== Proof.Spec.lean ====
/-
  The network this certificate is about, as ONE function of its nineteen argument arrays, over the extended reals.

  Two graph-convolution layers with mean aggregation, a row selection, and a three-layer perceptron head with two
  batch normalisations:

    deg(i)  = number of edges whose destination is node i
    agg h   = for each node i, the sum over the edges e with destination i of row src(e) of h
    sage h  = (agg h / max(deg, 1)) · Wlᵀ + bl + h · Wrᵀ            (the quotient row by row)
    h1      = max(sage x, 0),   h2 = sage h1   (second layer's weights),   hs = the rows of h2 picked by node_index
    z1      = hs · W1ᵀ + b1;    a1 = leaky_0.1 (bn z1);   z2 = a1 · W2ᵀ + b2;   a2 = leaky_0.05 (bn z2);   out = a2 · W3ᵀ + b3
    bn z    = (z − μ) · rsqrt(σ² + ε) · γ + β with μ, σ² the column mean and the column mean of (z − μ)², over the 20000 rows
    leaky_s y = y where y ≥ 0, s · y elsewhere.

  Every layer is written here with the host's whole-array operations (gather, scatter-add, dot_general, reduce,
  broadcast_in_dim, the elementwise operations), one definition per layer, so that a run of either program can be
  stated against the same term: nothing in this file is ever unfolded except layer by layer.
-/
import proofs.«111575_j78099685310579_1_alg».proof.ReferenceIdeal
import Idealize.ShloMosaic.PureOps.Ideal

noncomputable section

namespace Cert.Spec

open Idealize.ShloMosaic Cert.ReferenceIdeal Cert.ReferenceIdeal.Facts₀ Cert.ReferenceIdeal.Facts

variable [Cert.ReferenceIdeal.Facts]

/-! ## The edge list -/

/-- Row 0 of the edge list (the sources), as a vector. -/
def srcRow (ei : IVec S2x1600000 32) : IVec S1600000 32 :=
  shapeCast S1600000 (extractStridedSlice S1x1600000 ![0, 0] ei slices_S2x1600000_S1x1600000_0_0) shapeCasts_S1x1600000_S1600000

/-- Row 1 of the edge list (the destinations), as a vector. -/
def dstRow (ei : IVec S2x1600000 32) : IVec S1600000 32 :=
  shapeCast S1600000 (extractStridedSlice S1x1600000 ![1, 0] ei slices_S2x1600000_S1x1600000_1_0) shapeCasts_S1x1600000_S1600000

/-- The sources as a column of start indices: a negative index counts from the end (100000 is added to it). -/
def src (ei : IVec S2x1600000 32) : IVec S1600000x1 32 :=
  broadcastInDim S1600000x1 ![0] bcast_S1600000_S1600000x1_0
    (select (cmpi .slt (srcRow ei) (broadcastInDim S1600000 ![] bcast_S_S1600000 (constantI S_ 32 0#32)))
      (addi (srcRow ei) (broadcastInDim S1600000 ![] bcast_S_S1600000 (constantI S_ 32 100000#32)))
      (srcRow ei))

/-- The destinations as a column of scatter indices. -/
def dst (ei : IVec S2x1600000 32) : IVec S1600000x1 32 :=
  broadcastInDim S1600000x1 ![0] bcast_S1600000_S1600000x1_0 (dstRow ei)

/-- For each node, the sum over its incoming edges of the source node's row of `h`. -/
def aggregate (h : FVec Ideal S100000x128 .f32) (ei : IVec S2x1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (dst ei)
    (Host.gather gather_S100000x128_S1600000x1_S1600000x128_1_0_n_n_0_1_1128 h (src ei))

/-- For each node, the number of its incoming edges. -/
def degree (ei : IVec S2x1600000 32) : FVec Ideal S100000 .f32 :=
  Host.scatterAdd scatter_S100000_S1600000x1_S1600000_n_0_0_1
    (broadcastInDim S100000 ![] bcast_S_S100000 (constant (F := Ideal) S_ .f32 0x00000000#32))
    (dst ei)
    (broadcastInDim S1600000 ![] bcast_S_S1600000 (constant (F := Ideal) S_ .f32 0x3F800000#32))

/-- The degrees as a column. -/
def degreeCol (deg : FVec Ideal S100000 .f32) : FVec Ideal S100000x1 .f32 :=
  broadcastInDim S100000x1 ![0] bcast_S100000_S100000x1_0 deg

/-! ## A graph-convolution layer -/

/-- `(s / max(deg, 1)) · Wlᵀ + bl + h · Wrᵀ`: the aggregated rows averaged, the two products, the bias. -/
def sage (s : FVec Ideal S100000x128 .f32) (deg : FVec Ideal S100000 .f32) (h : FVec Ideal S100000x128 .f32)
    (Wl : FVec Ideal S128x128 .f32) (bl : FVec Ideal S128 .f32) (Wr : FVec Ideal S128x128 .f32) : FVec Ideal S100000x128 .f32 :=
  addf
    (addf
      (Host.dotGeneral dot_S100000x128_S128x128_S100000x128_1_0_0_1_n_n none
        (Host.divf s
          (broadcastInDim S100000x128 ![0, 1] bcast_S100000x1_S100000x128_0_1
            (broadcastInDim S100000x1 ![0] bcast_S100000_S100000x1_0
              (maximumf deg (broadcastInDim S100000 ![] bcast_S_S100000 (constant (F := Ideal) S_ .f32 0x3F800000#32))))))
        (transpose S128x128 [1, 0] Wl transposes_S128x128_S128x128_1_0))
      (broadcastInDim S100000x128 ![0, 1] bcast_S1x128_S100000x128_0_1 (broadcastInDim S1x128 ![1] bcast_S128_S1x128_1 bl)))
    (Host.dotGeneral dot_S100000x128_S128x128_S100000x128_1_0_0_1_n_n none h
      (transpose S128x128 [1, 0] Wr transposes_S128x128_S128x128_1_0))

/-- The rectifier: the maximum with zero. -/
def relu (y : FVec Ideal S100000x128 .f32) : FVec Ideal S100000x128 .f32 :=
  maximumf y (broadcastInDim S100000x128 ![] bcast_S_S100000x128 (constant (F := Ideal) S_ .f32 0x00000000#32))

/-- The target nodes as a column of start indices (a negative index counts from the end). -/
def nodeCol (ni : IVec S20000 32) : IVec S20000x1 32 :=
  broadcastInDim S20000x1 ![0] bcast_S20000_S20000x1_0
    (select (cmpi .slt ni (broadcastInDim S20000 ![] bcast_S_S20000 (constantI S_ 32 0#32)))
      (addi ni (broadcastInDim S20000 ![] bcast_S_S20000 (constantI S_ 32 100000#32)))
      ni)

/-- The rows of `h` at the target nodes. -/
def pick (h : FVec Ideal S100000x128 .f32) (ni : IVec S20000 32) : FVec Ideal S20000x128 .f32 :=
  Host.gather gather_S100000x128_S20000x1_S20000x128_1_0_n_n_0_1_1128 h (nodeCol ni)

/-! ## The head: 128 columns -/

/-- A vector of 128 column values spread over the 20000 rows. -/
def rows128 (v : FVec Ideal S128 .f32) : FVec Ideal S20000x128 .f32 :=
  broadcastInDim S20000x128 ![0, 1] bcast_S1x128_S20000x128_0_1 (broadcastInDim S1x128 ![1] bcast_S128_S1x128_1 v)

/-- `x · Wᵀ + b`, 128 to 128 columns. -/
def lin128 (x : FVec Ideal S20000x128 .f32) (W : FVec Ideal S128x128 .f32) (b : FVec Ideal S128 .f32) : FVec Ideal S20000x128 .f32 :=
  addf
    (Host.dotGeneral dot_S20000x128_S128x128_S20000x128_1_0_0_1_n_n none x
      (transpose S128x128 [1, 0] W transposes_S128x128_S128x128_1_0))
    (rows128 b)

/-- The column means over the 20000 rows. -/
def mean128 (z : FVec Ideal S20000x128 .f32) : FVec Ideal S128 .f32 :=
  Host.divf (Host.reduceAdd z (constant (F := Ideal) S_ .f32 0x00000000#32) reducesTo_S20000x128_S128_d0 h_S_)
    (broadcastInDim S128 ![] bcast_S_S128 (constant (F := Ideal) S_ .f32 0x469C4000#32))

/-- The column means of the squared deviations from `mu`. -/
def var128 (z : FVec Ideal S20000x128 .f32) (mu : FVec Ideal S128 .f32) : FVec Ideal S128 .f32 :=
  Host.divf
    (Host.reduceAdd (mulf (subf z (rows128 mu)) (subf z (rows128 mu))) (constant (F := Ideal) S_ .f32 0x00000000#32)
      reducesTo_S20000x128_S128_d0 h_S_)
    (broadcastInDim S128 ![] bcast_S_S128 (constant (F := Ideal) S_ .f32 0x469C4000#32))

/-- `(z − μ) · rsqrt(σ² + ε) · γ + β`, column statistics given. -/
def bn128 (z : FVec Ideal S20000x128 .f32) (mu var g be : FVec Ideal S128 .f32) : FVec Ideal S20000x128 .f32 :=
  addf
    (mulf
      (mulf (subf z (rows128 mu))
        (rows128 (Host.rsqrt (addf var (broadcastInDim S128 ![] bcast_S_S128 (constant (F := Ideal) S_ .f32 0x3727C5AC#32))))))
      (rows128 g))
    (rows128 be)

/-- `y` where `y ≥ 0`, `slope · y` elsewhere; the slope given by its float word. -/
def leaky128 (slope : BitVec 32) (y : FVec Ideal S20000x128 .f32) : FVec Ideal S20000x128 .f32 :=
  select (cmpf .oge y (broadcastInDim S20000x128 ![] bcast_S_S20000x128 (constant (F := Ideal) S_ .f32 0x00000000#32)))
    y
    (mulf (broadcastInDim S20000x128 ![] bcast_S_S20000x128 (id (constant (F := Ideal) S_ .f32 slope))) y)

/-! ## The head: 64 columns -/

/-- A vector of 64 column values spread over the 20000 rows. -/
def rows64 (v : FVec Ideal S64 .f32) : FVec Ideal S20000x64 .f32 :=
  broadcastInDim S20000x64 ![0, 1] bcast_S1x64_S20000x64_0_1 (broadcastInDim S1x64 ![1] bcast_S64_S1x64_1 v)

/-- `x · Wᵀ + b`, 128 to 64 columns. -/
def lin64 (x : FVec Ideal S20000x128 .f32) (W : FVec Ideal S64x128 .f32) (b : FVec Ideal S64 .f32) : FVec Ideal S20000x64 .f32 :=
  addf
    (Host.dotGeneral dot_S20000x128_S128x64_S20000x64_1_0_0_1_n_n none x
      (transpose S128x64 [1, 0] W transposes_S64x128_S128x64_1_0))
    (rows64 b)

/-- The column means over the 20000 rows. -/
def mean64 (z : FVec Ideal S20000x64 .f32) : FVec Ideal S64 .f32 :=
  Host.divf (Host.reduceAdd z (constant (F := Ideal) S_ .f32 0x00000000#32) reducesTo_S20000x64_S64_d0 h_S_)
    (broadcastInDim S64 ![] bcast_S_S64 (constant (F := Ideal) S_ .f32 0x469C4000#32))

/-- The column means of the squared deviations from `mu`. -/
def var64 (z : FVec Ideal S20000x64 .f32) (mu : FVec Ideal S64 .f32) : FVec Ideal S64 .f32 :=
  Host.divf
    (Host.reduceAdd (mulf (subf z (rows64 mu)) (subf z (rows64 mu))) (constant (F := Ideal) S_ .f32 0x00000000#32)
      reducesTo_S20000x64_S64_d0 h_S_)
    (broadcastInDim S64 ![] bcast_S_S64 (constant (F := Ideal) S_ .f32 0x469C4000#32))

/-- `(z − μ) · rsqrt(σ² + ε) · γ + β`, column statistics given. -/
def bn64 (z : FVec Ideal S20000x64 .f32) (mu var g be : FVec Ideal S64 .f32) : FVec Ideal S20000x64 .f32 :=
  addf
    (mulf
      (mulf (subf z (rows64 mu))
        (rows64 (Host.rsqrt (addf var (broadcastInDim S64 ![] bcast_S_S64 (constant (F := Ideal) S_ .f32 0x3727C5AC#32))))))
      (rows64 g))
    (rows64 be)

/-- `y` where `y ≥ 0`, `slope · y` elsewhere; the slope given by its float word. -/
def leaky64 (slope : BitVec 32) (y : FVec Ideal S20000x64 .f32) : FVec Ideal S20000x64 .f32 :=
  select (cmpf .oge y (broadcastInDim S20000x64 ![] bcast_S_S20000x64 (constant (F := Ideal) S_ .f32 0x00000000#32)))
    y
    (mulf (broadcastInDim S20000x64 ![] bcast_S_S20000x64 (id (constant (F := Ideal) S_ .f32 slope))) y)

/-- `x · Wᵀ + b`, 64 columns to one. -/
def lin1 (x : FVec Ideal S20000x64 .f32) (W : FVec Ideal S1x64 .f32) (b : FVec Ideal S1 .f32) : FVec Ideal S20000x1 .f32 :=
  addf
    (Host.dotGeneral dot_S20000x64_S64x1_S20000x1_1_0_0_1_n_n none x
      (transpose S64x1 [1, 0] W transposes_S1x64_S64x1_1_0))
    (broadcastInDim S20000x1 ![0, 1] bcast_S1x1_S20000x1_0_1 (broadcastInDim S1x1 ![1] bcast_S1_S1x1_1 b))

/-! ## The whole network -/

/-- The first hidden layer: the rectified graph convolution of the input rows. -/
def hidden1 (x : FVec Ideal S100000x128 .f32) (ei : IVec S2x1600000 32) (W1l : FVec Ideal S128x128 .f32) (b1 : FVec Ideal S128 .f32)
    (W1r : FVec Ideal S128x128 .f32) : FVec Ideal S100000x128 .f32 :=
  relu (sage (aggregate x ei) (degree ei) x W1l b1 W1r)

/-- The second hidden layer: the graph convolution of the first, not rectified. -/
def hidden2 (h1 : FVec Ideal S100000x128 .f32) (ei : IVec S2x1600000 32) (W2l : FVec Ideal S128x128 .f32) (b2 : FVec Ideal S128 .f32)
    (W2r : FVec Ideal S128x128 .f32) : FVec Ideal S100000x128 .f32 :=
  sage (aggregate h1 ei) (degree ei) h1 W2l b2 W2r

/-- Normalise the 128 columns by their own batch statistics, then the leaky rectifier of slope 0.1. -/
def act128 (z : FVec Ideal S20000x128 .f32) (g be : FVec Ideal S128 .f32) : FVec Ideal S20000x128 .f32 :=
  leaky128 0x3DCCCCCD#32 (bn128 z (mean128 z) (var128 z (mean128 z)) g be)

/-- Normalise the 64 columns by their own batch statistics, then the leaky rectifier of slope 0.05. -/
def act64 (z : FVec Ideal S20000x64 .f32) (g be : FVec Ideal S64 .f32) : FVec Ideal S20000x64 .f32 :=
  leaky64 0x3D4CCCCD#32 (bn64 z (mean64 z) (var64 z (mean64 z)) g be)

/-- The network's result, of its nineteen arguments in the programs' order. -/
def G (x : FVec Ideal S100000x128 .f32) (ei : IVec S2x1600000 32) (ni : IVec S20000 32)
    (W1l : FVec Ideal S128x128 .f32) (b1 : FVec Ideal S128 .f32) (W1r : FVec Ideal S128x128 .f32)
    (W2l : FVec Ideal S128x128 .f32) (b2 : FVec Ideal S128 .f32) (W2r : FVec Ideal S128x128 .f32)
    (fcW1 : FVec Ideal S128x128 .f32) (fcb1 : FVec Ideal S128 .f32) (fcW2 : FVec Ideal S64x128 .f32) (fcb2 : FVec Ideal S64 .f32)
    (fcW3 : FVec Ideal S1x64 .f32) (fcb3 : FVec Ideal S1 .f32) (g1 be1 : FVec Ideal S128 .f32) (g2 be2 : FVec Ideal S64 .f32) : FVec Ideal S20000x1 .f32 :=
  lin1
    (act64
      (lin64
        (act128 (lin128 (pick (hidden2 (hidden1 x ei W1l b1 W1r) ei W2l b2 W2r) ni) fcW1 fcb1) g1 be1)
        fcW2 fcb2)
      g2 be2)
    fcW3 fcb3

end Cert.Spec

end
-- ==== Proof.KernelRun.lean ====
/-
  The idealized kernel's run with its result kept: every weakly fair execution of @main terminates, nothing faulting,
  with the result buffer at the contents the run's last boundary gives it (the fold of the host stretches and the seven
  regions' write-backs from the launch memory) and the argument arrays as launched. It is the frame's run over the same
  segments, read once more at the end for the result buffer as well as for the arguments.
-/
import proofs.«111575_j78099685310579_1_alg».proof.Proof.Gen.KernelIdeal.Frame

set_option maxRecDepth 16384

noncomputable section

namespace Cert.KernelIdeal.Valued

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and the arguments unchanged. -/
theorem run : θ_run defs (onTc (τ := τ) (main (F := F))) ⟨m, fun _ => 0, ρ⟩ (fun r => ∀ c : Dev nD,
      r.2.mem ((c.tc : Thread nD τ).loc main_v62) = W12 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v62 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c)⟩)

end Cert.KernelIdeal.Valued

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibHostDotPlain.lean ====
/-
  The host's plain matrix product read at an index, over the extended reals.

  For the dimension numbers of an [M, K] by [K, N] product with no batch axis, the host's dot_general at the entry
  (p, q) is the sum over k < K of A (p, k) * B (k, q), whatever precision it is asked for. The extents are arbitrary,
  and so are the operands' float formats.
-/
import proofs.«111575_j78099685310579_1_alg».proof.Proof.LibMatmulPlain

noncomputable section

open scoped BigOperators

namespace Idealize.ShloMosaic.HostDotPlain

open Idealize.ShloMosaic Idealize.ShloMosaic.ValueIdx

variable {M K N : Nat}

/-- The host's plain product at an entry: the row-by-column sum. -/
theorem dotGeneral_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    Host.dotGeneral (F := Ideal) (DotDims.plain M K N) prec A B j = ∑ k : Fin K, A (ix2 (j 0) k) * B (ix2 k (j 1)) := by
  refine (Ideal.dotGeneral_apply (DotDims.plain M K N) prec .single A B j).trans ?_
  rw [← Equiv.sum_comp (contrEquiv1 (DotDims.plain M K N) K MatmulPlain.contr_rank MatmulPlain.contr_size).symm]
  exact Finset.sum_congr rfl fun k _ => by rw [MatmulPlain.lhsIdx_eq, MatmulPlain.rhsIdx_eq]; rfl

end Idealize.ShloMosaic.HostDotPlain

end
-- ==== Proof.LibDense.lean ====
/-
  A dense layer read at an entry, over the extended reals.

  A dense layer is a plain matrix product plus a bias vector added to every row. On the matrix unit it is written as the
  product into a zero accumulator plus the bias, held as a one-row matrix, broadcast over the rows; on the host as the
  dot_general plus the bias vector broadcast first to one row and then over the rows. Either way the entry (p, q) is
  the row-by-column sum Σ_k A (p, k) · B (k, q) plus the bias at q. The extents and the operands' float formats are
  arbitrary.
-/
import proofs.«111575_j78099685310579_1_alg».proof.Proof.LibMatmulPlain
import proofs.«111575_j78099685310579_1_alg».proof.Proof.LibHostDotPlain
import Idealize.ShloMosaic.Lib.ValueLayout
import Idealize.ShloMosaic.Lib.Pipeline.Value

noncomputable section

open scoped BigOperators

namespace Idealize.ShloMosaic.Dense

open Idealize.ShloMosaic Idealize.ShloMosaic.ValueIdx

variable {M K N : Nat}

/-- The matrix unit's dense layer at an entry: the product into the zero accumulator, plus the one-row bias broadcast
    over the rows. -/
theorem matmul_bias_apply {φ₁ φ₂ : FTy} (A : FVec Ideal ⟨2, ![M, K]⟩ φ₁) (B : FVec Ideal ⟨2, ![K, N]⟩ φ₂)
    (c : FVec Ideal ⟨2, ![1, N]⟩ .f32) (h : (⟨2, ![1, N]⟩ : Shape).Broadcasts ⟨2, ![M, N]⟩) (p : Fin M) (q : Fin N) :
    addf (matmul (DotDims.plain M K N) none A B (constant (F := Ideal) ⟨2, ![M, N]⟩ .f32 0x00000000#32))
        (broadcastTo ⟨2, ![M, N]⟩ c h) (ix2 p q)
      = ∑ k : Fin K, A (ix2 p k) * B (ix2 k q) + c (ix2 (0 : Fin 1) q) := by
  show matmul (DotDims.plain M K N) none A B (constant (F := Ideal) ⟨2, ![M, N]⟩ .f32 0x00000000#32) (ix2 p q)
      + broadcastTo ⟨2, ![M, N]⟩ c h (ix2 p q) = _
  rw [MatmulPlain.matmul_zero_apply, broadcastTo_1b_ab_apply]
  rfl

/-- A bias vector broadcast to one row and then over the rows, at an entry: the bias at the column. -/
theorem bias_rows_apply (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  have hq : (if N = 1 then 0 else q.val) = q.val := by
    split
    · have := q.isLt; omega
    · rfl
  refine (broadcastInDim_apply ![0, 1] h2 _ (ix2 p q) (ix2 (0 : Fin 1) q) fun ax => ?_).trans ?_
  · match ax with
    | ⟨0, _⟩ => rfl
    | ⟨1, _⟩ => exact hq.symm
  · refine broadcastInDim_apply ![1] h1 b (ix2 (0 : Fin 1) q) (ix1 q) fun ax => ?_
    match ax with
    | ⟨0, _⟩ => exact hq.symm

/-- The host's dense layer at an entry: the dot_general plus the bias vector broadcast over the rows. -/
theorem dot_bias_apply {φ₁ φ₂ : FTy} (A : FVec Ideal ⟨2, ![M, K]⟩ φ₁) (B : FVec Ideal ⟨2, ![K, N]⟩ φ₂)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (F := Ideal) (DotDims.plain M K N) none A B)
        (broadcastInDim ⟨2, ![M, N]⟩ ![0, 1] h2 (broadcastInDim ⟨2, ![1, N]⟩ ![1] h1 b)) (ix2 p q)
      = ∑ k : Fin K, A (ix2 p k) * B (ix2 k q) + b (ix1 q) := by
  show Host.dotGeneral (F := Ideal) (DotDims.plain M K N) none A B (ix2 p q)
      + broadcastInDim ⟨2, ![M, N]⟩ ![0, 1] h2 (broadcastInDim ⟨2, ![1, N]⟩ ![1] h1 b) (ix2 p q) = _
  rw [HostDotPlain.dotGeneral_apply, bias_rows_apply]
  rfl

end Idealize.ShloMosaic.Dense

end
-- ==== Proof.LibLinearT.lean ====
/-
  A dense layer whose weight matrix is stored output-major, `y = x · Wᵀ + b` with `W` of shape [N, K], read at one entry
  of a block of rows, over the extended reals.

  The matrix unit's spelling works on a block `x` of `m` rows: it narrows both operands to a shorter float format (which
  changes nothing over the extended reals), transposes the narrowed weights to [K, N], multiplies into a zero
  accumulator and adds the bias held as one row spread over the rows. The host's spelling works on the whole array `X`
  of `M` rows: it transposes the weights, takes the dot_general and adds the bias broadcast to one row and then over
  the rows. Both are, at row R and column q,   Σ_k X(R,k) · W(q,k) + b(q),
  so when row `r` of the block is row `R` of the array the two agree there. No law of the extended reals is used
  beyond rewriting equal summands.
-/
import proofs.«111575_j78099685310579_1_alg».proof.Proof.LibMatmulPlain
import proofs.«111575_j78099685310579_1_alg».proof.Proof.LibHostDotPlain
import proofs.«111575_j78099685310579_1_alg».proof.Proof.LibDense
import Idealize.ShloMosaic.Lib.ValueLayout
import Idealize.ShloMosaic.Lib.Pipeline.Value

noncomputable section

open scoped BigOperators

namespace Idealize.ShloMosaic.LinearT

open Idealize.ShloMosaic Idealize.ShloMosaic.ValueIdx

variable {M m K N : Nat}

/-- The matrix unit's product with the transposed, narrowed weights, at (r, q): Σ_k x(r,k) · W(q,k). -/
theorem matmulT_apply (x : FVec Ideal ⟨2, ![m, K]⟩ .f32) (W : FVec Ideal ⟨2, ![N, K]⟩ .f32)
    (hn : FTy.bf16.bits < FTy.f32.bits) (ht : (⟨2, ![N, K]⟩ : Shape).Transposes [1, 0] ⟨2, ![K, N]⟩)
    (r : Fin m) (q : Fin N) :
    matmul (DotDims.plain m K N) none (truncf .bf16 x hn) (transpose ⟨2, ![K, N]⟩ [1, 0] (truncf .bf16 W hn) ht)
        (constant (F := Ideal) ⟨2, ![m, N]⟩ .f32 0x00000000#32) (ix2 r q)
      = ∑ k : Fin K, x (ix2 r k) * W (ix2 q k) := by
  rw [MatmulPlain.matmul_zero_apply]
  refine Finset.sum_congr rfl fun k _ => ?_
  show x (ix2 r k) * transpose ⟨2, ![K, N]⟩ [1, 0] (truncf .bf16 W hn) ht (ix2 k q) = x (ix2 r k) * W (ix2 q k)
  rw [transpose_ix2_apply]
  rfl

/-- The host's product with the transposed weights, at (R, q): Σ_k X(R,k) · W(q,k). -/
theorem dotT_apply (X : FVec Ideal ⟨2, ![M, K]⟩ .f32) (W : FVec Ideal ⟨2, ![N, K]⟩ .f32)
    (ht : (⟨2, ![N, K]⟩ : Shape).Transposes [1, 0] ⟨2, ![K, N]⟩) (R : Fin M) (q : Fin N) :
    Host.dotGeneral (F := Ideal) (DotDims.plain M K N) none X (transpose ⟨2, ![K, N]⟩ [1, 0] W ht) (ix2 R q)
      = ∑ k : Fin K, X (ix2 R k) * W (ix2 q k) := by
  rw [HostDotPlain.dotGeneral_apply]
  refine Finset.sum_congr rfl fun k _ => ?_
  show X (ix2 R k) * transpose ⟨2, ![K, N]⟩ [1, 0] W ht (ix2 k q) = X (ix2 R k) * W (ix2 q k)
  rw [transpose_ix2_apply]

/-- Row `r` of the block's product is row `R` of the whole product. -/
theorem productT_rows (X : FVec Ideal ⟨2, ![M, K]⟩ .f32) (W : FVec Ideal ⟨2, ![N, K]⟩ .f32)
    (x : FVec Ideal ⟨2, ![m, K]⟩ .f32) (hn : FTy.bf16.bits < FTy.f32.bits)
    (ht : (⟨2, ![N, K]⟩ : Shape).Transposes [1, 0] ⟨2, ![K, N]⟩)
    (r : Fin m) (R : Fin M) (q : Fin N) (hx : ∀ k : Fin K, x (ix2 r k) = X (ix2 R k)) :
    matmul (DotDims.plain m K N) none (truncf .bf16 x hn) (transpose ⟨2, ![K, N]⟩ [1, 0] (truncf .bf16 W hn) ht)
        (constant (F := Ideal) ⟨2, ![m, N]⟩ .f32 0x00000000#32) (ix2 r q)
      = Host.dotGeneral (F := Ideal) (DotDims.plain M K N) none X (transpose ⟨2, ![K, N]⟩ [1, 0] W ht) (ix2 R q) := by
  rw [matmulT_apply, dotT_apply]
  exact Finset.sum_congr rfl fun k _ => by rw [hx k]

/-- Row `r` of the block's `x · Wᵀ + b` is row `R` of the whole array's. -/
theorem linearT_rows (X : FVec Ideal ⟨2, ![M, K]⟩ .f32) (W : FVec Ideal ⟨2, ![N, K]⟩ .f32) (b : FVec Ideal ⟨1, ![N]⟩ .f32)
    (x : FVec Ideal ⟨2, ![m, K]⟩ .f32) (hn : FTy.bf16.bits < FTy.f32.bits)
    (ht : (⟨2, ![N, K]⟩ : Shape).Transposes [1, 0] ⟨2, ![K, N]⟩)
    (hr : (⟨1, ![N]⟩ : Shape).ShapeCasts ⟨2, ![1, N]⟩) (hb : (⟨2, ![1, N]⟩ : Shape).Broadcasts ⟨2, ![m, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (r : Fin m) (R : Fin M) (q : Fin N) (hx : ∀ k : Fin K, x (ix2 r k) = X (ix2 R k)) :
    addf (matmul (DotDims.plain m K N) none (truncf .bf16 x hn) (transpose ⟨2, ![K, N]⟩ [1, 0] (truncf .bf16 W hn) ht)
          (constant (F := Ideal) ⟨2, ![m, N]⟩ .f32 0x00000000#32))
        (broadcastTo ⟨2, ![m, N]⟩ (shapeCast ⟨2, ![1, N]⟩ b hr) hb) (ix2 r q)
      = addf (Host.dotGeneral (F := Ideal) (DotDims.plain M K N) none X (transpose ⟨2, ![K, N]⟩ [1, 0] W ht))
          (broadcastInDim ⟨2, ![M, N]⟩ ![0, 1] h2 (broadcastInDim ⟨2, ![1, N]⟩ ![1] h1 b)) (ix2 R q) := by
  show matmul (DotDims.plain m K N) none (truncf .bf16 x hn) (transpose ⟨2, ![K, N]⟩ [1, 0] (truncf .bf16 W hn) ht)
          (constant (F := Ideal) ⟨2, ![m, N]⟩ .f32 0x00000000#32) (ix2 r q)
        + broadcastTo ⟨2, ![m, N]⟩ (shapeCast ⟨2, ![1, N]⟩ b hr) hb (ix2 r q)
      = Host.dotGeneral (F := Ideal) (DotDims.plain M K N) none X (transpose ⟨2, ![K, N]⟩ [1, 0] W ht) (ix2 R q)
        + broadcastInDim ⟨2, ![M, N]⟩ ![0, 1] h2 (broadcastInDim ⟨2, ![1, N]⟩ ![1] h1 b) (ix2 R q)
  rw [productT_rows X W x hn ht r R q hx, broadcastTo_1b_ab_apply, shapeCast_a_1a_apply, Dense.bias_rows_apply]

end Idealize.ShloMosaic.LinearT

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.LibHostColRow.lean ====
/-
  Host broadcasts of a column and of a row, and a vector cast to a column or to a row, read at an index.

  For arbitrary extents and any element type.  A column [M, 1] broadcast (broadcast_in_dim, axes [0, 1]) to [M, N]
  reads at (r, q) the column's entry (r, 0); a row [1, N] broadcast to [M, N] reads at (r, q) the row's entry
  (0, q).  A vector of length M cast to the column [M, 1] holds the same entries as the vector broadcast into
  [M, 1] along axis 0, and a vector of length N cast to the row [1, N] the same as the vector broadcast into [1, N]
  along axis 1: so a program that reshapes a vector and one that broadcasts it agree.
-/
import proofs.«111575_j78099685310579_1_alg».proof.Proof.LibKeepdims
import Idealize.ShloMosaic.Lib.Pipeline.Value
import Idealize.ShloMosaic.Lib.ValueLayout
import Idealize.ShloMosaic.Lib.ValueIdx

namespace Idealize.ShloMosaic.HostColRow

open Idealize.ShloMosaic Idealize.ShloMosaic.ValueIdx

variable {M N : Nat}

/-- A column broadcast along the lanes, at (r, q): the column's entry of row r. -/
theorem bcast_col_apply {α : Type} (n : (⟨2, ![M, 1]⟩ : Shape).Idx → α)
    (h : (⟨2, ![M, 1]⟩ : Shape).BroadcastsInDim ⟨2, ![M, N]⟩ ![0, 1]) (i : (⟨2, ![M, N]⟩ : Shape).Idx) :
    broadcastInDim ⟨2, ![M, N]⟩ ![0, 1] h n i = n (ix2 (i 0) (0 : Fin 1)) := by
  refine broadcastInDim_apply _ h n i (ix2 (i 0) (0 : Fin 1)) fun a => ?_
  match a with
  | ⟨0, _⟩ =>
    show (i 0).val = if M = 1 then 0 else (i 0).val
    have h0 : (i 0).val < M := (i 0).isLt
    split
    · omega
    · rfl
  | ⟨1, _⟩ => rfl

/-- A row broadcast over the rows, at (r, q): the row's entry of lane q. -/
theorem bcast_row_apply {α : Type} (b : (⟨2, ![1, N]⟩ : Shape).Idx → α)
    (h : (⟨2, ![1, N]⟩ : Shape).BroadcastsInDim ⟨2, ![M, N]⟩ ![0, 1]) (i : (⟨2, ![M, N]⟩ : Shape).Idx) :
    broadcastInDim ⟨2, ![M, N]⟩ ![0, 1] h b i = b (ix2 (0 : Fin 1) (i 1)) := by
  refine broadcastInDim_apply _ h b i (ix2 (0 : Fin 1) (i 1)) fun a => ?_
  match a with
  | ⟨0, _⟩ => rfl
  | ⟨1, _⟩ =>
    show (i 1).val = if N = 1 then 0 else (i 1).val
    have h1 : (i 1).val < N := (i 1).isLt
    split
    · omega
    · rfl

/-- A vector cast to a column holds what the vector broadcast into the column along its axis holds. -/
theorem col_eq {α : Type} (x : (⟨1, ![M]⟩ : Shape).Idx → α) (h : (⟨1, ![M]⟩ : Shape).ShapeCasts ⟨2, ![M, 1]⟩)
    (h' : (⟨1, ![M]⟩ : Shape).BroadcastsInDim ⟨2, ![M, 1]⟩ ![0]) :
    shapeCast ⟨2, ![M, 1]⟩ x h = broadcastInDim ⟨2, ![M, 1]⟩ ![0] h' x := by
  funext i
  obtain ⟨p, u, rfl⟩ : ∃ (p : Fin M) (u : Fin 1), i = ix2 p u := ⟨i 0, i 1, eq_ix2 i⟩
  rw [Keepdims.shapeCast_a_a1_apply x h p u]
  refine (broadcastInDim_apply ![0] h' x _ (ix1 p) fun a => ?_).symm
  match a with
  | ⟨0, _⟩ =>
    show p.val = if M = 1 then 0 else p.val
    have h0 : p.val < M := p.isLt
    split
    · omega
    · rfl

/-- A vector cast to a row holds what the vector broadcast into the row along its axis holds. -/
theorem row_eq {α : Type} (x : (⟨1, ![N]⟩ : Shape).Idx → α) (h : (⟨1, ![N]⟩ : Shape).ShapeCasts ⟨2, ![1, N]⟩)
    (h' : (⟨1, ![N]⟩ : Shape).BroadcastsInDim ⟨2, ![1, N]⟩ ![1]) :
    shapeCast ⟨2, ![1, N]⟩ x h = broadcastInDim ⟨2, ![1, N]⟩ ![1] h' x := by
  funext i
  obtain ⟨u, q, rfl⟩ : ∃ (u : Fin 1) (q : Fin N), i = ix2 u q := ⟨i 0, i 1, eq_ix2 i⟩
  rw [shapeCast_a_1a_apply x h u q]
  refine (broadcastInDim_apply ![1] h' x _ (ix1 q) fun a => ?_).symm
  match a with
  | ⟨0, _⟩ =>
    show q.val = if N = 1 then 0 else q.val
    have h1 : q.val < N := q.isLt
    split
    · omega
    · rfl

end Idealize.ShloMosaic.HostColRow
-- ==== Proof.LibBcastVec.lean ====
/-
  A vector broadcast along one new axis, read at an entry.

  A length-b vector x placed as the row of a [1, b] matrix (broadcast_in_dim along axis 1) reads x k at (u, k); placed
  as the column of an [a, 1] matrix (along axis 0) it reads x i at (i, u); and a one-element vector spread over a
  length-a vector (along axis 0) reads its one entry everywhere. Arbitrary extents and element type.
-/
import Idealize.ShloMosaic.Lib.Pipeline.Value
import Idealize.ShloMosaic.Lib.ValueIdx

noncomputable section

namespace Idealize.ShloMosaic.BcastVec

open Idealize.ShloMosaic Idealize.ShloMosaic.ValueIdx

variable {α : Type}

/-- A vector as a one-row matrix: entry (u, k) is the vector's entry k. -/
theorem bcast_vec_row_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) :=
  broadcastInDim_apply _ h x _ _ (fun a => by
    match a with
    | ⟨0, _⟩ =>
      show k.val = if b = 1 then 0 else k.val
      split
      · omega
      · rfl)

/-- A vector as a one-column matrix: entry (i, u) is the vector's entry i. -/
theorem bcast_vec_col_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun c => by
    match c with
    | ⟨0, _⟩ =>
      show i.val = if a = 1 then 0 else i.val
      split
      · omega
      · rfl)

/-- A one-element vector spread over a vector: every entry is the one element. -/
theorem bcast_one_apply {a : ℕ} (x : (⟨1, ![1]⟩ : Shape).Idx → α)
    (h : (⟨1, ![1]⟩ : Shape).BroadcastsInDim ⟨1, ![a]⟩ ![0]) (i : Fin a) :
    broadcastInDim ⟨1, ![a]⟩ ![0] h x (ix1 i) = x (ix1 (0 : Fin 1)) :=
  broadcastInDim_apply _ h x _ _ (fun c => by
    match c with
    | ⟨0, _⟩ => rfl)

end Idealize.ShloMosaic.BcastVec

end
-- ==== Proof.LibSageRows.lean ====
/-
  A graph-convolution layer with mean aggregation, `y = (s / max(cnt, 1)) · Wlᵀ + bl + h · Wrᵀ`, read at one entry of a
  block of rows, over the extended reals.

  Here s holds, row by row, the sum of the neighbours' rows, cnt the number of neighbours of each row, h the rows
  themselves; the weight matrices are stored output-major, of shape [N, K].

  The matrix unit's spelling works on a block of m rows. The counts arrive as a column [m, 1]; the column's maximum
  with one is spread over the K lanes and divides s entry by entry. Both products narrow their operands to a shorter
  float format (which changes nothing over the extended reals), transpose the narrowed weights to [K, N] and multiply
  into a zero accumulator; the bias is held as one row spread over the rows.

  The host's spelling works on the whole arrays of M rows. The counts are a vector of length M; its maximum with one
  is placed as a column [M, 1] and then spread over the K columns, and divides s; the products are dot_generals with
  the transposed weights; the bias is broadcast to one row and then over the rows.

  Both are, at row R and column q,
      Σ_k (s(R,k) / max(cnt R, 1)) · Wl(q,k) + bl(q) + Σ_k h(R,k) · Wr(q,k),
  so when row r of the blocks is row R of the arrays, and the block's count of row r is the vector's entry R, the two
  agree there. The same holds after the maximum with zero on both sides. No law of the extended reals is used beyond
  rewriting equal summands.
-/
import proofs.«111575_j78099685310579_1_alg».proof.Proof.LibLinearT
import proofs.«111575_j78099685310579_1_alg».proof.Proof.LibKeepdims
import proofs.«111575_j78099685310579_1_alg».proof.Proof.LibHostColRow
import proofs.«111575_j78099685310579_1_alg».proof.Proof.LibBcastVec
import proofs.«111575_j78099685310579_1_alg».proof.Proof.LibDense
import Idealize.ShloMosaic.Lib.IdealHost
import Idealize.ShloMosaic.Lib.ValueLayout
import Idealize.ShloMosaic.Lib.Pipeline.Value

noncomputable section

open scoped BigOperators

namespace Idealize.ShloMosaic.SageRows

open Idealize.ShloMosaic Idealize.ShloMosaic.ValueIdx

variable {M m K N : Nat}

/-- The block's averaged sums: s divided, entry by entry, by the count column's maximum with one spread over the
    lanes. -/
abbrev blockMean (s : FVec Ideal ⟨2, ![m, K]⟩ .f32) (cnt : FVec Ideal ⟨2, ![m, 1]⟩ .f32)
    (hc : (⟨2, ![m, 1]⟩ : Shape).Broadcasts ⟨2, ![m, K]⟩) : FVec Ideal ⟨2, ![m, K]⟩ .f32 :=
  divf s (broadcastTo ⟨2, ![m, K]⟩ (maximumf cnt (broadcast ⟨2, ![m, 1]⟩ (Scalar.ofBits (F := Ideal) .f32 0x3F800000#32))) hc)

/-- The whole array's averaged sums: s divided by the count vector's maximum with one, placed as a column and spread
    over the columns. -/
abbrev hostMean (s : FVec Ideal ⟨2, ![M, K]⟩ .f32) (deg : FVec Ideal ⟨1, ![M]⟩ .f32)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, K]⟩ ![0, 1]) : FVec Ideal ⟨2, ![M, K]⟩ .f32 :=
  Host.divf (F := Ideal) s
    (broadcastInDim ⟨2, ![M, K]⟩ ![0, 1] h2
      (broadcastInDim ⟨2, ![M, 1]⟩ ![0] h1
        (maximumf deg (broadcastInDim ⟨1, ![M]⟩ ![] h0 (constant (F := Ideal) ⟨0, ![]⟩ .f32 0x3F800000#32)))))

/-- Row r of the block's averaged sums is row R of the whole array's, when the rows of s agree and the block's
    count of row r is the vector's entry R. -/
theorem mean_rows (S : FVec Ideal ⟨2, ![M, K]⟩ .f32) (deg : FVec Ideal ⟨1, ![M]⟩ .f32)
    (s : FVec Ideal ⟨2, ![m, K]⟩ .f32) (cnt : FVec Ideal ⟨2, ![m, 1]⟩ .f32)
    (hc : (⟨2, ![m, 1]⟩ : Shape).Broadcasts ⟨2, ![m, K]⟩)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, K]⟩ ![0, 1])
    (r : Fin m) (R : Fin M) (hs : ∀ k : Fin K, s (ix2 r k) = S (ix2 R k))
    (hcnt : cnt (ix2 r (0 : Fin 1)) = deg (ix1 R)) (k : Fin K) :
    blockMean s cnt hc (ix2 r k) = hostMean S deg h0 h1 h2 (ix2 R k) := by
  show Ideal.div (s (ix2 r k))
        (broadcastTo ⟨2, ![m, K]⟩ (maximumf cnt (broadcast ⟨2, ![m, 1]⟩ (Scalar.ofBits (F := Ideal) .f32 0x3F800000#32))) hc (ix2 r k))
      = Ideal.div (S (ix2 R k))
        (broadcastInDim ⟨2, ![M, K]⟩ ![0, 1] h2
          (broadcastInDim ⟨2, ![M, 1]⟩ ![0] h1
            (maximumf deg (broadcastInDim ⟨1, ![M]⟩ ![] h0 (constant (F := Ideal) ⟨0, ![]⟩ .f32 0x3F800000#32)))) (ix2 R k))
  rw [Keepdims.broadcastTo_a1_ab_apply, HostColRow.bcast_col_apply]
  show Ideal.div (s (ix2 r k)) (max (cnt (ix2 r (0 : Fin 1))) (Scalar.ofBits (F := Ideal) .f32 0x3F800000#32))
      = Ideal.div (S (ix2 R k))
        (broadcastInDim ⟨2, ![M, 1]⟩ ![0] h1
          (maximumf deg (broadcastInDim ⟨1, ![M]⟩ ![] h0 (constant (F := Ideal) ⟨0, ![]⟩ .f32 0x3F800000#32))) (ix2 R (0 : Fin 1)))
  rw [BcastVec.bcast_vec_col_apply, hs k, hcnt]
  show Ideal.div (S (ix2 R k)) (max (deg (ix1 R)) (Scalar.ofBits (F := Ideal) .f32 0x3F800000#32))
      = Ideal.div (S (ix2 R k))
        (max (deg (ix1 R)) (broadcastInDim ⟨1, ![M]⟩ ![] h0 (constant (F := Ideal) ⟨0, ![]⟩ .f32 0x3F800000#32) (ix1 R)))
  rw [broadcastInDim_scalar_apply]
  rfl

/-- The block's layer: the averaged sums times Wlᵀ, plus the bias row spread over the rows, plus h times Wrᵀ. -/
abbrev blockSage (s : FVec Ideal ⟨2, ![m, K]⟩ .f32) (cnt : FVec Ideal ⟨2, ![m, 1]⟩ .f32) (h : FVec Ideal ⟨2, ![m, K]⟩ .f32)
    (Wl : FVec Ideal ⟨2, ![N, K]⟩ .f32) (bl : FVec Ideal ⟨1, ![N]⟩ .f32) (Wr : FVec Ideal ⟨2, ![N, K]⟩ .f32)
    (hn : FTy.bf16.bits < FTy.f32.bits) (ht : (⟨2, ![N, K]⟩ : Shape).Transposes [1, 0] ⟨2, ![K, N]⟩)
    (hc : (⟨2, ![m, 1]⟩ : Shape).Broadcasts ⟨2, ![m, K]⟩)
    (hr : (⟨1, ![N]⟩ : Shape).ShapeCasts ⟨2, ![1, N]⟩) (hb : (⟨2, ![1, N]⟩ : Shape).Broadcasts ⟨2, ![m, N]⟩) :
    FVec Ideal ⟨2, ![m, N]⟩ .f32 :=
  addf
    (addf
      (matmul (DotDims.plain m K N) none (truncf .bf16 (blockMean s cnt hc) hn)
        (transpose ⟨2, ![K, N]⟩ [1, 0] (truncf .bf16 Wl hn) ht) (constant (F := Ideal) ⟨2, ![m, N]⟩ .f32 0x00000000#32))
      (broadcastTo ⟨2, ![m, N]⟩ (shapeCast ⟨2, ![1, N]⟩ bl hr) hb))
    (matmul (DotDims.plain m K N) none (truncf .bf16 h hn)
      (transpose ⟨2, ![K, N]⟩ [1, 0] (truncf .bf16 Wr hn) ht) (constant (F := Ideal) ⟨2, ![m, N]⟩ .f32 0x00000000#32))

/-- The whole array's layer, in the host's operations. -/
abbrev hostSage (S : FVec Ideal ⟨2, ![M, K]⟩ .f32) (deg : FVec Ideal ⟨1, ![M]⟩ .f32) (H : FVec Ideal ⟨2, ![M, K]⟩ .f32)
    (Wl : FVec Ideal ⟨2, ![N, K]⟩ .f32) (bl : FVec Ideal ⟨1, ![N]⟩ .f32) (Wr : FVec Ideal ⟨2, ![N, K]⟩ .f32)
    (ht : (⟨2, ![N, K]⟩ : Shape).Transposes [1, 0] ⟨2, ![K, N]⟩)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, K]⟩ ![0, 1])
    (g1 : (⟨1, ![N]⟩ : Shape).BroadcastsInDim ⟨2, ![1, N]⟩ ![1])
    (g2 : (⟨2, ![1, N]⟩ : Shape).BroadcastsInDim ⟨2, ![M, N]⟩ ![0, 1]) : FVec Ideal ⟨2, ![M, N]⟩ .f32 :=
  addf
    (addf
      (Host.dotGeneral (F := Ideal) (DotDims.plain M K N) none (hostMean S deg h0 h1 h2)
        (transpose ⟨2, ![K, N]⟩ [1, 0] Wl ht))
      (broadcastInDim ⟨2, ![M, N]⟩ ![0, 1] g2 (broadcastInDim ⟨2, ![1, N]⟩ ![1] g1 bl)))
    (Host.dotGeneral (F := Ideal) (DotDims.plain M K N) none H (transpose ⟨2, ![K, N]⟩ [1, 0] Wr ht))

/-- Row r of the block's layer is row R of the whole array's layer. -/
theorem sage_rows (S : FVec Ideal ⟨2, ![M, K]⟩ .f32) (deg : FVec Ideal ⟨1, ![M]⟩ .f32) (H : FVec Ideal ⟨2, ![M, K]⟩ .f32)
    (Wl : FVec Ideal ⟨2, ![N, K]⟩ .f32) (bl : FVec Ideal ⟨1, ![N]⟩ .f32) (Wr : FVec Ideal ⟨2, ![N, K]⟩ .f32)
    (s : FVec Ideal ⟨2, ![m, K]⟩ .f32) (cnt : FVec Ideal ⟨2, ![m, 1]⟩ .f32) (h : FVec Ideal ⟨2, ![m, K]⟩ .f32)
    (hn : FTy.bf16.bits < FTy.f32.bits) (ht : (⟨2, ![N, K]⟩ : Shape).Transposes [1, 0] ⟨2, ![K, N]⟩)
    (hc : (⟨2, ![m, 1]⟩ : Shape).Broadcasts ⟨2, ![m, K]⟩)
    (hr : (⟨1, ![N]⟩ : Shape).ShapeCasts ⟨2, ![1, N]⟩) (hb : (⟨2, ![1, N]⟩ : Shape).Broadcasts ⟨2, ![m, N]⟩)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, K]⟩ ![0, 1])
    (g1 : (⟨1, ![N]⟩ : Shape).BroadcastsInDim ⟨2, ![1, N]⟩ ![1])
    (g2 : (⟨2, ![1, N]⟩ : Shape).BroadcastsInDim ⟨2, ![M, N]⟩ ![0, 1])
    (r : Fin m) (R : Fin M) (q : Fin N)
    (hs : ∀ k : Fin K, s (ix2 r k) = S (ix2 R k)) (hh : ∀ k : Fin K, h (ix2 r k) = H (ix2 R k))
    (hcnt : cnt (ix2 r (0 : Fin 1)) = deg (ix1 R)) :
    blockSage s cnt h Wl bl Wr hn ht hc hr hb (ix2 r q) = hostSage S deg H Wl bl Wr ht h0 h1 h2 g1 g2 (ix2 R q) := by
  show (matmul (DotDims.plain m K N) none (truncf .bf16 (blockMean s cnt hc) hn)
            (transpose ⟨2, ![K, N]⟩ [1, 0] (truncf .bf16 Wl hn) ht) (constant (F := Ideal) ⟨2, ![m, N]⟩ .f32 0x00000000#32) (ix2 r q)
          + broadcastTo ⟨2, ![m, N]⟩ (shapeCast ⟨2, ![1, N]⟩ bl hr) hb (ix2 r q))
        + matmul (DotDims.plain m K N) none (truncf .bf16 h hn)
            (transpose ⟨2, ![K, N]⟩ [1, 0] (truncf .bf16 Wr hn) ht) (constant (F := Ideal) ⟨2, ![m, N]⟩ .f32 0x00000000#32) (ix2 r q)
      = (Host.dotGeneral (F := Ideal) (DotDims.plain M K N) none (hostMean S deg h0 h1 h2)
            (transpose ⟨2, ![K, N]⟩ [1, 0] Wl ht) (ix2 R q)
          + broadcastInDim ⟨2, ![M, N]⟩ ![0, 1] g2 (broadcastInDim ⟨2, ![1, N]⟩ ![1] g1 bl) (ix2 R q))
        + Host.dotGeneral (F := Ideal) (DotDims.plain M K N) none H (transpose ⟨2, ![K, N]⟩ [1, 0] Wr ht) (ix2 R q)
  rw [LinearT.productT_rows (hostMean S deg h0 h1 h2) Wl (blockMean s cnt hc) hn ht r R q
        (mean_rows S deg s cnt hc h0 h1 h2 r R hs hcnt),
    LinearT.productT_rows H Wr h hn ht r R q hh,
    broadcastTo_1b_ab_apply, shapeCast_a_1a_apply, Dense.bias_rows_apply]

/-- The same after the maximum with zero: the block's spelling spreads the scalar zero over the block, the host's
    broadcasts a rank-0 zero over the array. -/
theorem sage_relu_rows (S : FVec Ideal ⟨2, ![M, K]⟩ .f32) (deg : FVec Ideal ⟨1, ![M]⟩ .f32) (H : FVec Ideal ⟨2, ![M, K]⟩ .f32)
    (Wl : FVec Ideal ⟨2, ![N, K]⟩ .f32) (bl : FVec Ideal ⟨1, ![N]⟩ .f32) (Wr : FVec Ideal ⟨2, ![N, K]⟩ .f32)
    (s : FVec Ideal ⟨2, ![m, K]⟩ .f32) (cnt : FVec Ideal ⟨2, ![m, 1]⟩ .f32) (h : FVec Ideal ⟨2, ![m, K]⟩ .f32)
    (hn : FTy.bf16.bits < FTy.f32.bits) (ht : (⟨2, ![N, K]⟩ : Shape).Transposes [1, 0] ⟨2, ![K, N]⟩)
    (hc : (⟨2, ![m, 1]⟩ : Shape).Broadcasts ⟨2, ![m, K]⟩)
    (hr : (⟨1, ![N]⟩ : Shape).ShapeCasts ⟨2, ![1, N]⟩) (hb : (⟨2, ![1, N]⟩ : Shape).Broadcasts ⟨2, ![m, N]⟩)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, K]⟩ ![0, 1])
    (g1 : (⟨1, ![N]⟩ : Shape).BroadcastsInDim ⟨2, ![1, N]⟩ ![1])
    (g2 : (⟨2, ![1, N]⟩ : Shape).BroadcastsInDim ⟨2, ![M, N]⟩ ![0, 1])
    (hz : (⟨0, ![]⟩ : Shape).BroadcastsInDim ⟨2, ![M, N]⟩ ![])
    (r : Fin m) (R : Fin M) (q : Fin N)
    (hs : ∀ k : Fin K, s (ix2 r k) = S (ix2 R k)) (hh : ∀ k : Fin K, h (ix2 r k) = H (ix2 R k))
    (hcnt : cnt (ix2 r (0 : Fin 1)) = deg (ix1 R)) :
    maximumf (blockSage s cnt h Wl bl Wr hn ht hc hr hb)
        (broadcast ⟨2, ![m, N]⟩ (Scalar.ofBits (F := Ideal) .f32 0x00000000#32)) (ix2 r q)
      = maximumf (hostSage S deg H Wl bl Wr ht h0 h1 h2 g1 g2)
          (broadcastInDim ⟨2, ![M, N]⟩ ![] hz (constant (F := Ideal) ⟨0, ![]⟩ .f32 0x00000000#32)) (ix2 R q) := by
  show max (blockSage s cnt h Wl bl Wr hn ht hc hr hb (ix2 r q)) (Scalar.ofBits (F := Ideal) .f32 0x00000000#32)
      = max (hostSage S deg H Wl bl Wr ht h0 h1 h2 g1 g2 (ix2 R q))
          (broadcastInDim ⟨2, ![M, N]⟩ ![] hz (constant (F := Ideal) ⟨0, ![]⟩ .f32 0x00000000#32) (ix2 R q))
  rw [sage_rows S deg H Wl bl Wr s cnt h hn ht hc hr hb h0 h1 h2 g1 g2 r R q hs hh hcnt, broadcastInDim_scalar_apply]
  rfl

end Idealize.ShloMosaic.SageRows

end
-- ==== Proof.Region0.lean ====
/-
  The first graph-convolution region: the array it leaves is the rectified layer
  max((s / max(deg, 1)) · Wlᵀ + bl + h · Wrᵀ, 0) of the arrays it finds.

  The region walks twenty blocks of 5000 rows. At block t the body reads rows 5000·t … 5000·t + 4999 of the aggregated
  sums, of the count column and of the layer's input, the two whole weight matrices and the whole bias, and writes
  the same rows of the output; row r of the block is row 5000·t + r of the arrays. A row of
  (s / max(deg, 1)) · Wlᵀ + bl + h · Wrᵀ depends on that row of s and of h and on that entry of deg alone, and the
  count column holds deg's entry of each row. The twenty blocks tile the 100000 rows, so the output array ends as the
  whole-array layer.
-/
import proofs.«111575_j78099685310579_1_alg».proof.Proof.Gen.KernelIdeal.Frame
import proofs.«111575_j78099685310579_1_alg».proof.Proof.Gen.ReferenceIdeal
import proofs.«111575_j78099685310579_1_alg».proof.Proof.Spec
import proofs.«111575_j78099685310579_1_alg».proof.Proof.LibSageRows
import proofs.«111575_j78099685310579_1_alg».proof.Proof.LibBcastVec
import Idealize.ShloMosaic.Lib.Pipeline.Value
import Idealize.ShloMosaic.Lib.ValueIdx

set_option maxRecDepth 16384

noncomputable section

namespace Cert.KernelIdeal.Region0

open Idealize.ShloMosaic Idealize.ShloMosaic.ValueIdx Idealize.ShloMosaic.TcCoe Idealize.SL.Sem
open Cert.KernelIdeal Cert.KernelIdeal.Gen
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-- The body's result at row r, column q of blocks whose row r is row R of the arrays S and H, the count of row r
    being deg's entry R. -/
theorem pay_rows (S : FVec Ideal Cert.ReferenceIdeal.S100000x128 .f32) (deg : FVec Ideal Cert.ReferenceIdeal.S100000 .f32)
    (H : FVec Ideal Cert.ReferenceIdeal.S100000x128 .f32)
    (Wl : FVec Ideal S128x128 .f32) (bl : FVec Ideal S128 .f32) (Wr : FVec Ideal S128x128 .f32)
    (cnt : Vec Ideal S5000x1 .f32) (s : Vec Ideal S5000x128 .f32) (h : Vec Ideal S5000x128 .f32)
    (r : Fin 5000) (R : Fin 100000) (q : Fin 128)
    (hs : ∀ k : Fin 128, s (ix2 r k) = S (ix2 R k)) (hh : ∀ k : Fin 128, h (ix2 r k) = H (ix2 R k))
    (hcnt : cnt (ix2 r (0 : Fin 1)) = deg (ix1 R)) :
    k0_pay1 (F := Ideal) cnt s h Wl Wr bl (ix2 r q) = Cert.Spec.relu (Cert.Spec.sage S deg H Wl bl Wr) (ix2 R q) := by
  unfold k0_pay1 Cert.Spec.relu Cert.Spec.sage
  refine Eq.trans ?_ (SageRows.sage_relu_rows (M := 100000) (m := 5000) (K := 128) (N := 128) S deg H Wl bl Wr s cnt h
    bitsLt_bf16_f32 transposes_S128x128_p1_0_S128x128 broadcasts_S5000x1_S5000x128 shapeCasts_S128_S1x128
    broadcasts_S1x128_S5000x128
    Cert.ReferenceIdeal.Facts₀.bcast_S_S100000 Cert.ReferenceIdeal.Facts₀.bcast_S100000_S100000x1_0
    Cert.ReferenceIdeal.Facts₀.bcast_S100000x1_S100000x128_0_1
    Cert.ReferenceIdeal.Facts₀.bcast_S128_S1x128_1 Cert.ReferenceIdeal.Facts₀.bcast_S1x128_S100000x128_0_1
    Cert.ReferenceIdeal.Facts₀.bcast_S_S100000x128 r R q hs hh hcnt)
  rw [shapeCast_self, shapeCast_self]
  rfl

/-- The printed index maps over the grid: block t of each row-blocked window starts at row block t; the weights and
    the bias are one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- What point t writes back is block t of the whole-array layer. -/
theorem flushed_eq (c : Dev nD) (deg : FVec Ideal Cert.ReferenceIdeal.S100000 .f32)
    (hdeg : V c main_v18 = Cert.Spec.degreeCol deg) (t : Fin cfg0.N) :
    (dat0 (F := Ideal) V c).flushed 6 t
      = ((cfg0.win 6).blk t).view.read (Elt Ideal)
          (Cert.Spec.relu (Cert.Spec.sage (V c main_v13) deg (V c main_arg0) (V c main_arg3) (V c main_arg4) (V c main_arg5))) := by
  show (cfg0.win 6).cut (grid0.coords t) ((dat0 (F := Ideal) V c).after 6 t) = _
  rw [after0_6]
  unfold out0_6
  rw [View.canon_unit_zero hz2]
  simp only [View.ld_unit_zero (S := S5000x128) hz2, View.ld_unit_zero (S := S5000x1) hz2,
    View.ld_unit_zero (S := S128x128) hz2, View.ld_unit_zero (S := S128) hz1]
  obtain ⟨e0, e1, e2, e3, e4, e5, e6, e7, e8, e9, e10, e11, e12⟩ := idx_facts t
  have hWl : iblk0 V c 3 t = V c main_arg3 := by
    funext y
    show V c main_arg3 (((cfg0.win 3).blk t).view.emb y) = V c main_arg3 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  have hB : iblk0 V c 4 t = V c main_arg4 := by
    funext y
    show V c main_arg4 (((cfg0.win 4).blk t).view.emb y) = V c main_arg4 y
    refine congrArg _ (funext fun a => Fin.ext ?_)
    match a with
    | ⟨0, _⟩ => show win0_4.index t (0 : Fin 1) * 128 + 1 * (y 0).val = (y 0).val; omega
  have hWr : iblk0 V c 5 t = V c main_arg5 := by
    funext y
    show V c main_arg5 (((cfg0.win 5).blk t).view.emb y) = V c main_arg5 y
    refine congrArg _ (funext fun a => Fin.ext ?_)
    match a with
    | ⟨0, _⟩ => show win0_5.index t (0 : Fin 2) * 128 + 1 * (y 0).val = (y 0).val; omega
    | ⟨1, _⟩ => show win0_5.index t (1 : Fin 2) * 128 + 1 * (y 1).val = (y 1).val; omega
  rw [hWl, hB, hWr]
  funext j
  obtain ⟨p, q, rfl⟩ : ∃ (p : Fin 5000) (q : Fin 128), j = ix2 p q := ⟨j 0, j 1, eq_ix2 j⟩
  have hR : t.val * 5000 + p.val < 100000 := by
    have := t.isLt; have := p.isLt; have : cfg0.N = 20 := N_0; omega
  refine (pay_rows (V c main_v13) deg (V c main_arg0) (V c main_arg3) (V c main_arg4) (V c main_arg5)
    (iblk0 V c 1 t) (iblk0 V c 0 t) (iblk0 V c 2 t) p ⟨t.val * 5000 + p.val, hR⟩ q ?_ ?_ ?_).trans ?_
  · intro k
    show V c main_v13 (((cfg0.win 0).blk t).view.emb (ix2 p k)) = V c main_v13 (ix2 ⟨t.val * 5000 + p.val, hR⟩ k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · intro k
    show V c main_arg0 (((cfg0.win 2).blk t).view.emb (ix2 p k)) = V c main_arg0 (ix2 ⟨t.val * 5000 + p.val, hR⟩ k)
    refine congrArg _ (funext fun a => Fin.ext ?_)
    match a with
    | ⟨0, _⟩ => show win0_2.index t (0 : Fin 2) * 5000 + 1 * p.val = t.val * 5000 + p.val; omega
    | ⟨1, _⟩ => show win0_2.index t (1 : Fin 2) * 128 + 1 * k.val = k.val; omega
  · show V c main_v18 (((cfg0.win 1).blk t).view.emb (ix2 p (0 : Fin 1))) = deg (ix1 ⟨t.val * 5000 + p.val, hR⟩)
    have hemb : ((cfg0.win 1).blk t).view.emb (ix2 p (0 : Fin 1)) = ix2 (⟨t.val * 5000 + p.val, hR⟩ : Fin 100000) (0 : Fin 1) := by
      refine funext fun a => Fin.ext ?_
      match a with
      | ⟨0, _⟩ => show win0_1.index t (0 : Fin 2) * 5000 + 1 * p.val = t.val * 5000 + p.val; omega
      | ⟨1, _⟩ => show win0_1.index t (1 : Fin 2) * 1 + 1 * 0 = 0; omega
    rw [hemb, hdeg]
    exact BcastVec.bcast_vec_col_apply deg Cert.ReferenceIdeal.Facts₀.bcast_S100000_S100000x1_0 ⟨t.val * 5000 + p.val, hR⟩ (0 : Fin 1)
  · show Cert.Spec.relu (Cert.Spec.sage (V c main_v13) deg (V c main_arg0) (V c main_arg3) (V c main_arg4) (V c main_arg5)) (ix2 ⟨t.val * 5000 + p.val, hR⟩ q)
        = Cert.Spec.relu (Cert.Spec.sage (V c main_v13) deg (V c main_arg0) (V c main_arg3) (V c main_arg4) (V c main_arg5)) (((cfg0.win 6).blk t).view.emb (ix2 p q))
    refine congrArg _ (funext fun a => Fin.ext ?_)
    match a with
    | ⟨0, _⟩ => show t.val * 5000 + p.val = win0_6.index t (0 : Fin 2) * 5000 + 1 * p.val; omega
    | ⟨1, _⟩ => show q.val = win0_6.index t (1 : Fin 2) * 128 + 1 * q.val; omega

/-- An index of the array is in point t's block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v19).slice (win0_6.rect t)).set ↔ _
  rw [View.set_slice_whole, Rect.mem_set_unit]
  exact Iff.rfl

/-- Every row of the array is in some point's block: row i is in block i / 5000. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  refine ⟨⟨(i 0).val / 5000, by omega⟩, flush0_6 _, ?_⟩
  rw [mem_blk]
  obtain ⟨e0, e1, e2, e3, e4, e5, e6, e7, e8, e9, e10, e11, e12⟩ := idx_facts ⟨(i 0).val / 5000, by omega⟩
  intro a
  match a with
  | ⟨0, _⟩ => show win0_6.index _ (0 : Fin 2) * 5000 ≤ (i 0).val ∧ (i 0).val < win0_6.index _ (0 : Fin 2) * 5000 + 5000; simp only [] at e11; omega
  | ⟨1, _⟩ => show win0_6.index _ (1 : Fin 2) * 128 ≤ (i 1).val ∧ (i 1).val < win0_6.index _ (1 : Fin 2) * 128 + 128; omega

/-- The array the region leaves: the whole-array layer of the arrays it finds. -/
theorem final (c : Dev nD) (deg : FVec Ideal Cert.ReferenceIdeal.S100000 .f32) (hdeg : V c main_v18 = Cert.Spec.degreeCol deg) :
    (dat0 (F := Ideal) V c).arrAt 6 cfg0.N
      = Cert.Spec.relu (Cert.Spec.sage (V c main_v13) deg (V c main_arg0) (V c main_arg3) (V c main_arg4) (V c main_arg5)) :=
  (dat0 (F := Ideal) V c).arrAt_eq_of_cover 6 _ (fun t _ => flushed_eq V c deg hdeg t) cover

end Cert.KernelIdeal.Region0

end
-- ==== Proof.Region1.lean ====
/-
  The second graph-convolution region: the array it leaves is the layer
  (s / max(deg, 1)) · Wlᵀ + bl + h · Wrᵀ of the arrays it finds, not rectified.

  The region walks twenty blocks of 5000 rows. At block t the body reads rows 5000·t … 5000·t + 4999 of the aggregated
  sums, of the count column and of the layer's input, the two whole weight matrices and the whole bias, and writes
  the same rows of the output; row r of the block is row 5000·t + r of the arrays. A row of
  (s / max(deg, 1)) · Wlᵀ + bl + h · Wrᵀ depends on that row of s and of h and on that entry of deg alone, and the
  count column holds deg's entry of each row. The twenty blocks tile the 100000 rows, so the output array ends as the
  whole-array layer.
-/
import proofs.«111575_j78099685310579_1_alg».proof.Proof.Gen.KernelIdeal.Frame
import proofs.«111575_j78099685310579_1_alg».proof.Proof.Gen.ReferenceIdeal
import proofs.«111575_j78099685310579_1_alg».proof.Proof.Spec
import proofs.«111575_j78099685310579_1_alg».proof.Proof.LibSageRows
import proofs.«111575_j78099685310579_1_alg».proof.Proof.LibBcastVec
import Idealize.ShloMosaic.Lib.Pipeline.Value
import Idealize.ShloMosaic.Lib.ValueIdx

set_option maxRecDepth 16384

noncomputable section

namespace Cert.KernelIdeal.Region1

open Idealize.ShloMosaic Idealize.ShloMosaic.ValueIdx Idealize.ShloMosaic.TcCoe Idealize.SL.Sem
open Cert.KernelIdeal Cert.KernelIdeal.Gen
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-- The body's result at row r, column q of blocks whose row r is row R of the arrays S and H, the count of row r
    being deg's entry R. -/
theorem pay_rows (S : FVec Ideal Cert.ReferenceIdeal.S100000x128 .f32) (deg : FVec Ideal Cert.ReferenceIdeal.S100000 .f32)
    (H : FVec Ideal Cert.ReferenceIdeal.S100000x128 .f32)
    (Wl : FVec Ideal S128x128 .f32) (bl : FVec Ideal S128 .f32) (Wr : FVec Ideal S128x128 .f32)
    (cnt : Vec Ideal S5000x1 .f32) (s : Vec Ideal S5000x128 .f32) (h : Vec Ideal S5000x128 .f32)
    (r : Fin 5000) (R : Fin 100000) (q : Fin 128)
    (hs : ∀ k : Fin 128, s (ix2 r k) = S (ix2 R k)) (hh : ∀ k : Fin 128, h (ix2 r k) = H (ix2 R k))
    (hcnt : cnt (ix2 r (0 : Fin 1)) = deg (ix1 R)) :
    k1_pay1 (F := Ideal) cnt s h Wl Wr bl (ix2 r q) = Cert.Spec.sage S deg H Wl bl Wr (ix2 R q) := by
  unfold k1_pay1 Cert.Spec.sage
  refine Eq.trans ?_ (SageRows.sage_rows (M := 100000) (m := 5000) (K := 128) (N := 128) S deg H Wl bl Wr s cnt h
    bitsLt_bf16_f32 transposes_S128x128_p1_0_S128x128 broadcasts_S5000x1_S5000x128 shapeCasts_S128_S1x128
    broadcasts_S1x128_S5000x128
    Cert.ReferenceIdeal.Facts₀.bcast_S_S100000 Cert.ReferenceIdeal.Facts₀.bcast_S100000_S100000x1_0
    Cert.ReferenceIdeal.Facts₀.bcast_S100000x1_S100000x128_0_1
    Cert.ReferenceIdeal.Facts₀.bcast_S128_S1x128_1 Cert.ReferenceIdeal.Facts₀.bcast_S1x128_S100000x128_0_1
    r R q hs hh hcnt)
  rw [shapeCast_self, shapeCast_self, shapeCast_self]
  rfl

/-- The printed index maps over the grid: block t of each row-blocked window starts at row block t; the weights and
    the bias are one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- What point t writes back is block t of the whole-array layer. -/
theorem flushed_eq (c : Dev nD) (deg : FVec Ideal Cert.ReferenceIdeal.S100000 .f32)
    (hdeg : V c main_v18 = Cert.Spec.degreeCol deg) (t : Fin cfg1.N) :
    (dat1 (F := Ideal) V c).flushed 6 t
      = ((cfg1.win 6).blk t).view.read (Elt Ideal)
          (Cert.Spec.sage (V c main_v29) deg (V c main_v19) (V c main_arg6) (V c main_arg7) (V c main_arg8)) := by
  show (cfg1.win 6).cut (grid1.coords t) ((dat1 (F := Ideal) V c).after 6 t) = _
  rw [after1_6]
  unfold out1_6
  rw [View.canon_unit_zero hz2]
  simp only [View.ld_unit_zero (S := S5000x128) hz2, View.ld_unit_zero (S := S5000x1) hz2,
    View.ld_unit_zero (S := S128x128) hz2, View.ld_unit_zero (S := S128) hz1]
  obtain ⟨e0, e1, e2, e3, e4, e5, e6, e7, e8, e9, e10, e11, e12⟩ := idx_facts t
  have hWl : iblk1 V c 3 t = V c main_arg6 := by
    funext y
    show V c main_arg6 (((cfg1.win 3).blk t).view.emb y) = V c main_arg6 y
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  have hB : iblk1 V c 4 t = V c main_arg7 := by
    funext y
    show V c main_arg7 (((cfg1.win 4).blk t).view.emb y) = V c main_arg7 y
    refine congrArg _ (funext fun a => Fin.ext ?_)
    match a with
    | ⟨0, _⟩ => show win1_4.index t (0 : Fin 1) * 128 + 1 * (y 0).val = (y 0).val; omega
  have hWr : iblk1 V c 5 t = V c main_arg8 := by
    funext y
    show V c main_arg8 (((cfg1.win 5).blk t).view.emb y) = V c main_arg8 y
    refine congrArg _ (funext fun a => Fin.ext ?_)
    match a with
    | ⟨0, _⟩ => show win1_5.index t (0 : Fin 2) * 128 + 1 * (y 0).val = (y 0).val; omega
    | ⟨1, _⟩ => show win1_5.index t (1 : Fin 2) * 128 + 1 * (y 1).val = (y 1).val; omega
  rw [hWl, hB, hWr]
  funext j
  obtain ⟨p, q, rfl⟩ : ∃ (p : Fin 5000) (q : Fin 128), j = ix2 p q := ⟨j 0, j 1, eq_ix2 j⟩
  have hR : t.val * 5000 + p.val < 100000 := by
    have := t.isLt; have := p.isLt; have : cfg1.N = 20 := N_1; omega
  refine (pay_rows (V c main_v29) deg (V c main_v19) (V c main_arg6) (V c main_arg7) (V c main_arg8)
    (iblk1 V c 1 t) (iblk1 V c 0 t) (iblk1 V c 2 t) p ⟨t.val * 5000 + p.val, hR⟩ q ?_ ?_ ?_).trans ?_
  · intro k
    show V c main_v29 (((cfg1.win 0).blk t).view.emb (ix2 p k)) = V c main_v29 (ix2 ⟨t.val * 5000 + p.val, hR⟩ k)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · intro k
    show V c main_v19 (((cfg1.win 2).blk t).view.emb (ix2 p k)) = V c main_v19 (ix2 ⟨t.val * 5000 + p.val, hR⟩ k)
    refine congrArg _ (funext fun a => Fin.ext ?_)
    match a with
    | ⟨0, _⟩ => show win1_2.index t (0 : Fin 2) * 5000 + 1 * p.val = t.val * 5000 + p.val; omega
    | ⟨1, _⟩ => show win1_2.index t (1 : Fin 2) * 128 + 1 * k.val = k.val; omega
  · show V c main_v18 (((cfg1.win 1).blk t).view.emb (ix2 p (0 : Fin 1))) = deg (ix1 ⟨t.val * 5000 + p.val, hR⟩)
    have hemb : ((cfg1.win 1).blk t).view.emb (ix2 p (0 : Fin 1)) = ix2 (⟨t.val * 5000 + p.val, hR⟩ : Fin 100000) (0 : Fin 1) := by
      refine funext fun a => Fin.ext ?_
      match a with
      | ⟨0, _⟩ => show win1_1.index t (0 : Fin 2) * 5000 + 1 * p.val = t.val * 5000 + p.val; omega
      | ⟨1, _⟩ => show win1_1.index t (1 : Fin 2) * 1 + 1 * 0 = 0; omega
    rw [hemb, hdeg]
    exact BcastVec.bcast_vec_col_apply deg Cert.ReferenceIdeal.Facts₀.bcast_S100000_S100000x1_0 ⟨t.val * 5000 + p.val, hR⟩ (0 : Fin 1)
  · show Cert.Spec.sage (V c main_v29) deg (V c main_v19) (V c main_arg6) (V c main_arg7) (V c main_arg8) (ix2 ⟨t.val * 5000 + p.val, hR⟩ q)
        = Cert.Spec.sage (V c main_v29) deg (V c main_v19) (V c main_arg6) (V c main_arg7) (V c main_arg8) (((cfg1.win 6).blk t).view.emb (ix2 p q))
    refine congrArg _ (funext fun a => Fin.ext ?_)
    match a with
    | ⟨0, _⟩ => show t.val * 5000 + p.val = win1_6.index t (0 : Fin 2) * 5000 + 1 * p.val; omega
    | ⟨1, _⟩ => show q.val = win1_6.index t (1 : Fin 2) * 128 + 1 * q.val; omega

/-- An index of the array is in point t's block iff each coordinate is in the block's range on its axis. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v30).slice (win1_6.rect t)).set ↔ _
  rw [View.set_slice_whole, Rect.mem_set_unit]
  exact Iff.rfl

/-- Every row of the array is in some point's block: row i is in block i / 5000. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  refine ⟨⟨(i 0).val / 5000, by omega⟩, flush1_6 _, ?_⟩
  rw [mem_blk]
  obtain ⟨e0, e1, e2, e3, e4, e5, e6, e7, e8, e9, e10, e11, e12⟩ := idx_facts ⟨(i 0).val / 5000, by omega⟩
  intro a
  match a with
  | ⟨0, _⟩ => show win1_6.index _ (0 : Fin 2) * 5000 ≤ (i 0).val ∧ (i 0).val < win1_6.index _ (0 : Fin 2) * 5000 + 5000; simp only [] at e11; omega
  | ⟨1, _⟩ => show win1_6.index _ (1 : Fin 2) * 128 ≤ (i 1).val ∧ (i 1).val < win1_6.index _ (1 : Fin 2) * 128 + 128; omega

/-- The array the region leaves: the whole-array layer of the arrays it finds. -/
theorem final (c : Dev nD) (deg : FVec Ideal Cert.ReferenceIdeal.S100000 .f32) (hdeg : V c main_v18 = Cert.Spec.degreeCol deg) :
    (dat1 (F := Ideal) V c).arrAt 6 cfg1.N
      = Cert.Spec.sage (V c main_v29) deg (V c main_v19) (V c main_arg6) (V c main_arg7) (V c main_arg8) :=
  (dat1 (F := Ideal) V c).arrAt_eq_of_cover 6 _ (fun t _ => flushed_eq V c deg hdeg t) cover

end Cert.KernelIdeal.Region1

end
-- ==== Proof.Region2.lean ====
/-
  The first head layer's region: the array it leaves is `x · Wᵀ + b` of the arrays it finds.

  The region walks four blocks of 5000 rows. At block t the body reads rows 5000·t … 5000·t + 4999 of its input, the
  whole weight matrix and the whole bias, and writes the same rows of the output; row r of the block is row
  5000·t + r of the array, and a row of `x · Wᵀ + b` depends on that row of x alone. The four blocks tile the 20000
  rows, so the output array ends as the whole-array layer.
-/
import proofs.«111575_j78099685310579_1_alg».proof.Proof.Gen.KernelIdeal.Frame
import proofs.«111575_j78099685310579_1_alg».proof.Proof.Gen.ReferenceIdeal
import proofs.«111575_j78099685310579_1_alg».proof.Proof.Spec
import proofs.«111575_j78099685310579_1_alg».proof.Proof.LibLinearT
import Idealize.ShloMosaic.Lib.Pipeline.Value
import Idealize.ShloMosaic.Lib.ValueIdx

set_option maxRecDepth 16384

noncomputable section

namespace Cert.KernelIdeal.Region2

open Idealize.ShloMosaic Idealize.ShloMosaic.ValueIdx Idealize.ShloMosaic.TcCoe Idealize.SL.Sem
open Cert.KernelIdeal Cert.KernelIdeal.Gen
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-- The body's result at row r, column q of a block whose row r is row R of the array X. -/
theorem pay_rows (X : FVec Ideal Cert.ReferenceIdeal.S20000x128 .f32) (W : FVec Ideal S128x128 .f32) (b : FVec Ideal S128 .f32)
    (x : Vec Ideal S5000x128 .f32) (r : Fin 5000) (R : Fin 20000) (q : Fin 128)
    (hx : ∀ k : Fin 128, x (ix2 r k) = X (ix2 R k)) :
    k2_pay1 (F := Ideal) x W b (ix2 r q) = Cert.Spec.lin128 X W b (ix2 R q) := by
  unfold k2_pay1 Cert.Spec.lin128 Cert.Spec.rows128
  refine Eq.trans ?_ (LinearT.linearT_rows (M := 20000) (m := 5000) (K := 128) (N := 128) X W b x
    bitsLt_bf16_f32 transposes_S128x128_p1_0_S128x128 shapeCasts_S128_S1x128 broadcasts_S1x128_S5000x128
    Cert.ReferenceIdeal.Facts₀.bcast_S128_S1x128_1 Cert.ReferenceIdeal.Facts₀.bcast_S1x128_S20000x128_0_1 r R q hx)
  rw [shapeCast_self]
  rfl

/-- The printed index maps over the grid: block t of the row-blocked windows starts at row block t; the weights and
    the bias are one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- What point t writes back is block t of the whole-array layer. -/
theorem flushed_eq (c : Dev nD) (t : Fin cfg2.N) :
    (dat2 (F := Ideal) V c).flushed 3 t
      = ((cfg2.win 3).blk t).view.read (Elt Ideal) (Cert.Spec.lin128 (V c main_v37) (V c main_arg9) (V c main_arg10)) := by
  show (cfg2.win 3).cut (grid2.coords t) ((dat2 (F := Ideal) V c).after 3 t) = _
  rw [after2_3]
  unfold out2_3
  rw [View.canon_unit_zero hz2]
  simp only [View.ld_unit_zero (S := S5000x128) hz2, View.ld_unit_zero (S := S128x128) hz2, View.ld_unit_zero (S := S128) hz1]
  obtain ⟨e0, e1, e2, e3, e4, e5, e6⟩ := idx_facts t
  have hW : iblk2 V c 1 t = V c main_arg9 := by
    funext y
    show V c main_arg9 (((cfg2.win 1).blk t).view.emb y) = V c main_arg9 y
    refine congrArg _ (funext fun a => Fin.ext ?_)
    match a with
    | ⟨0, _⟩ => show win2_1.index t (0 : Fin 2) * 128 + 1 * (y 0).val = (y 0).val; omega
    | ⟨1, _⟩ => show win2_1.index t (1 : Fin 2) * 128 + 1 * (y 1).val = (y 1).val; omega
  have hB : iblk2 V c 2 t = V c main_arg10 := by
    funext y
    show V c main_arg10 (((cfg2.win 2).blk t).view.emb y) = V c main_arg10 y
    refine congrArg _ (funext fun a => Fin.ext ?_)
    match a with
    | ⟨0, _⟩ => show win2_2.index t (0 : Fin 1) * 128 + 1 * (y 0).val = (y 0).val; omega
  rw [hW, hB]
  funext j
  obtain ⟨p, q, rfl⟩ : ∃ (p : Fin 5000) (q : Fin 128), j = ix2 p q := ⟨j 0, j 1, eq_ix2 j⟩
  have hR : t.val * 5000 + p.val < 20000 := by
    have := t.isLt; have := p.isLt; have : cfg2.N = 4 := N_2; omega
  refine (pay_rows (V c main_v37) (V c main_arg9) (V c main_arg10) (iblk2 V c 0 t) p ⟨t.val * 5000 + p.val, hR⟩ q ?_).trans ?_
  · intro k
    show V c main_v37 (((cfg2.win 0).blk t).view.emb (ix2 p k)) = V c main_v37 (ix2 ⟨t.val * 5000 + p.val, hR⟩ k)
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  · show Cert.Spec.lin128 (V c main_v37) (V c main_arg9) (V c main_arg10) (ix2 ⟨t.val * 5000 + p.val, hR⟩ q)
        = Cert.Spec.lin128 (V c main_v37) (V c main_arg9) (V c main_arg10) (((cfg2.win 3).blk t).view.emb (ix2 p q))
    refine congrArg _ (funext fun a => Fin.ext ?_)
    match a with
    | ⟨0, _⟩ => show t.val * 5000 + p.val = win2_3.index t (0 : Fin 2) * 5000 + 1 * p.val; omega
    | ⟨1, _⟩ => show q.val = win2_3.index t (1 : Fin 2) * 128 + 1 * q.val; omega

/-- An index of the array is in point t's block iff each coordinate is in the block's range on its axis. -/
theorem mem_blk (t : Fin cfg2.N) (i : S20000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v38).slice (win2_3.rect t)).set ↔ _
  rw [View.set_slice_whole, Rect.mem_set_unit]
  exact Iff.rfl

/-- Every row of the array is in some point's block: row i is in block i / 5000. -/
theorem cover (i : S20000x128.Idx) : ∃ t : Fin cfg2.N, (cfg2.win 3).flush t = true ∧ i ∈ ((cfg2.win 3).blk t).view.set := by
  have hi0 : (i 0).val < 20000 := (i 0).isLt
  have hi1 : (i 1).val < 128 := (i 1).isLt
  have hN : cfg2.N = 4 := N_2
  refine ⟨⟨(i 0).val / 5000, by omega⟩, flush2_3 _, ?_⟩
  rw [mem_blk]
  obtain ⟨e0, e1, e2, e3, e4, e5, e6⟩ := idx_facts ⟨(i 0).val / 5000, by omega⟩
  intro a
  match a with
  | ⟨0, _⟩ => show win2_3.index _ (0 : Fin 2) * 5000 ≤ (i 0).val ∧ (i 0).val < win2_3.index _ (0 : Fin 2) * 5000 + 5000; simp only [] at e5; omega
  | ⟨1, _⟩ => show win2_3.index _ (1 : Fin 2) * 128 ≤ (i 1).val ∧ (i 1).val < win2_3.index _ (1 : Fin 2) * 128 + 128; omega

/-- The array the region leaves: the whole-array layer of the arrays it finds. -/
theorem final (c : Dev nD) :
    (dat2 (F := Ideal) V c).arrAt 3 cfg2.N = Cert.Spec.lin128 (V c main_v37) (V c main_arg9) (V c main_arg10) :=
  (dat2 (F := Ideal) V c).arrAt_eq_of_cover 3 _ (fun t _ => flushed_eq V c t) cover

end Cert.KernelIdeal.Region2

end
-- ==== Proof.LibBnLeakyRows.lean ====
/-
  Column normalisation followed by the leaky rectifier, read at one entry of a block of rows, over the extended reals.

  With column statistics μ, σ² and column parameters γ, β (vectors of N entries) the normalised array is
      y(R,q) = (z(R,q) − μ(q)) · rsqrt(σ²(q) + ε) · γ(q) + β(q),
  and the leaky rectifier of slope s keeps y(R,q) where y(R,q) ≥ 0 and puts s · y(R,q) elsewhere. Entry (R,q) of the
  result depends on z(R,q) and on the q-th entries of the four vectors alone.

  The vector unit's spelling works on a block x of m rows: each vector is cast to one row and that row is spread over
  the block's rows, ε, 0 and s are splat scalars. The host's spelling works on the whole array X of M rows: each vector
  is broadcast to one row and then over the M rows, ε, 0 and s are rank-0 constants broadcast to the shape they meet.
  Both spellings are the same expression entry by entry (the two reciprocal square roots are one function over the
  extended reals, and so are the comparisons and the selections), so when entry (r,q) of the block is entry (R,q) of
  the array the two results agree there. The extents M, m, N, the word of ε and the word of the slope are arbitrary; no
  law of the extended reals is used.
-/
import proofs.«111575_j78099685310579_1_alg».proof.Proof.LibDense
import Idealize.ShloMosaic.Lib.ValueLayout
import Idealize.ShloMosaic.Lib.Pipeline.Value
import Idealize.ShloMosaic.PureOps.Ideal

noncomputable section

namespace Idealize.ShloMosaic.BnLeakyRows

open Idealize.ShloMosaic Idealize.ShloMosaic.ValueIdx

variable {M m N : Nat}

/-- A vector cast to one row and spread over the rows of a block, at (r, q): the vector at q. -/
theorem row_block_apply (v : FVec Ideal ⟨1, ![N]⟩ .f32)
    (hr : (⟨1, ![N]⟩ : Shape).ShapeCasts ⟨2, ![1, N]⟩) (hb : (⟨2, ![1, N]⟩ : Shape).Broadcasts ⟨2, ![m, N]⟩)
    (r : Fin m) (q : Fin N) :
    broadcastTo ⟨2, ![m, N]⟩ (shapeCast ⟨2, ![1, N]⟩ v hr) hb (ix2 r q) = v (ix1 q) := by
  rw [broadcastTo_1b_ab_apply, shapeCast_a_1a_apply]

/-- The normalisation: entry (r, q) of the block's spelling is entry (R, q) of the host's, at equal entries of z. -/
theorem bn_rows (X : FVec Ideal ⟨2, ![M, N]⟩ .f32) (mu var g be : FVec Ideal ⟨1, ![N]⟩ .f32)
    (x : FVec Ideal ⟨2, ![m, N]⟩ .f32) (eps : BitVec 32)
    (hs : (⟨2, ![m, N]⟩ : Shape).ShapeCasts ⟨2, ![m, N]⟩) (hv : (⟨1, ![N]⟩ : Shape).ShapeCasts ⟨1, ![N]⟩)
    (hr : (⟨1, ![N]⟩ : Shape).ShapeCasts ⟨2, ![1, N]⟩) (hb : (⟨2, ![1, N]⟩ : Shape).Broadcasts ⟨2, ![m, N]⟩)
    (h0 : (⟨0, ![]⟩ : Shape).BroadcastsInDim ⟨1, ![N]⟩ ![])
    (h1 : (⟨1, ![N]⟩ : Shape).BroadcastsInDim ⟨2, ![1, N]⟩ ![1])
    (h2 : (⟨2, ![1, N]⟩ : Shape).BroadcastsInDim ⟨2, ![M, N]⟩ ![0, 1])
    (r : Fin m) (R : Fin M) (q : Fin N) (hx : x (ix2 r q) = X (ix2 R q)) :
    addf
        (mulf
          (mulf
            (subf (shapeCast ⟨2, ![m, N]⟩ x hs)
              (broadcastTo ⟨2, ![m, N]⟩ (shapeCast ⟨2, ![1, N]⟩ (shapeCast ⟨1, ![N]⟩ mu hv) hr) hb))
            (broadcastTo ⟨2, ![m, N]⟩
              (shapeCast ⟨2, ![1, N]⟩
                (rsqrt (addf (shapeCast ⟨1, ![N]⟩ var hv) (broadcast ⟨1, ![N]⟩ (Scalar.ofBits (F := Ideal) .f32 eps)))) hr) hb))
          (broadcastTo ⟨2, ![m, N]⟩ (shapeCast ⟨2, ![1, N]⟩ g hr) hb))
        (broadcastTo ⟨2, ![m, N]⟩ (shapeCast ⟨2, ![1, N]⟩ be hr) hb) (ix2 r q)
      = addf
          (mulf
            (mulf
              (subf X (broadcastInDim ⟨2, ![M, N]⟩ ![0, 1] h2 (broadcastInDim ⟨2, ![1, N]⟩ ![1] h1 mu)))
              (broadcastInDim ⟨2, ![M, N]⟩ ![0, 1] h2 (broadcastInDim ⟨2, ![1, N]⟩ ![1] h1
                (Host.rsqrt (addf var (broadcastInDim ⟨1, ![N]⟩ ![] h0 (constant (F := Ideal) ⟨0, ![]⟩ .f32 eps)))))))
            (broadcastInDim ⟨2, ![M, N]⟩ ![0, 1] h2 (broadcastInDim ⟨2, ![1, N]⟩ ![1] h1 g)))
          (broadcastInDim ⟨2, ![M, N]⟩ ![0, 1] h2 (broadcastInDim ⟨2, ![1, N]⟩ ![1] h1 be)) (ix2 R q) := by
  simp only [addf_apply, mulf_apply, subf_apply, shapeCast_self, row_block_apply, hx]
  rw [Dense.bias_rows_apply, Dense.bias_rows_apply, Dense.bias_rows_apply, Dense.bias_rows_apply]
  rfl

/-- The leaky rectifier: entry (r, q) of the block's spelling is entry (R, q) of the host's, at equal entries of y. -/
theorem leaky_rows (Y : FVec Ideal ⟨2, ![M, N]⟩ .f32) (y : FVec Ideal ⟨2, ![m, N]⟩ .f32) (slope : BitVec 32)
    (h00 : (⟨0, ![]⟩ : Shape).BroadcastsInDim ⟨2, ![M, N]⟩ ![])
    (r : Fin m) (R : Fin M) (q : Fin N) (hy : y (ix2 r q) = Y (ix2 R q)) :
    select (cmpf .oge y (broadcast ⟨2, ![m, N]⟩ (Scalar.ofBits (F := Ideal) .f32 0x00000000#32))) y
        (mulf (broadcast ⟨2, ![m, N]⟩ (Scalar.ofBits (F := Ideal) .f32 slope)) y) (ix2 r q)
      = select (cmpf .oge Y (broadcastInDim ⟨2, ![M, N]⟩ ![] h00 (constant (F := Ideal) ⟨0, ![]⟩ .f32 0x00000000#32))) Y
          (mulf (broadcastInDim ⟨2, ![M, N]⟩ ![] h00 (id (constant (F := Ideal) ⟨0, ![]⟩ .f32 slope))) Y) (ix2 R q) := by
  rw [select_apply, select_apply, cmpf_apply, cmpf_apply, mulf_apply, mulf_apply, hy]
  rfl

/-- Normalise, then rectify: entry (r, q) of the block's spelling is entry (R, q) of the host's, at equal entries
    of z. -/
theorem bn_leaky_rows (X : FVec Ideal ⟨2, ![M, N]⟩ .f32) (mu var g be : FVec Ideal ⟨1, ![N]⟩ .f32)
    (x : FVec Ideal ⟨2, ![m, N]⟩ .f32) (eps slope : BitVec 32)
    (hs : (⟨2, ![m, N]⟩ : Shape).ShapeCasts ⟨2, ![m, N]⟩) (hv : (⟨1, ![N]⟩ : Shape).ShapeCasts ⟨1, ![N]⟩)
    (hr : (⟨1, ![N]⟩ : Shape).ShapeCasts ⟨2, ![1, N]⟩) (hb : (⟨2, ![1, N]⟩ : Shape).Broadcasts ⟨2, ![m, N]⟩)
    (h0 : (⟨0, ![]⟩ : Shape).BroadcastsInDim ⟨1, ![N]⟩ ![])
    (h1 : (⟨1, ![N]⟩ : Shape).BroadcastsInDim ⟨2, ![1, N]⟩ ![1])
    (h2 : (⟨2, ![1, N]⟩ : Shape).BroadcastsInDim ⟨2, ![M, N]⟩ ![0, 1])
    (h00 : (⟨0, ![]⟩ : Shape).BroadcastsInDim ⟨2, ![M, N]⟩ ![])
    (r : Fin m) (R : Fin M) (q : Fin N) (hx : x (ix2 r q) = X (ix2 R q)) :
    select
        (cmpf .oge
          (addf
            (mulf
              (mulf
                (subf (shapeCast ⟨2, ![m, N]⟩ x hs)
                  (broadcastTo ⟨2, ![m, N]⟩ (shapeCast ⟨2, ![1, N]⟩ (shapeCast ⟨1, ![N]⟩ mu hv) hr) hb))
                (broadcastTo ⟨2, ![m, N]⟩
                  (shapeCast ⟨2, ![1, N]⟩
                    (rsqrt (addf (shapeCast ⟨1, ![N]⟩ var hv) (broadcast ⟨1, ![N]⟩ (Scalar.ofBits (F := Ideal) .f32 eps)))) hr) hb))
              (broadcastTo ⟨2, ![m, N]⟩ (shapeCast ⟨2, ![1, N]⟩ g hr) hb))
            (broadcastTo ⟨2, ![m, N]⟩ (shapeCast ⟨2, ![1, N]⟩ be hr) hb))
          (broadcast ⟨2, ![m, N]⟩ (Scalar.ofBits (F := Ideal) .f32 0x00000000#32)))
        (addf
          (mulf
            (mulf
              (subf (shapeCast ⟨2, ![m, N]⟩ x hs)
                (broadcastTo ⟨2, ![m, N]⟩ (shapeCast ⟨2, ![1, N]⟩ (shapeCast ⟨1, ![N]⟩ mu hv) hr) hb))
              (broadcastTo ⟨2, ![m, N]⟩
                (shapeCast ⟨2, ![1, N]⟩
                  (rsqrt (addf (shapeCast ⟨1, ![N]⟩ var hv) (broadcast ⟨1, ![N]⟩ (Scalar.ofBits (F := Ideal) .f32 eps)))) hr) hb))
            (broadcastTo ⟨2, ![m, N]⟩ (shapeCast ⟨2, ![1, N]⟩ g hr) hb))
          (broadcastTo ⟨2, ![m, N]⟩ (shapeCast ⟨2, ![1, N]⟩ be hr) hb))
        (mulf (broadcast ⟨2, ![m, N]⟩ (Scalar.ofBits (F := Ideal) .f32 slope))
          (addf
            (mulf
              (mulf
                (subf (shapeCast ⟨2, ![m, N]⟩ x hs)
                  (broadcastTo ⟨2, ![m, N]⟩ (shapeCast ⟨2, ![1, N]⟩ (shapeCast ⟨1, ![N]⟩ mu hv) hr) hb))
                (broadcastTo ⟨2, ![m, N]⟩
                  (shapeCast ⟨2, ![1, N]⟩
                    (rsqrt (addf (shapeCast ⟨1, ![N]⟩ var hv) (broadcast ⟨1, ![N]⟩ (Scalar.ofBits (F := Ideal) .f32 eps)))) hr) hb))
              (broadcastTo ⟨2, ![m, N]⟩ (shapeCast ⟨2, ![1, N]⟩ g hr) hb))
            (broadcastTo ⟨2, ![m, N]⟩ (shapeCast ⟨2, ![1, N]⟩ be hr) hb))) (ix2 r q)
      = select
          (cmpf .oge
            (addf
              (mulf
                (mulf
                  (subf X (broadcastInDim ⟨2, ![M, N]⟩ ![0, 1] h2 (broadcastInDim ⟨2, ![1, N]⟩ ![1] h1 mu)))
                  (broadcastInDim ⟨2, ![M, N]⟩ ![0, 1] h2 (broadcastInDim ⟨2, ![1, N]⟩ ![1] h1
                    (Host.rsqrt (addf var (broadcastInDim ⟨1, ![N]⟩ ![] h0 (constant (F := Ideal) ⟨0, ![]⟩ .f32 eps)))))))
                (broadcastInDim ⟨2, ![M, N]⟩ ![0, 1] h2 (broadcastInDim ⟨2, ![1, N]⟩ ![1] h1 g)))
              (broadcastInDim ⟨2, ![M, N]⟩ ![0, 1] h2 (broadcastInDim ⟨2, ![1, N]⟩ ![1] h1 be)))
            (broadcastInDim ⟨2, ![M, N]⟩ ![] h00 (constant (F := Ideal) ⟨0, ![]⟩ .f32 0x00000000#32)))
          (addf
            (mulf
              (mulf
                (subf X (broadcastInDim ⟨2, ![M, N]⟩ ![0, 1] h2 (broadcastInDim ⟨2, ![1, N]⟩ ![1] h1 mu)))
                (broadcastInDim ⟨2, ![M, N]⟩ ![0, 1] h2 (broadcastInDim ⟨2, ![1, N]⟩ ![1] h1
                  (Host.rsqrt (addf var (broadcastInDim ⟨1, ![N]⟩ ![] h0 (constant (F := Ideal) ⟨0, ![]⟩ .f32 eps)))))))
              (broadcastInDim ⟨2, ![M, N]⟩ ![0, 1] h2 (broadcastInDim ⟨2, ![1, N]⟩ ![1] h1 g)))
            (broadcastInDim ⟨2, ![M, N]⟩ ![0, 1] h2 (broadcastInDim ⟨2, ![1, N]⟩ ![1] h1 be)))
          (mulf (broadcastInDim ⟨2, ![M, N]⟩ ![] h00 (id (constant (F := Ideal) ⟨0, ![]⟩ .f32 slope)))
            (addf
              (mulf
                (mulf
                  (subf X (broadcastInDim ⟨2, ![M, N]⟩ ![0, 1] h2 (broadcastInDim ⟨2, ![1, N]⟩ ![1] h1 mu)))
                  (broadcastInDim ⟨2, ![M, N]⟩ ![0, 1] h2 (broadcastInDim ⟨2, ![1, N]⟩ ![1] h1
                    (Host.rsqrt (addf var (broadcastInDim ⟨1, ![N]⟩ ![] h0 (constant (F := Ideal) ⟨0, ![]⟩ .f32 eps)))))))
                (broadcastInDim ⟨2, ![M, N]⟩ ![0, 1] h2 (broadcastInDim ⟨2, ![1, N]⟩ ![1] h1 g)))
              (broadcastInDim ⟨2, ![M, N]⟩ ![0, 1] h2 (broadcastInDim ⟨2, ![1, N]⟩ ![1] h1 be)))) (ix2 R q) :=
  leaky_rows _ _ slope h00 r R q (bn_rows X mu var g be x eps hs hv hr hb h0 h1 h2 r R q hx)

end Idealize.ShloMosaic.BnLeakyRows

end
-- ==== Proof.Region3.lean ====
/-
  The first normalise-and-rectify region: the array it leaves is the leaky rectifier of the column normalisation
  of the arrays it finds.

  The region walks four blocks of 5000 rows. At block t the body reads rows 5000·t … 5000·t + 4999 of its input and
  the whole of the four vectors of 128 column values (mean, variance, scale, shift), and writes the same rows of the
  output; row r of the block is row 5000·t + r of the array, and entry (R, q) of the normalised, rectified array
  depends on entry (R, q) of the input and on the q-th entries of the four vectors alone. The four blocks tile the
  20000 rows, so the output array ends as the whole-array layer.
-/
import proofs.«111575_j78099685310579_1_alg».proof.Proof.Gen.KernelIdeal.Frame
import proofs.«111575_j78099685310579_1_alg».proof.Proof.Gen.ReferenceIdeal
import proofs.«111575_j78099685310579_1_alg».proof.Proof.Spec
import proofs.«111575_j78099685310579_1_alg».proof.Proof.LibBnLeakyRows
import Idealize.ShloMosaic.Lib.Pipeline.Value
import Idealize.ShloMosaic.Lib.ValueIdx

set_option maxRecDepth 16384

noncomputable section

namespace Cert.KernelIdeal.Region3

open Idealize.ShloMosaic Idealize.ShloMosaic.ValueIdx Idealize.ShloMosaic.TcCoe Idealize.SL.Sem
open Cert.KernelIdeal Cert.KernelIdeal.Gen
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-- The body's result at row r, column q of a block whose entry (r, q) is entry (R, q) of the array X. -/
theorem pay_rows (X : FVec Ideal Cert.ReferenceIdeal.S20000x128 .f32) (mu var g be : FVec Ideal S128 .f32)
    (x : Vec Ideal S5000x128 .f32) (r : Fin 5000) (R : Fin 20000) (q : Fin 128)
    (hx : x (ix2 r q) = X (ix2 R q)) :
    k3_pay1 (F := Ideal) x mu var g be (ix2 r q)
      = Cert.Spec.leaky128 0x3DCCCCCD#32 (Cert.Spec.bn128 X mu var g be) (ix2 R q) := by
  unfold k3_pay1 Cert.Spec.leaky128 Cert.Spec.bn128 Cert.Spec.rows128
  exact BnLeakyRows.bn_leaky_rows (M := 20000) (m := 5000) (N := 128) X mu var g be x 0x3727C5AC#32 0x3DCCCCCD#32
    shapeCasts_S5000x128_S5000x128 shapeCasts_S128_S128 shapeCasts_S128_S1x128 broadcasts_S1x128_S5000x128
    Cert.ReferenceIdeal.Facts₀.bcast_S_S128 Cert.ReferenceIdeal.Facts₀.bcast_S128_S1x128_1
    Cert.ReferenceIdeal.Facts₀.bcast_S1x128_S20000x128_0_1 Cert.ReferenceIdeal.Facts₀.bcast_S_S20000x128 r R q hx

/-- The printed index maps over the grid: block t of the row-blocked windows starts at row block t; each of the four
    vectors is one block. -/
theorem idx_facts : ∀ t : Fin cfg3.N,
    win3_0.index t (0 : Fin 2) = t.val ∧ win3_0.index t (1 : Fin 2) = 0
    ∧ win3_1.index t (0 : Fin 1) = 0
    ∧ win3_2.index t (0 : Fin 1) = 0
    ∧ win3_3.index t (0 : Fin 1) = 0
    ∧ win3_4.index t (0 : Fin 1) = 0
    ∧ win3_5.index t (0 : Fin 2) = t.val ∧ win3_5.index t (1 : Fin 2) = 0 :=
  (by decide +kernel : ∀ t : Fin grid3.N, _)

variable (V : (c : Dev nD) → (b : Ref sig .tc) → Buf (Elt Ideal) ((c : Thread nD τ).loc b))

/-- The mean's window at any point is the whole vector. -/
theorem blk_mean (c : Dev nD) (t : Fin cfg3.N) : iblk3 V c 1 t = V c main_v41 := by
  obtain ⟨e0, e1, e2, e3, e4, e5, e6, e7⟩ := idx_facts t
  funext y
  show V c main_v41 (((cfg3.win 1).blk t).view.emb y) = V c main_v41 y
  refine congrArg _ (funext fun a => Fin.ext ?_)
  match a with
  | ⟨0, _⟩ => show win3_1.index t (0 : Fin 1) * 128 + 1 * (y 0).val = (y 0).val; omega

/-- The variance's window at any point is the whole vector. -/
theorem blk_var (c : Dev nD) (t : Fin cfg3.N) : iblk3 V c 2 t = V c main_v48 := by
  obtain ⟨e0, e1, e2, e3, e4, e5, e6, e7⟩ := idx_facts t
  funext y
  show V c main_v48 (((cfg3.win 2).blk t).view.emb y) = V c main_v48 y
  refine congrArg _ (funext fun a => Fin.ext ?_)
  match a with
  | ⟨0, _⟩ => show win3_2.index t (0 : Fin 1) * 128 + 1 * (y 0).val = (y 0).val; omega

/-- The scale's window at any point is the whole vector. -/
theorem blk_scale (c : Dev nD) (t : Fin cfg3.N) : iblk3 V c 3 t = V c main_arg15 := by
  obtain ⟨e0, e1, e2, e3, e4, e5, e6, e7⟩ := idx_facts t
  funext y
  show V c main_arg15 (((cfg3.win 3).blk t).view.emb y) = V c main_arg15 y
  refine congrArg _ (funext fun a => Fin.ext ?_)
  match a with
  | ⟨0, _⟩ => show win3_3.index t (0 : Fin 1) * 128 + 1 * (y 0).val = (y 0).val; omega

/-- The shift's window at any point is the whole vector. -/
theorem blk_shift (c : Dev nD) (t : Fin cfg3.N) : iblk3 V c 4 t = V c main_arg16 := by
  obtain ⟨e0, e1, e2, e3, e4, e5, e6, e7⟩ := idx_facts t
  funext y
  show V c main_arg16 (((cfg3.win 4).blk t).view.emb y) = V c main_arg16 y
  refine congrArg _ (funext fun a => Fin.ext ?_)
  match a with
  | ⟨0, _⟩ => show win3_4.index t (0 : Fin 1) * 128 + 1 * (y 0).val = (y 0).val; omega

/-- What point t writes back is block t of the whole-array layer. -/
theorem flushed_eq (c : Dev nD) (t : Fin cfg3.N) :
    (dat3 (F := Ideal) V c).flushed 5 t
      = ((cfg3.win 5).blk t).view.read (Elt Ideal)
          (Cert.Spec.leaky128 0x3DCCCCCD#32
            (Cert.Spec.bn128 (V c main_v38) (V c main_v41) (V c main_v48) (V c main_arg15) (V c main_arg16))) := by
  show (cfg3.win 5).cut (grid3.coords t) ((dat3 (F := Ideal) V c).after 5 t) = _
  rw [after3_5]
  unfold out3_5
  rw [View.canon_unit_zero hz2]
  simp only [View.ld_unit_zero (S := S5000x128) hz2, View.ld_unit_zero (S := S128) hz1]
  obtain ⟨e0, e1, e2, e3, e4, e5, e6, e7⟩ := idx_facts t
  rw [blk_mean V c t, blk_var V c t, blk_scale V c t, blk_shift V c t]
  funext j
  obtain ⟨p, q, rfl⟩ : ∃ (p : Fin 5000) (q : Fin 128), j = ix2 p q := ⟨j 0, j 1, eq_ix2 j⟩
  have hR : t.val * 5000 + p.val < 20000 := by
    have := t.isLt; have := p.isLt; have : cfg3.N = 4 := N_3; omega
  refine (pay_rows (V c main_v38) (V c main_v41) (V c main_v48) (V c main_arg15) (V c main_arg16) (iblk3 V c 0 t) p
    ⟨t.val * 5000 + p.val, hR⟩ q ?_).trans ?_
  · show V c main_v38 (((cfg3.win 0).blk t).view.emb (ix2 p q)) = V c main_v38 (ix2 ⟨t.val * 5000 + p.val, hR⟩ q)
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * q.val = q.val; omega
  · show Cert.Spec.leaky128 0x3DCCCCCD#32
          (Cert.Spec.bn128 (V c main_v38) (V c main_v41) (V c main_v48) (V c main_arg15) (V c main_arg16)) (ix2 ⟨t.val * 5000 + p.val, hR⟩ q)
        = Cert.Spec.leaky128 0x3DCCCCCD#32
          (Cert.Spec.bn128 (V c main_v38) (V c main_v41) (V c main_v48) (V c main_arg15) (V c main_arg16))
            (((cfg3.win 5).blk t).view.emb (ix2 p q))
    refine congrArg _ (funext fun a => Fin.ext ?_)
    match a with
    | ⟨0, _⟩ => show t.val * 5000 + p.val = win3_5.index t (0 : Fin 2) * 5000 + 1 * p.val; omega
    | ⟨1, _⟩ => show q.val = win3_5.index t (1 : Fin 2) * 128 + 1 * q.val; omega

/-- An index of the array is in point t's block iff each coordinate is in the block's range on its axis. -/
theorem mem_blk (t : Fin cfg3.N) (i : S20000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v49).slice (win3_5.rect t)).set ↔ _
  rw [View.set_slice_whole, Rect.mem_set_unit]
  exact Iff.rfl

/-- Every row of the array is in some point's block: row i is in block i / 5000. -/
theorem cover (i : S20000x128.Idx) : ∃ t : Fin cfg3.N, (cfg3.win 5).flush t = true ∧ i ∈ ((cfg3.win 5).blk t).view.set := by
  have hi0 : (i 0).val < 20000 := (i 0).isLt
  have hi1 : (i 1).val < 128 := (i 1).isLt
  have hN : cfg3.N = 4 := N_3
  refine ⟨⟨(i 0).val / 5000, by omega⟩, flush3_5 _, ?_⟩
  rw [mem_blk]
  obtain ⟨e0, e1, e2, e3, e4, e5, e6, e7⟩ := idx_facts ⟨(i 0).val / 5000, by omega⟩
  intro a
  match a with
  | ⟨0, _⟩ => show win3_5.index _ (0 : Fin 2) * 5000 ≤ (i 0).val ∧ (i 0).val < win3_5.index _ (0 : Fin 2) * 5000 + 5000; simp only [] at e6; omega
  | ⟨1, _⟩ => show win3_5.index _ (1 : Fin 2) * 128 ≤ (i 1).val ∧ (i 1).val < win3_5.index _ (1 : Fin 2) * 128 + 128; omega

/-- The array the region leaves: the normalised, rectified whole array of the arrays it finds. -/
theorem final (c : Dev nD) :
    (dat3 (F := Ideal) V c).arrAt 5 cfg3.N
      = Cert.Spec.leaky128 0x3DCCCCCD#32
          (Cert.Spec.bn128 (V c main_v38) (V c main_v41) (V c main_v48) (V c main_arg15) (V c main_arg16)) :=
  (dat3 (F := Ideal) V c).arrAt_eq_of_cover 5 _ (fun t _ => flushed_eq V c t) cover

end Cert.KernelIdeal.Region3

end
-- ==== Proof.Region4.lean ====
/-
  The second head layer's region: the array it leaves is `x · Wᵀ + b` of the arrays it finds.

  The region walks four blocks of 5000 rows. At block t the body reads rows 5000·t … 5000·t + 4999 of its input, the
  whole weight matrix and the whole bias, and writes the same rows of the output; row r of the block is row
  5000·t + r of the array, and a row of `x · Wᵀ + b` depends on that row of x alone. The four blocks tile the 20000
  rows, so the output array ends as the whole-array layer.
-/
import proofs.«111575_j78099685310579_1_alg».proof.Proof.Gen.KernelIdeal.Frame
import proofs.«111575_j78099685310579_1_alg».proof.Proof.Gen.ReferenceIdeal
import proofs.«111575_j78099685310579_1_alg».proof.Proof.Spec
import proofs.«111575_j78099685310579_1_alg».proof.Proof.LibLinearT
import Idealize.ShloMosaic.Lib.Pipeline.Value
import Idealize.ShloMosaic.Lib.ValueIdx

set_option maxRecDepth 16384

noncomputable section

namespace Cert.KernelIdeal.Region4

open Idealize.ShloMosaic Idealize.ShloMosaic.ValueIdx Idealize.ShloMosaic.TcCoe Idealize.SL.Sem
open Cert.KernelIdeal Cert.KernelIdeal.Gen
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-- The body's result at row r, column q of a block whose row r is row R of the array X. -/
theorem pay_rows (X : FVec Ideal Cert.ReferenceIdeal.S20000x128 .f32) (W : FVec Ideal S64x128 .f32) (b : FVec Ideal S64 .f32)
    (x : Vec Ideal S5000x128 .f32) (r : Fin 5000) (R : Fin 20000) (q : Fin 64)
    (hx : ∀ k : Fin 128, x (ix2 r k) = X (ix2 R k)) :
    k4_pay1 (F := Ideal) x W b (ix2 r q) = Cert.Spec.lin64 X W b (ix2 R q) := by
  unfold k4_pay1 Cert.Spec.lin64 Cert.Spec.rows64
  refine Eq.trans ?_ (LinearT.linearT_rows (M := 20000) (m := 5000) (K := 128) (N := 64) X W b x
    bitsLt_bf16_f32 transposes_S64x128_p1_0_S128x64 shapeCasts_S64_S1x64 broadcasts_S1x64_S5000x64
    Cert.ReferenceIdeal.Facts₀.bcast_S64_S1x64_1 Cert.ReferenceIdeal.Facts₀.bcast_S1x64_S20000x64_0_1 r R q hx)
  rw [shapeCast_self]
  rfl

/-- The printed index maps over the grid: block t of the row-blocked windows starts at row block t; the weights and
    the bias are one block. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

variable (V : (c : Dev nD) → (b : Ref sig .tc) → Buf (Elt Ideal) ((c : Thread nD τ).loc b))

/-- What point t writes back is block t of the whole-array layer. -/
theorem flushed_eq (c : Dev nD) (t : Fin cfg4.N) :
    (dat4 (F := Ideal) V c).flushed 3 t
      = ((cfg4.win 3).blk t).view.read (Elt Ideal) (Cert.Spec.lin64 (V c main_v49) (V c main_arg11) (V c main_arg12)) := by
  show (cfg4.win 3).cut (grid4.coords t) ((dat4 (F := Ideal) V c).after 3 t) = _
  rw [after4_3]
  unfold out4_3
  rw [View.canon_unit_zero hz2]
  simp only [View.ld_unit_zero (S := S5000x128) hz2, View.ld_unit_zero (S := S64x128) hz2, View.ld_unit_zero (S := S64) hz1]
  obtain ⟨e0, e1, e2, e3, e4, e5, e6⟩ := idx_facts t
  have hW : iblk4 V c 1 t = V c main_arg11 := by
    funext y
    show V c main_arg11 (((cfg4.win 1).blk t).view.emb y) = V c main_arg11 y
    refine congrArg _ (funext fun a => Fin.ext ?_)
    match a with
    | ⟨0, _⟩ => show win4_1.index t (0 : Fin 2) * 64 + 1 * (y 0).val = (y 0).val; omega
    | ⟨1, _⟩ => show win4_1.index t (1 : Fin 2) * 128 + 1 * (y 1).val = (y 1).val; omega
  have hB : iblk4 V c 2 t = V c main_arg12 := by
    funext y
    show V c main_arg12 (((cfg4.win 2).blk t).view.emb y) = V c main_arg12 y
    refine congrArg _ (funext fun a => Fin.ext ?_)
    match a with
    | ⟨0, _⟩ => show win4_2.index t (0 : Fin 1) * 64 + 1 * (y 0).val = (y 0).val; omega
  rw [hW, hB]
  funext j
  obtain ⟨p, q, rfl⟩ : ∃ (p : Fin 5000) (q : Fin 64), j = ix2 p q := ⟨j 0, j 1, eq_ix2 j⟩
  have hR : t.val * 5000 + p.val < 20000 := by
    have := t.isLt; have := p.isLt; have : cfg4.N = 4 := N_4; omega
  refine (pay_rows (V c main_v49) (V c main_arg11) (V c main_arg12) (iblk4 V c 0 t) p ⟨t.val * 5000 + p.val, hR⟩ q ?_).trans ?_
  · intro k
    show V c main_v49 (((cfg4.win 0).blk t).view.emb (ix2 p k)) = V c main_v49 (ix2 ⟨t.val * 5000 + p.val, hR⟩ k)
    refine congrArg _ (funext fun a => Fin.ext ?_)
    match a with
    | ⟨0, _⟩ => show win4_0.index t (0 : Fin 2) * 5000 + 1 * p.val = t.val * 5000 + p.val; omega
    | ⟨1, _⟩ => show win4_0.index t (1 : Fin 2) * 128 + 1 * k.val = k.val; omega
  · show Cert.Spec.lin64 (V c main_v49) (V c main_arg11) (V c main_arg12) (ix2 ⟨t.val * 5000 + p.val, hR⟩ q)
        = Cert.Spec.lin64 (V c main_v49) (V c main_arg11) (V c main_arg12) (((cfg4.win 3).blk t).view.emb (ix2 p q))
    refine congrArg _ (funext fun a => Fin.ext ?_)
    match a with
    | ⟨0, _⟩ => show t.val * 5000 + p.val = win4_3.index t (0 : Fin 2) * 5000 + 1 * p.val; omega
    | ⟨1, _⟩ => show q.val = win4_3.index t (1 : Fin 2) * 64 + 1 * q.val; omega

/-- An index of the array is in point t's block iff each coordinate is in the block's range on its axis. -/
theorem mem_blk (t : Fin cfg4.N) (i : S20000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v50).slice (win4_3.rect t)).set ↔ _
  rw [View.set_slice_whole, Rect.mem_set_unit]
  exact Iff.rfl

/-- Every row of the array is in some point's block: row i is in block i / 5000. -/
theorem cover (i : S20000x64.Idx) : ∃ t : Fin cfg4.N, (cfg4.win 3).flush t = true ∧ i ∈ ((cfg4.win 3).blk t).view.set := by
  have hi0 : (i 0).val < 20000 := (i 0).isLt
  have hi1 : (i 1).val < 64 := (i 1).isLt
  have hN : cfg4.N = 4 := N_4
  refine ⟨⟨(i 0).val / 5000, by omega⟩, flush4_3 _, ?_⟩
  rw [mem_blk]
  obtain ⟨e0, e1, e2, e3, e4, e5, e6⟩ := idx_facts ⟨(i 0).val / 5000, by omega⟩
  intro a
  match a with
  | ⟨0, _⟩ => show win4_3.index _ (0 : Fin 2) * 5000 ≤ (i 0).val ∧ (i 0).val < win4_3.index _ (0 : Fin 2) * 5000 + 5000; simp only [] at e5; omega
  | ⟨1, _⟩ => show win4_3.index _ (1 : Fin 2) * 64 ≤ (i 1).val ∧ (i 1).val < win4_3.index _ (1 : Fin 2) * 64 + 64; omega

/-- The array the region leaves: the whole-array layer of the arrays it finds. -/
theorem final (c : Dev nD) :
    (dat4 (F := Ideal) V c).arrAt 3 cfg4.N = Cert.Spec.lin64 (V c main_v49) (V c main_arg11) (V c main_arg12) :=
  (dat4 (F := Ideal) V c).arrAt_eq_of_cover 3 _ (fun t _ => flushed_eq V c t) cover

end Cert.KernelIdeal.Region4

end
-- ==== Proof.Region5.lean ====
/-
  The second normalise-and-rectify region: the array it leaves is the leaky rectifier of the column normalisation
  of the arrays it finds.

  The region walks four blocks of 5000 rows. At block t the body reads rows 5000·t … 5000·t + 4999 of its input and
  the whole of the four vectors of 64 column values (mean, variance, scale, shift), and writes the same rows of the
  output; row r of the block is row 5000·t + r of the array, and entry (R, q) of the normalised, rectified array
  depends on entry (R, q) of the input and on the q-th entries of the four vectors alone. The four blocks tile the
  20000 rows, so the output array ends as the whole-array layer.
-/
import proofs.«111575_j78099685310579_1_alg».proof.Proof.Gen.KernelIdeal.Frame
import proofs.«111575_j78099685310579_1_alg».proof.Proof.Gen.ReferenceIdeal
import proofs.«111575_j78099685310579_1_alg».proof.Proof.Spec
import proofs.«111575_j78099685310579_1_alg».proof.Proof.LibBnLeakyRows
import Idealize.ShloMosaic.Lib.Pipeline.Value
import Idealize.ShloMosaic.Lib.ValueIdx

set_option maxRecDepth 16384

noncomputable section

namespace Cert.KernelIdeal.Region5

open Idealize.ShloMosaic Idealize.ShloMosaic.ValueIdx Idealize.ShloMosaic.TcCoe Idealize.SL.Sem
open Cert.KernelIdeal Cert.KernelIdeal.Gen
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-- The body's result at row r, column q of a block whose entry (r, q) is entry (R, q) of the array X. -/
theorem pay_rows (X : FVec Ideal Cert.ReferenceIdeal.S20000x64 .f32) (mu var g be : FVec Ideal S64 .f32)
    (x : Vec Ideal S5000x64 .f32) (r : Fin 5000) (R : Fin 20000) (q : Fin 64)
    (hx : x (ix2 r q) = X (ix2 R q)) :
    k5_pay1 (F := Ideal) x mu var g be (ix2 r q)
      = Cert.Spec.leaky64 0x3D4CCCCD#32 (Cert.Spec.bn64 X mu var g be) (ix2 R q) := by
  unfold k5_pay1 Cert.Spec.leaky64 Cert.Spec.bn64 Cert.Spec.rows64
  exact BnLeakyRows.bn_leaky_rows (M := 20000) (m := 5000) (N := 64) X mu var g be x 0x3727C5AC#32 0x3D4CCCCD#32
    shapeCasts_S5000x64_S5000x64 shapeCasts_S64_S64 shapeCasts_S64_S1x64 broadcasts_S1x64_S5000x64
    Cert.ReferenceIdeal.Facts₀.bcast_S_S64 Cert.ReferenceIdeal.Facts₀.bcast_S64_S1x64_1
    Cert.ReferenceIdeal.Facts₀.bcast_S1x64_S20000x64_0_1 Cert.ReferenceIdeal.Facts₀.bcast_S_S20000x64 r R q hx

/-- The printed index maps over the grid: block t of the row-blocked windows starts at row block t; each of the four
    vectors is one block. -/
theorem idx_facts : ∀ t : Fin cfg5.N,
    win5_0.index t (0 : Fin 2) = t.val ∧ win5_0.index t (1 : Fin 2) = 0
    ∧ win5_1.index t (0 : Fin 1) = 0
    ∧ win5_2.index t (0 : Fin 1) = 0
    ∧ win5_3.index t (0 : Fin 1) = 0
    ∧ win5_4.index t (0 : Fin 1) = 0
    ∧ win5_5.index t (0 : Fin 2) = t.val ∧ win5_5.index t (1 : Fin 2) = 0 :=
  (by decide +kernel : ∀ t : Fin grid5.N, _)

variable (V : (c : Dev nD) → (b : Ref sig .tc) → Buf (Elt Ideal) ((c : Thread nD τ).loc b))

/-- The mean's window at any point is the whole vector. -/
theorem blk_mean (c : Dev nD) (t : Fin cfg5.N) : iblk5 V c 1 t = V c main_v53 := by
  obtain ⟨e0, e1, e2, e3, e4, e5, e6, e7⟩ := idx_facts t
  funext y
  show V c main_v53 (((cfg5.win 1).blk t).view.emb y) = V c main_v53 y
  refine congrArg _ (funext fun a => Fin.ext ?_)
  match a with
  | ⟨0, _⟩ => show win5_1.index t (0 : Fin 1) * 64 + 1 * (y 0).val = (y 0).val; omega

/-- The variance's window at any point is the whole vector. -/
theorem blk_var (c : Dev nD) (t : Fin cfg5.N) : iblk5 V c 2 t = V c main_v60 := by
  obtain ⟨e0, e1, e2, e3, e4, e5, e6, e7⟩ := idx_facts t
  funext y
  show V c main_v60 (((cfg5.win 2).blk t).view.emb y) = V c main_v60 y
  refine congrArg _ (funext fun a => Fin.ext ?_)
  match a with
  | ⟨0, _⟩ => show win5_2.index t (0 : Fin 1) * 64 + 1 * (y 0).val = (y 0).val; omega

/-- The scale's window at any point is the whole vector. -/
theorem blk_scale (c : Dev nD) (t : Fin cfg5.N) : iblk5 V c 3 t = V c main_arg17 := by
  obtain ⟨e0, e1, e2, e3, e4, e5, e6, e7⟩ := idx_facts t
  funext y
  show V c main_arg17 (((cfg5.win 3).blk t).view.emb y) = V c main_arg17 y
  refine congrArg _ (funext fun a => Fin.ext ?_)
  match a with
  | ⟨0, _⟩ => show win5_3.index t (0 : Fin 1) * 64 + 1 * (y 0).val = (y 0).val; omega

/-- The shift's window at any point is the whole vector. -/
theorem blk_shift (c : Dev nD) (t : Fin cfg5.N) : iblk5 V c 4 t = V c main_arg18 := by
  obtain ⟨e0, e1, e2, e3, e4, e5, e6, e7⟩ := idx_facts t
  funext y
  show V c main_arg18 (((cfg5.win 4).blk t).view.emb y) = V c main_arg18 y
  refine congrArg _ (funext fun a => Fin.ext ?_)
  match a with
  | ⟨0, _⟩ => show win5_4.index t (0 : Fin 1) * 64 + 1 * (y 0).val = (y 0).val; omega

/-- What point t writes back is block t of the whole-array layer. -/
theorem flushed_eq (c : Dev nD) (t : Fin cfg5.N) :
    (dat5 (F := Ideal) V c).flushed 5 t
      = ((cfg5.win 5).blk t).view.read (Elt Ideal)
          (Cert.Spec.leaky64 0x3D4CCCCD#32
            (Cert.Spec.bn64 (V c main_v50) (V c main_v53) (V c main_v60) (V c main_arg17) (V c main_arg18))) := by
  show (cfg5.win 5).cut (grid5.coords t) ((dat5 (F := Ideal) V c).after 5 t) = _
  rw [after5_5]
  unfold out5_5
  rw [View.canon_unit_zero hz2]
  simp only [View.ld_unit_zero (S := S5000x64) hz2, View.ld_unit_zero (S := S64) hz1]
  obtain ⟨e0, e1, e2, e3, e4, e5, e6, e7⟩ := idx_facts t
  rw [blk_mean V c t, blk_var V c t, blk_scale V c t, blk_shift V c t]
  funext j
  obtain ⟨p, q, rfl⟩ : ∃ (p : Fin 5000) (q : Fin 64), j = ix2 p q := ⟨j 0, j 1, eq_ix2 j⟩
  have hR : t.val * 5000 + p.val < 20000 := by
    have := t.isLt; have := p.isLt; have : cfg5.N = 4 := N_5; omega
  refine (pay_rows (V c main_v50) (V c main_v53) (V c main_v60) (V c main_arg17) (V c main_arg18) (iblk5 V c 0 t) p
    ⟨t.val * 5000 + p.val, hR⟩ q ?_).trans ?_
  · show V c main_v50 (((cfg5.win 0).blk t).view.emb (ix2 p q)) = V c main_v50 (ix2 ⟨t.val * 5000 + p.val, hR⟩ q)
    refine congrArg _ (funext fun a => Fin.ext ?_)
    match a with
    | ⟨0, _⟩ => show win5_0.index t (0 : Fin 2) * 5000 + 1 * p.val = t.val * 5000 + p.val; omega
    | ⟨1, _⟩ => show win5_0.index t (1 : Fin 2) * 64 + 1 * q.val = q.val; omega
  · show Cert.Spec.leaky64 0x3D4CCCCD#32
          (Cert.Spec.bn64 (V c main_v50) (V c main_v53) (V c main_v60) (V c main_arg17) (V c main_arg18)) (ix2 ⟨t.val * 5000 + p.val, hR⟩ q)
        = Cert.Spec.leaky64 0x3D4CCCCD#32
          (Cert.Spec.bn64 (V c main_v50) (V c main_v53) (V c main_v60) (V c main_arg17) (V c main_arg18))
            (((cfg5.win 5).blk t).view.emb (ix2 p q))
    refine congrArg _ (funext fun a => Fin.ext ?_)
    match a with
    | ⟨0, _⟩ => show t.val * 5000 + p.val = win5_5.index t (0 : Fin 2) * 5000 + 1 * p.val; omega
    | ⟨1, _⟩ => show q.val = win5_5.index t (1 : Fin 2) * 64 + 1 * q.val; omega

/-- An index of the array is in point t's block iff each coordinate is in the block's range on its axis. -/
theorem mem_blk (t : Fin cfg5.N) (i : S20000x64.Idx) :
    i ∈ ((cfg5.win 5).blk t).view.set ↔ ∀ a : Fin 2, win5_5.index t a * S5000x64.size a ≤ (i a).val ∧ (i a).val < win5_5.index t a * S5000x64.size a + S5000x64.size a := by
  show i ∈ ((View.whole main_v61).slice (win5_5.rect t)).set ↔ _
  rw [View.set_slice_whole, Rect.mem_set_unit]
  exact Iff.rfl

/-- Every row of the array is in some point's block: row i is in block i / 5000. -/
theorem cover (i : S20000x64.Idx) : ∃ t : Fin cfg5.N, (cfg5.win 5).flush t = true ∧ i ∈ ((cfg5.win 5).blk t).view.set := by
  have hi0 : (i 0).val < 20000 := (i 0).isLt
  have hi1 : (i 1).val < 64 := (i 1).isLt
  have hN : cfg5.N = 4 := N_5
  refine ⟨⟨(i 0).val / 5000, by omega⟩, flush5_5 _, ?_⟩
  rw [mem_blk]
  obtain ⟨e0, e1, e2, e3, e4, e5, e6, e7⟩ := idx_facts ⟨(i 0).val / 5000, by omega⟩
  intro a
  match a with
  | ⟨0, _⟩ => show win5_5.index _ (0 : Fin 2) * 5000 ≤ (i 0).val ∧ (i 0).val < win5_5.index _ (0 : Fin 2) * 5000 + 5000; simp only [] at e6; omega
  | ⟨1, _⟩ => show win5_5.index _ (1 : Fin 2) * 64 ≤ (i 1).val ∧ (i 1).val < win5_5.index _ (1 : Fin 2) * 64 + 64; omega

/-- The array the region leaves: the normalised, rectified whole array of the arrays it finds. -/
theorem final (c : Dev nD) :
    (dat5 (F := Ideal) V c).arrAt 5 cfg5.N
      = Cert.Spec.leaky64 0x3D4CCCCD#32
          (Cert.Spec.bn64 (V c main_v50) (V c main_v53) (V c main_v60) (V c main_arg17) (V c main_arg18)) :=
  (dat5 (F := Ideal) V c).arrAt_eq_of_cover 5 _ (fun t _ => flushed_eq V c t) cover

end Cert.KernelIdeal.Region5

end
-- ==== Proof.Region6.lean ====
/-
  The last head layer's region: the array it leaves is `x · Wᵀ + b` of the arrays it finds.

  The region walks four blocks of 5000 rows. At block t the body reads rows 5000·t … 5000·t + 4999 of its input, the
  whole weight matrix and the whole bias, and writes the same rows of the output; row r of the block is row
  5000·t + r of the array, and a row of `x · Wᵀ + b` depends on that row of x alone. The four blocks tile the 20000
  rows, so the output array ends as the whole-array layer.
-/
import proofs.«111575_j78099685310579_1_alg».proof.Proof.Gen.KernelIdeal.Frame
import proofs.«111575_j78099685310579_1_alg».proof.Proof.Gen.ReferenceIdeal
import proofs.«111575_j78099685310579_1_alg».proof.Proof.Spec
import proofs.«111575_j78099685310579_1_alg».proof.Proof.LibLinearT
import Idealize.ShloMosaic.Lib.Pipeline.Value
import Idealize.ShloMosaic.Lib.ValueIdx

set_option maxRecDepth 16384

noncomputable section

namespace Cert.KernelIdeal.Region6

open Idealize.ShloMosaic Idealize.ShloMosaic.ValueIdx Idealize.ShloMosaic.TcCoe Idealize.SL.Sem
open Cert.KernelIdeal Cert.KernelIdeal.Gen
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-- The body's result at row r, column q of a block whose row r is row R of the array X. -/
theorem pay_rows (X : FVec Ideal Cert.ReferenceIdeal.S20000x64 .f32) (W : FVec Ideal S1x64 .f32) (b : FVec Ideal S1 .f32)
    (x : Vec Ideal S5000x64 .f32) (r : Fin 5000) (R : Fin 20000) (q : Fin 1)
    (hx : ∀ k : Fin 64, x (ix2 r k) = X (ix2 R k)) :
    k6_pay1 (F := Ideal) x W b (ix2 r q) = Cert.Spec.lin1 X W b (ix2 R q) := by
  unfold k6_pay1 Cert.Spec.lin1
  refine Eq.trans ?_ (LinearT.linearT_rows (M := 20000) (m := 5000) (K := 64) (N := 1) X W b x
    bitsLt_bf16_f32 transposes_S1x64_p1_0_S64x1 shapeCasts_S1_S1x1 broadcasts_S1x1_S5000x1
    Cert.ReferenceIdeal.Facts₀.bcast_S1_S1x1_1 Cert.ReferenceIdeal.Facts₀.bcast_S1x1_S20000x1_0_1 r R q hx)
  rw [shapeCast_self]
  rfl

/-- The printed index maps over the grid: block t of the row-blocked windows starts at row block t; the weights and
    the bias are one block. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = t.val ∧ win6_3.index t (1 : Fin 2) = 0 :=
  (by decide +kernel : ∀ t : Fin grid6.N, _)

variable (V : (c : Dev nD) → (b : Ref sig .tc) → Buf (Elt Ideal) ((c : Thread nD τ).loc b))

/-- What point t writes back is block t of the whole-array layer. -/
theorem flushed_eq (c : Dev nD) (t : Fin cfg6.N) :
    (dat6 (F := Ideal) V c).flushed 3 t
      = ((cfg6.win 3).blk t).view.read (Elt Ideal) (Cert.Spec.lin1 (V c main_v61) (V c main_arg13) (V c main_arg14)) := by
  show (cfg6.win 3).cut (grid6.coords t) ((dat6 (F := Ideal) V c).after 3 t) = _
  rw [after6_3]
  unfold out6_3
  rw [View.canon_unit_zero hz2]
  simp only [View.ld_unit_zero (S := S5000x64) hz2, View.ld_unit_zero (S := S1x64) hz2, View.ld_unit_zero (S := S1) hz1]
  obtain ⟨e0, e1, e2, e3, e4, e5, e6⟩ := idx_facts t
  have hW : iblk6 V c 1 t = V c main_arg13 := by
    funext y
    show V c main_arg13 (((cfg6.win 1).blk t).view.emb y) = V c main_arg13 y
    refine congrArg _ (funext fun a => Fin.ext ?_)
    match a with
    | ⟨0, _⟩ => show win6_1.index t (0 : Fin 2) * 1 + 1 * (y 0).val = (y 0).val; omega
    | ⟨1, _⟩ => show win6_1.index t (1 : Fin 2) * 64 + 1 * (y 1).val = (y 1).val; omega
  have hB : iblk6 V c 2 t = V c main_arg14 := by
    funext y
    show V c main_arg14 (((cfg6.win 2).blk t).view.emb y) = V c main_arg14 y
    refine congrArg _ (funext fun a => Fin.ext ?_)
    match a with
    | ⟨0, _⟩ => show win6_2.index t (0 : Fin 1) * 1 + 1 * (y 0).val = (y 0).val; omega
  rw [hW, hB]
  funext j
  obtain ⟨p, q, rfl⟩ : ∃ (p : Fin 5000) (q : Fin 1), j = ix2 p q := ⟨j 0, j 1, eq_ix2 j⟩
  have hR : t.val * 5000 + p.val < 20000 := by
    have := t.isLt; have := p.isLt; have : cfg6.N = 4 := N_6; omega
  refine (pay_rows (V c main_v61) (V c main_arg13) (V c main_arg14) (iblk6 V c 0 t) p ⟨t.val * 5000 + p.val, hR⟩ q ?_).trans ?_
  · intro k
    show V c main_v61 (((cfg6.win 0).blk t).view.emb (ix2 p k)) = V c main_v61 (ix2 ⟨t.val * 5000 + p.val, hR⟩ k)
    refine congrArg _ (funext fun a => Fin.ext ?_)
    match a with
    | ⟨0, _⟩ => show win6_0.index t (0 : Fin 2) * 5000 + 1 * p.val = t.val * 5000 + p.val; omega
    | ⟨1, _⟩ => show win6_0.index t (1 : Fin 2) * 64 + 1 * k.val = k.val; omega
  · show Cert.Spec.lin1 (V c main_v61) (V c main_arg13) (V c main_arg14) (ix2 ⟨t.val * 5000 + p.val, hR⟩ q)
        = Cert.Spec.lin1 (V c main_v61) (V c main_arg13) (V c main_arg14) (((cfg6.win 3).blk t).view.emb (ix2 p q))
    refine congrArg _ (funext fun a => Fin.ext ?_)
    match a with
    | ⟨0, _⟩ => show t.val * 5000 + p.val = win6_3.index t (0 : Fin 2) * 5000 + 1 * p.val; omega
    | ⟨1, _⟩ => show q.val = win6_3.index t (1 : Fin 2) * 1 + 1 * q.val; omega

/-- An index of the array is in point t's block iff each coordinate is in the block's range on its axis. -/
theorem mem_blk (t : Fin cfg6.N) (i : S20000x1.Idx) :
    i ∈ ((cfg6.win 3).blk t).view.set ↔ ∀ a : Fin 2, win6_3.index t a * S5000x1.size a ≤ (i a).val ∧ (i a).val < win6_3.index t a * S5000x1.size a + S5000x1.size a := by
  show i ∈ ((View.whole main_v62).slice (win6_3.rect t)).set ↔ _
  rw [View.set_slice_whole, Rect.mem_set_unit]
  exact Iff.rfl

/-- Every row of the array is in some point's block: row i is in block i / 5000. -/
theorem cover (i : S20000x1.Idx) : ∃ t : Fin cfg6.N, (cfg6.win 3).flush t = true ∧ i ∈ ((cfg6.win 3).blk t).view.set := by
  have hi0 : (i 0).val < 20000 := (i 0).isLt
  have hi1 : (i 1).val < 1 := (i 1).isLt
  have hN : cfg6.N = 4 := N_6
  refine ⟨⟨(i 0).val / 5000, by omega⟩, flush6_3 _, ?_⟩
  rw [mem_blk]
  obtain ⟨e0, e1, e2, e3, e4, e5, e6⟩ := idx_facts ⟨(i 0).val / 5000, by omega⟩
  intro a
  match a with
  | ⟨0, _⟩ => show win6_3.index _ (0 : Fin 2) * 5000 ≤ (i 0).val ∧ (i 0).val < win6_3.index _ (0 : Fin 2) * 5000 + 5000; simp only [] at e5; omega
  | ⟨1, _⟩ => show win6_3.index _ (1 : Fin 2) * 1 ≤ (i 1).val ∧ (i 1).val < win6_3.index _ (1 : Fin 2) * 1 + 1; omega

/-- The array the region leaves: the whole-array layer of the arrays it finds. -/
theorem final (c : Dev nD) :
    (dat6 (F := Ideal) V c).arrAt 3 cfg6.N = Cert.Spec.lin1 (V c main_v61) (V c main_arg13) (V c main_arg14) :=
  (dat6 (F := Ideal) V c).arrAt_eq_of_cover 3 _ (fun t _ => flushed_eq V c t) cover

end Cert.KernelIdeal.Region6

end
-- ==== Proof.KernelValue.lean ====
/-
  The result buffer of the idealized kernel's run, as the network of the argument arrays.

  The run's boundary contents are a fold through @main: a stretch of host operations applies its operations to what the
  previous boundary holds; a region leaves its output array at its whole-array layer of the arrays it found (the
  region modules) and every other buffer as it found it. Walking the fold from the launch memory: the aggregated rows
  and the degrees (host), the first graph convolution (region 0), the aggregation of its result (host), the second
  graph convolution (region 1), the row selection (host), then alternately a dense layer (regions 2, 4, 6) and the
  batch statistics (host) with the normalisation and leaky rectifier (regions 3, 5). Each buffer a later step reads
  is first walked back to the boundary that wrote it: no host operation and no region in between writes it.
-/
import proofs.«111575_j78099685310579_1_alg».proof.Proof.Gen.KernelIdeal.Frame
import proofs.«111575_j78099685310579_1_alg».proof.Proof.Gen.ReferenceIdeal
import proofs.«111575_j78099685310579_1_alg».proof.Proof.Spec
import proofs.«111575_j78099685310579_1_alg».proof.Proof.Region0
import proofs.«111575_j78099685310579_1_alg».proof.Proof.Region1
import proofs.«111575_j78099685310579_1_alg».proof.Proof.Region2
import proofs.«111575_j78099685310579_1_alg».proof.Proof.Region3
import proofs.«111575_j78099685310579_1_alg».proof.Proof.Region4
import proofs.«111575_j78099685310579_1_alg».proof.Proof.Region5
import proofs.«111575_j78099685310579_1_alg».proof.Proof.Region6
import Idealize.ShloMosaic.Lib.StableHlo.Run

set_option maxRecDepth 16384

noncomputable section

namespace Cert.KernelIdeal.Value

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

theorem keep1_arg0 : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem keep1_arg3 : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem keep1_arg4 : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem keep1_arg5 : W1 m ρ c (Proc.devRef .tc main_arg5) = m ((c : Thread nD τ).loc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem keep2_v1_to1 : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem keep2_v3_to1 : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem keep3_v18_to1 : W3 m ρ c (Proc.devRef .tc main_v18) = W1 m ρ c (Proc.devRef .tc main_v18) :=
  calc W3 m ρ c (Proc.devRef .tc main_v18)
    _ = W2 m ρ c (Proc.devRef .tc main_v18) := StableHlo.after_of_forall_not_mem (b := Proc.devRef .tc main_v18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v18) := (W2_arr m ρ c 1).trans (((dat0 (V1 m ρ) c).arrAt_in 1 rfl _).trans (A_eq0 (V1 m ρ) c 1))

theorem keep3_v19_to2 : W3 m ρ c (Proc.devRef .tc main_v19) = W2 m ρ c (Proc.devRef .tc main_v19) :=
  calc W3 m ρ c (Proc.devRef .tc main_v19)
    _ = W2 m ρ c (Proc.devRef .tc main_v19) := StableHlo.after_of_forall_not_mem (b := Proc.devRef .tc main_v19) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep3_arg6 : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem keep3_arg7 : W3 m ρ c (Proc.devRef .tc main_arg7) = m ((c : Thread nD τ).loc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem keep3_arg8 : W3 m ρ c (Proc.devRef .tc main_arg8) = m ((c : Thread nD τ).loc main_arg8) :=
  calc W3 m ρ c (Proc.devRef .tc main_arg8)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem keep4_arg2 : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem keep5_arg9 : W5 m ρ c (Proc.devRef .tc main_arg9) = m ((c : Thread nD τ).loc main_arg9) :=
  calc W5 m ρ c (Proc.devRef .tc main_arg9)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem keep5_arg10 : W5 m ρ c (Proc.devRef .tc main_arg10) = m ((c : Thread nD τ).loc main_arg10) :=
  calc W5 m ρ c (Proc.devRef .tc main_arg10)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem keep7_v38_to6 : W7 m ρ c (Proc.devRef .tc main_v38) = W6 m ρ c (Proc.devRef .tc main_v38) :=
  calc W7 m ρ c (Proc.devRef .tc main_v38)
    _ = W6 m ρ c (Proc.devRef .tc main_v38) := StableHlo.after_of_forall_not_mem (b := Proc.devRef .tc main_v38) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep7_arg15 : W7 m ρ c (Proc.devRef .tc main_arg15) = m ((c : Thread nD τ).loc main_arg15) :=
  calc W7 m ρ c (Proc.devRef .tc main_arg15)
    _ = W6 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

theorem keep7_arg16 : W7 m ρ c (Proc.devRef .tc main_arg16) = m ((c : Thread nD τ).loc main_arg16) :=
  calc W7 m ρ c (Proc.devRef .tc main_arg16)
    _ = W6 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

theorem keep8_arg11 : W8 m ρ c (Proc.devRef .tc main_arg11) = m ((c : Thread nD τ).loc main_arg11) :=
  calc W8 m ρ c (Proc.devRef .tc main_arg11)
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem keep8_arg12 : W8 m ρ c (Proc.devRef .tc main_arg12) = m ((c : Thread nD τ).loc main_arg12) :=
  calc W8 m ρ c (Proc.devRef .tc main_arg12)
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem keep10_v50_to9 : W10 m ρ c (Proc.devRef .tc main_v50) = W9 m ρ c (Proc.devRef .tc main_v50) :=
  calc W10 m ρ c (Proc.devRef .tc main_v50)
    _ = W9 m ρ c (Proc.devRef .tc main_v50) := StableHlo.after_of_forall_not_mem (b := Proc.devRef .tc main_v50) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep10_arg17 : W10 m ρ c (Proc.devRef .tc main_arg17) = m ((c : Thread nD τ).loc main_arg17) :=
  calc W10 m ρ c (Proc.devRef .tc main_arg17)
    _ = W9 m ρ c (Proc.devRef .tc main_arg17) := StableHlo.after_of_forall_not_mem (b := Proc.devRef .tc main_arg17) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg17) := W9_of_ne m ρ c main_arg17 (by decide)
    _ = W7 m ρ c (Proc.devRef .tc main_arg17) := W8_of_ne m ρ c main_arg17 (by decide)
    _ = W6 m ρ c (Proc.devRef .tc main_arg17) := StableHlo.after_of_forall_not_mem (b := Proc.devRef .tc main_arg17) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

theorem keep10_arg18 : W10 m ρ c (Proc.devRef .tc main_arg18) = m ((c : Thread nD τ).loc main_arg18) :=
  calc W10 m ρ c (Proc.devRef .tc main_arg18)
    _ = W9 m ρ c (Proc.devRef .tc main_arg18) := StableHlo.after_of_forall_not_mem (b := Proc.devRef .tc main_arg18) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg18) := W9_of_ne m ρ c main_arg18 (by decide)
    _ = W7 m ρ c (Proc.devRef .tc main_arg18) := W8_of_ne m ρ c main_arg18 (by decide)
    _ = W6 m ρ c (Proc.devRef .tc main_arg18) := StableHlo.after_of_forall_not_mem (b := Proc.devRef .tc main_arg18) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg18) := rfl

theorem keep11_arg13 : W11 m ρ c (Proc.devRef .tc main_arg13) = m ((c : Thread nD τ).loc main_arg13) :=
  calc W11 m ρ c (Proc.devRef .tc main_arg13)
    _ = W10 m ρ c (Proc.devRef .tc main_arg13) := W11_of_ne m ρ c main_arg13 (by decide)
    _ = W9 m ρ c (Proc.devRef .tc main_arg13) := StableHlo.after_of_forall_not_mem (b := Proc.devRef .tc main_arg13) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg13) := W9_of_ne m ρ c main_arg13 (by decide)
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem keep11_arg14 : W11 m ρ c (Proc.devRef .tc main_arg14) = m ((c : Thread nD τ).loc main_arg14) :=
  calc W11 m ρ c (Proc.devRef .tc main_arg14)
    _ = W10 m ρ c (Proc.devRef .tc main_arg14) := W11_of_ne m ρ c main_arg14 (by decide)
    _ = W9 m ρ c (Proc.devRef .tc main_arg14) := StableHlo.after_of_forall_not_mem (b := Proc.devRef .tc main_arg14) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg14) := W9_of_ne m ρ c main_arg14 (by decide)
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem keep1_arg0_V : V1 m ρ c main_arg0 = m ((c : Thread nD τ).loc main_arg0) := keep1_arg0 m ρ c
theorem keep1_arg3_V : V1 m ρ c main_arg3 = m ((c : Thread nD τ).loc main_arg3) := keep1_arg3 m ρ c
theorem keep1_arg4_V : V1 m ρ c main_arg4 = m ((c : Thread nD τ).loc main_arg4) := keep1_arg4 m ρ c
theorem keep1_arg5_V : V1 m ρ c main_arg5 = m ((c : Thread nD τ).loc main_arg5) := keep1_arg5 m ρ c
theorem keep2_v1_to1_V : V2 m ρ c main_v1 = W1 m ρ c (Proc.devRef .tc main_v1) := keep2_v1_to1 m ρ c
theorem keep2_v3_to1_V : V2 m ρ c main_v3 = W1 m ρ c (Proc.devRef .tc main_v3) := keep2_v3_to1 m ρ c
theorem keep3_v18_to1_V : V3 m ρ c main_v18 = W1 m ρ c (Proc.devRef .tc main_v18) := keep3_v18_to1 m ρ c
theorem keep3_v19_to2_V : V3 m ρ c main_v19 = W2 m ρ c (Proc.devRef .tc main_v19) := keep3_v19_to2 m ρ c
theorem keep3_arg6_V : V3 m ρ c main_arg6 = m ((c : Thread nD τ).loc main_arg6) := keep3_arg6 m ρ c
theorem keep3_arg7_V : V3 m ρ c main_arg7 = m ((c : Thread nD τ).loc main_arg7) := keep3_arg7 m ρ c
theorem keep3_arg8_V : V3 m ρ c main_arg8 = m ((c : Thread nD τ).loc main_arg8) := keep3_arg8 m ρ c
theorem keep4_arg2_V : V4 m ρ c main_arg2 = m ((c : Thread nD τ).loc main_arg2) := keep4_arg2 m ρ c
theorem keep5_arg9_V : V5 m ρ c main_arg9 = m ((c : Thread nD τ).loc main_arg9) := keep5_arg9 m ρ c
theorem keep5_arg10_V : V5 m ρ c main_arg10 = m ((c : Thread nD τ).loc main_arg10) := keep5_arg10 m ρ c
theorem keep7_v38_to6_V : V7 m ρ c main_v38 = W6 m ρ c (Proc.devRef .tc main_v38) := keep7_v38_to6 m ρ c
theorem keep7_arg15_V : V7 m ρ c main_arg15 = m ((c : Thread nD τ).loc main_arg15) := keep7_arg15 m ρ c
theorem keep7_arg16_V : V7 m ρ c main_arg16 = m ((c : Thread nD τ).loc main_arg16) := keep7_arg16 m ρ c
theorem keep8_arg11_V : V8 m ρ c main_arg11 = m ((c : Thread nD τ).loc main_arg11) := keep8_arg11 m ρ c
theorem keep8_arg12_V : V8 m ρ c main_arg12 = m ((c : Thread nD τ).loc main_arg12) := keep8_arg12 m ρ c
theorem keep10_v50_to9_V : V10 m ρ c main_v50 = W9 m ρ c (Proc.devRef .tc main_v50) := keep10_v50_to9 m ρ c
theorem keep10_arg17_V : V10 m ρ c main_arg17 = m ((c : Thread nD τ).loc main_arg17) := keep10_arg17 m ρ c
theorem keep10_arg18_V : V10 m ρ c main_arg18 = m ((c : Thread nD τ).loc main_arg18) := keep10_arg18 m ρ c
theorem keep11_arg13_V : V11 m ρ c main_arg13 = m ((c : Thread nD τ).loc main_arg13) := keep11_arg13 m ρ c
theorem keep11_arg14_V : V11 m ρ c main_arg14 = m ((c : Thread nD τ).loc main_arg14) := keep11_arg14 m ρ c

set_option maxHeartbeats 8000000 in
theorem s1_v13 : W1 m ρ c (Proc.devRef .tc main_v13) = Cert.Spec.aggregate (m ((c : Thread nD τ).loc main_arg0)) (m ((c : Thread nD τ).loc main_arg1)) := by
  show StableHlo.after (hostOps0 (F := Ideal)) (W0 m ρ c) (Proc.devRef .tc main_v13) = _
  after_results_simp
  unfold Cert.Spec.aggregate Cert.Spec.src Cert.Spec.dst Cert.Spec.srcRow Cert.Spec.dstRow
  rfl

theorem s1_v13_V : V1 m ρ c main_v13 = Cert.Spec.aggregate (m ((c : Thread nD τ).loc main_arg0)) (m ((c : Thread nD τ).loc main_arg1)) := s1_v13 m ρ c

set_option maxHeartbeats 8000000 in
theorem s1_v18 : W1 m ρ c (Proc.devRef .tc main_v18) = Cert.Spec.degreeCol (Cert.Spec.degree (m ((c : Thread nD τ).loc main_arg1))) := by
  show StableHlo.after (hostOps0 (F := Ideal)) (W0 m ρ c) (Proc.devRef .tc main_v18) = _
  after_results_simp
  unfold Cert.Spec.degreeCol Cert.Spec.degree Cert.Spec.dst Cert.Spec.dstRow
  rfl

theorem s1_v18_V : V1 m ρ c main_v18 = Cert.Spec.degreeCol (Cert.Spec.degree (m ((c : Thread nD τ).loc main_arg1))) := s1_v18 m ρ c

set_option maxHeartbeats 8000000 in
theorem s1_v1 : W1 m ρ c (Proc.devRef .tc main_v1) = Cert.Spec.srcRow (m ((c : Thread nD τ).loc main_arg1)) := by
  show StableHlo.after (hostOps0 (F := Ideal)) (W0 m ρ c) (Proc.devRef .tc main_v1) = _
  after_results_simp
  unfold Cert.Spec.srcRow
  rfl

theorem s1_v1_V : V1 m ρ c main_v1 = Cert.Spec.srcRow (m ((c : Thread nD τ).loc main_arg1)) := s1_v1 m ρ c

set_option maxHeartbeats 8000000 in
theorem s1_v3 : W1 m ρ c (Proc.devRef .tc main_v3) = Cert.Spec.dstRow (m ((c : Thread nD τ).loc main_arg1)) := by
  show StableHlo.after (hostOps0 (F := Ideal)) (W0 m ρ c) (Proc.devRef .tc main_v3) = _
  after_results_simp
  unfold Cert.Spec.dstRow
  rfl

theorem s1_v3_V : V1 m ρ c main_v3 = Cert.Spec.dstRow (m ((c : Thread nD τ).loc main_arg1)) := s1_v3 m ρ c

theorem s2_v19 : W2 m ρ c (Proc.devRef .tc main_v19) = (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) := by
  have h := Cert.KernelIdeal.Region0.final (V1 m ρ) c (Cert.Spec.degree (m ((c : Thread nD τ).loc main_arg1))) (s1_v18_V m ρ c)
  rw [s1_v13_V m ρ c, keep1_arg0_V m ρ c, keep1_arg3_V m ρ c, keep1_arg4_V m ρ c, keep1_arg5_V m ρ c] at h
  exact (W2_arr m ρ c 6).trans h

theorem s2_v19_V : V2 m ρ c main_v19 = (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) := s2_v19 m ρ c

theorem s2_v1 : W2 m ρ c (Proc.devRef .tc main_v1) = Cert.Spec.srcRow (m ((c : Thread nD τ).loc main_arg1)) := (keep2_v1_to1 m ρ c).trans (s1_v1 m ρ c)

theorem s2_v1_V : V2 m ρ c main_v1 = Cert.Spec.srcRow (m ((c : Thread nD τ).loc main_arg1)) := s2_v1 m ρ c

theorem s2_v3 : W2 m ρ c (Proc.devRef .tc main_v3) = Cert.Spec.dstRow (m ((c : Thread nD τ).loc main_arg1)) := (keep2_v3_to1 m ρ c).trans (s1_v3 m ρ c)

theorem s2_v3_V : V2 m ρ c main_v3 = Cert.Spec.dstRow (m ((c : Thread nD τ).loc main_arg1)) := s2_v3 m ρ c

set_option maxHeartbeats 8000000 in
theorem s3_v29 : W3 m ρ c (Proc.devRef .tc main_v29) = Cert.Spec.aggregate (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) := by
  show StableHlo.after (hostOps1 (F := Ideal)) (W2 m ρ c) (Proc.devRef .tc main_v29) = _
  after_results_simp
  rw [s2_v3 m ρ c, s2_v1 m ρ c, s2_v19 m ρ c]
  unfold Cert.Spec.aggregate Cert.Spec.src Cert.Spec.dst
  rfl

theorem s3_v29_V : V3 m ρ c main_v29 = Cert.Spec.aggregate (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) := s3_v29 m ρ c

theorem s3_v18 : W3 m ρ c (Proc.devRef .tc main_v18) = Cert.Spec.degreeCol (Cert.Spec.degree (m ((c : Thread nD τ).loc main_arg1))) := (keep3_v18_to1 m ρ c).trans (s1_v18 m ρ c)

theorem s3_v18_V : V3 m ρ c main_v18 = Cert.Spec.degreeCol (Cert.Spec.degree (m ((c : Thread nD τ).loc main_arg1))) := s3_v18 m ρ c

theorem s3_v19 : W3 m ρ c (Proc.devRef .tc main_v19) = (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) := (keep3_v19_to2 m ρ c).trans (s2_v19 m ρ c)

theorem s3_v19_V : V3 m ρ c main_v19 = (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) := s3_v19 m ρ c

theorem s4_v30 : W4 m ρ c (Proc.devRef .tc main_v30) = (Cert.Spec.hidden2 (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) := by
  have h := Cert.KernelIdeal.Region1.final (V3 m ρ) c (Cert.Spec.degree (m ((c : Thread nD τ).loc main_arg1))) (s3_v18_V m ρ c)
  rw [s3_v29_V m ρ c, s3_v19_V m ρ c, keep3_arg6_V m ρ c, keep3_arg7_V m ρ c, keep3_arg8_V m ρ c] at h
  exact (W4_arr m ρ c 6).trans h

theorem s4_v30_V : V4 m ρ c main_v30 = (Cert.Spec.hidden2 (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) := s4_v30 m ρ c

set_option maxHeartbeats 8000000 in
theorem s5_v37 : W5 m ρ c (Proc.devRef .tc main_v37) = (Cert.Spec.pick (Cert.Spec.hidden2 (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2))) := by
  show StableHlo.after (hostOps2 (F := Ideal)) (W4 m ρ c) (Proc.devRef .tc main_v37) = _
  after_results_simp
  rw [s4_v30 m ρ c, keep4_arg2 m ρ c]
  unfold Cert.Spec.pick Cert.Spec.nodeCol
  rfl

theorem s5_v37_V : V5 m ρ c main_v37 = (Cert.Spec.pick (Cert.Spec.hidden2 (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2))) := s5_v37 m ρ c

theorem s6_v38 : W6 m ρ c (Proc.devRef .tc main_v38) = (Cert.Spec.lin128 (Cert.Spec.pick (Cert.Spec.hidden2 (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2))) (m ((c : Thread nD τ).loc main_arg9)) (m ((c : Thread nD τ).loc main_arg10))) := by
  have h := Cert.KernelIdeal.Region2.final (V5 m ρ) c
  rw [s5_v37_V m ρ c, keep5_arg9_V m ρ c, keep5_arg10_V m ρ c] at h
  exact (W6_arr m ρ c 3).trans h

theorem s6_v38_V : V6 m ρ c main_v38 = (Cert.Spec.lin128 (Cert.Spec.pick (Cert.Spec.hidden2 (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2))) (m ((c : Thread nD τ).loc main_arg9)) (m ((c : Thread nD τ).loc main_arg10))) := s6_v38 m ρ c

theorem s7_v38 : W7 m ρ c (Proc.devRef .tc main_v38) = (Cert.Spec.lin128 (Cert.Spec.pick (Cert.Spec.hidden2 (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2))) (m ((c : Thread nD τ).loc main_arg9)) (m ((c : Thread nD τ).loc main_arg10))) := (keep7_v38_to6 m ρ c).trans (s6_v38 m ρ c)

theorem s7_v38_V : V7 m ρ c main_v38 = (Cert.Spec.lin128 (Cert.Spec.pick (Cert.Spec.hidden2 (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2))) (m ((c : Thread nD τ).loc main_arg9)) (m ((c : Thread nD τ).loc main_arg10))) := s7_v38 m ρ c

set_option maxHeartbeats 8000000 in
theorem s7_v41 : W7 m ρ c (Proc.devRef .tc main_v41) = Cert.Spec.mean128 (Cert.Spec.lin128 (Cert.Spec.pick (Cert.Spec.hidden2 (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2))) (m ((c : Thread nD τ).loc main_arg9)) (m ((c : Thread nD τ).loc main_arg10))) := by
  show StableHlo.after (hostOps3 (F := Ideal)) (W6 m ρ c) (Proc.devRef .tc main_v41) = _
  after_results_simp
  rw [s6_v38 m ρ c]
  unfold Cert.Spec.mean128
  rfl

theorem s7_v41_V : V7 m ρ c main_v41 = Cert.Spec.mean128 (Cert.Spec.lin128 (Cert.Spec.pick (Cert.Spec.hidden2 (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2))) (m ((c : Thread nD τ).loc main_arg9)) (m ((c : Thread nD τ).loc main_arg10))) := s7_v41 m ρ c

set_option maxHeartbeats 8000000 in
theorem s7_v48 : W7 m ρ c (Proc.devRef .tc main_v48) = Cert.Spec.var128 (Cert.Spec.lin128 (Cert.Spec.pick (Cert.Spec.hidden2 (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2))) (m ((c : Thread nD τ).loc main_arg9)) (m ((c : Thread nD τ).loc main_arg10))) (Cert.Spec.mean128 (Cert.Spec.lin128 (Cert.Spec.pick (Cert.Spec.hidden2 (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2))) (m ((c : Thread nD τ).loc main_arg9)) (m ((c : Thread nD τ).loc main_arg10)))) := by
  show StableHlo.after (hostOps3 (F := Ideal)) (W6 m ρ c) (Proc.devRef .tc main_v48) = _
  after_results_simp
  rw [s6_v38 m ρ c]
  unfold Cert.Spec.var128 Cert.Spec.mean128 Cert.Spec.rows128
  rfl

theorem s7_v48_V : V7 m ρ c main_v48 = Cert.Spec.var128 (Cert.Spec.lin128 (Cert.Spec.pick (Cert.Spec.hidden2 (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2))) (m ((c : Thread nD τ).loc main_arg9)) (m ((c : Thread nD τ).loc main_arg10))) (Cert.Spec.mean128 (Cert.Spec.lin128 (Cert.Spec.pick (Cert.Spec.hidden2 (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2))) (m ((c : Thread nD τ).loc main_arg9)) (m ((c : Thread nD τ).loc main_arg10)))) := s7_v48 m ρ c

theorem s8_v49 : W8 m ρ c (Proc.devRef .tc main_v49) = (Cert.Spec.act128 (Cert.Spec.lin128 (Cert.Spec.pick (Cert.Spec.hidden2 (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2))) (m ((c : Thread nD τ).loc main_arg9)) (m ((c : Thread nD τ).loc main_arg10))) (m ((c : Thread nD τ).loc main_arg15)) (m ((c : Thread nD τ).loc main_arg16))) := by
  have h := Cert.KernelIdeal.Region3.final (V7 m ρ) c
  rw [s7_v38_V m ρ c, s7_v41_V m ρ c, s7_v48_V m ρ c, keep7_arg15_V m ρ c, keep7_arg16_V m ρ c] at h
  exact (W8_arr m ρ c 5).trans h

theorem s8_v49_V : V8 m ρ c main_v49 = (Cert.Spec.act128 (Cert.Spec.lin128 (Cert.Spec.pick (Cert.Spec.hidden2 (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2))) (m ((c : Thread nD τ).loc main_arg9)) (m ((c : Thread nD τ).loc main_arg10))) (m ((c : Thread nD τ).loc main_arg15)) (m ((c : Thread nD τ).loc main_arg16))) := s8_v49 m ρ c

theorem s9_v50 : W9 m ρ c (Proc.devRef .tc main_v50) = (Cert.Spec.lin64 (Cert.Spec.act128 (Cert.Spec.lin128 (Cert.Spec.pick (Cert.Spec.hidden2 (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2))) (m ((c : Thread nD τ).loc main_arg9)) (m ((c : Thread nD τ).loc main_arg10))) (m ((c : Thread nD τ).loc main_arg15)) (m ((c : Thread nD τ).loc main_arg16))) (m ((c : Thread nD τ).loc main_arg11)) (m ((c : Thread nD τ).loc main_arg12))) := by
  have h := Cert.KernelIdeal.Region4.final (V8 m ρ) c
  rw [s8_v49_V m ρ c, keep8_arg11_V m ρ c, keep8_arg12_V m ρ c] at h
  exact (W9_arr m ρ c 3).trans h

theorem s9_v50_V : V9 m ρ c main_v50 = (Cert.Spec.lin64 (Cert.Spec.act128 (Cert.Spec.lin128 (Cert.Spec.pick (Cert.Spec.hidden2 (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2))) (m ((c : Thread nD τ).loc main_arg9)) (m ((c : Thread nD τ).loc main_arg10))) (m ((c : Thread nD τ).loc main_arg15)) (m ((c : Thread nD τ).loc main_arg16))) (m ((c : Thread nD τ).loc main_arg11)) (m ((c : Thread nD τ).loc main_arg12))) := s9_v50 m ρ c

theorem s10_v50 : W10 m ρ c (Proc.devRef .tc main_v50) = (Cert.Spec.lin64 (Cert.Spec.act128 (Cert.Spec.lin128 (Cert.Spec.pick (Cert.Spec.hidden2 (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2))) (m ((c : Thread nD τ).loc main_arg9)) (m ((c : Thread nD τ).loc main_arg10))) (m ((c : Thread nD τ).loc main_arg15)) (m ((c : Thread nD τ).loc main_arg16))) (m ((c : Thread nD τ).loc main_arg11)) (m ((c : Thread nD τ).loc main_arg12))) := (keep10_v50_to9 m ρ c).trans (s9_v50 m ρ c)

theorem s10_v50_V : V10 m ρ c main_v50 = (Cert.Spec.lin64 (Cert.Spec.act128 (Cert.Spec.lin128 (Cert.Spec.pick (Cert.Spec.hidden2 (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2))) (m ((c : Thread nD τ).loc main_arg9)) (m ((c : Thread nD τ).loc main_arg10))) (m ((c : Thread nD τ).loc main_arg15)) (m ((c : Thread nD τ).loc main_arg16))) (m ((c : Thread nD τ).loc main_arg11)) (m ((c : Thread nD τ).loc main_arg12))) := s10_v50 m ρ c

set_option maxHeartbeats 8000000 in
theorem s10_v53 : W10 m ρ c (Proc.devRef .tc main_v53) = Cert.Spec.mean64 (Cert.Spec.lin64 (Cert.Spec.act128 (Cert.Spec.lin128 (Cert.Spec.pick (Cert.Spec.hidden2 (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2))) (m ((c : Thread nD τ).loc main_arg9)) (m ((c : Thread nD τ).loc main_arg10))) (m ((c : Thread nD τ).loc main_arg15)) (m ((c : Thread nD τ).loc main_arg16))) (m ((c : Thread nD τ).loc main_arg11)) (m ((c : Thread nD τ).loc main_arg12))) := by
  show StableHlo.after (hostOps5 (F := Ideal)) (W9 m ρ c) (Proc.devRef .tc main_v53) = _
  after_results_simp
  rw [s9_v50 m ρ c]
  unfold Cert.Spec.mean64
  rfl

theorem s10_v53_V : V10 m ρ c main_v53 = Cert.Spec.mean64 (Cert.Spec.lin64 (Cert.Spec.act128 (Cert.Spec.lin128 (Cert.Spec.pick (Cert.Spec.hidden2 (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2))) (m ((c : Thread nD τ).loc main_arg9)) (m ((c : Thread nD τ).loc main_arg10))) (m ((c : Thread nD τ).loc main_arg15)) (m ((c : Thread nD τ).loc main_arg16))) (m ((c : Thread nD τ).loc main_arg11)) (m ((c : Thread nD τ).loc main_arg12))) := s10_v53 m ρ c

set_option maxHeartbeats 8000000 in
theorem s10_v60 : W10 m ρ c (Proc.devRef .tc main_v60) = Cert.Spec.var64 (Cert.Spec.lin64 (Cert.Spec.act128 (Cert.Spec.lin128 (Cert.Spec.pick (Cert.Spec.hidden2 (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2))) (m ((c : Thread nD τ).loc main_arg9)) (m ((c : Thread nD τ).loc main_arg10))) (m ((c : Thread nD τ).loc main_arg15)) (m ((c : Thread nD τ).loc main_arg16))) (m ((c : Thread nD τ).loc main_arg11)) (m ((c : Thread nD τ).loc main_arg12))) (Cert.Spec.mean64 (Cert.Spec.lin64 (Cert.Spec.act128 (Cert.Spec.lin128 (Cert.Spec.pick (Cert.Spec.hidden2 (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2))) (m ((c : Thread nD τ).loc main_arg9)) (m ((c : Thread nD τ).loc main_arg10))) (m ((c : Thread nD τ).loc main_arg15)) (m ((c : Thread nD τ).loc main_arg16))) (m ((c : Thread nD τ).loc main_arg11)) (m ((c : Thread nD τ).loc main_arg12)))) := by
  show StableHlo.after (hostOps5 (F := Ideal)) (W9 m ρ c) (Proc.devRef .tc main_v60) = _
  after_results_simp
  rw [s9_v50 m ρ c]
  unfold Cert.Spec.var64 Cert.Spec.mean64 Cert.Spec.rows64
  rfl

theorem s10_v60_V : V10 m ρ c main_v60 = Cert.Spec.var64 (Cert.Spec.lin64 (Cert.Spec.act128 (Cert.Spec.lin128 (Cert.Spec.pick (Cert.Spec.hidden2 (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2))) (m ((c : Thread nD τ).loc main_arg9)) (m ((c : Thread nD τ).loc main_arg10))) (m ((c : Thread nD τ).loc main_arg15)) (m ((c : Thread nD τ).loc main_arg16))) (m ((c : Thread nD τ).loc main_arg11)) (m ((c : Thread nD τ).loc main_arg12))) (Cert.Spec.mean64 (Cert.Spec.lin64 (Cert.Spec.act128 (Cert.Spec.lin128 (Cert.Spec.pick (Cert.Spec.hidden2 (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2))) (m ((c : Thread nD τ).loc main_arg9)) (m ((c : Thread nD τ).loc main_arg10))) (m ((c : Thread nD τ).loc main_arg15)) (m ((c : Thread nD τ).loc main_arg16))) (m ((c : Thread nD τ).loc main_arg11)) (m ((c : Thread nD τ).loc main_arg12)))) := s10_v60 m ρ c

theorem s11_v61 : W11 m ρ c (Proc.devRef .tc main_v61) = (Cert.Spec.act64 (Cert.Spec.lin64 (Cert.Spec.act128 (Cert.Spec.lin128 (Cert.Spec.pick (Cert.Spec.hidden2 (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2))) (m ((c : Thread nD τ).loc main_arg9)) (m ((c : Thread nD τ).loc main_arg10))) (m ((c : Thread nD τ).loc main_arg15)) (m ((c : Thread nD τ).loc main_arg16))) (m ((c : Thread nD τ).loc main_arg11)) (m ((c : Thread nD τ).loc main_arg12))) (m ((c : Thread nD τ).loc main_arg17)) (m ((c : Thread nD τ).loc main_arg18))) := by
  have h := Cert.KernelIdeal.Region5.final (V10 m ρ) c
  rw [s10_v50_V m ρ c, s10_v53_V m ρ c, s10_v60_V m ρ c, keep10_arg17_V m ρ c, keep10_arg18_V m ρ c] at h
  exact (W11_arr m ρ c 5).trans h

theorem s11_v61_V : V11 m ρ c main_v61 = (Cert.Spec.act64 (Cert.Spec.lin64 (Cert.Spec.act128 (Cert.Spec.lin128 (Cert.Spec.pick (Cert.Spec.hidden2 (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2))) (m ((c : Thread nD τ).loc main_arg9)) (m ((c : Thread nD τ).loc main_arg10))) (m ((c : Thread nD τ).loc main_arg15)) (m ((c : Thread nD τ).loc main_arg16))) (m ((c : Thread nD τ).loc main_arg11)) (m ((c : Thread nD τ).loc main_arg12))) (m ((c : Thread nD τ).loc main_arg17)) (m ((c : Thread nD τ).loc main_arg18))) := s11_v61 m ρ c

/-- The result buffer at the run's last boundary is the network of the launch memory's argument arrays. -/
theorem value : W12 m ρ c (Proc.devRef .tc main_v62) = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  have h := Cert.KernelIdeal.Region6.final (V11 m ρ) c
  rw [s11_v61_V m ρ c, keep11_arg13_V m ρ c, keep11_arg14_V m ρ c] at h
  exact (W12_arr m ρ c 3).trans h

end Cert.KernelIdeal.Value

end
-- ==== Proof.RefRunOps.lean ====
/-
  The reference program as a line of host operations.

  The program's main function is 160 statements in three consecutive parts, three of which call an outlined
  function (the rectifier, and twice a leaky rectifier that itself calls a select). Unfolding the calls, the
  program is one straight line of 173 whole-array operations. The line is written here in twelve stretches that
  follow the network's layers — the first graph convolution, its rectifier, the second convolution's aggregation
  and then its products, the row selection with the first dense layer, the two batch normalisations each as
  statistics and then normalisation with the leaky rectifier, the second dense layer, the last one — so that what
  each stretch leaves can be read off as one layer of the network.

  For each stretch: the buffers it writes, and that any other buffer keeps its contents through it. For the
  whole line: that the program is the line, that every operation touches device buffers only and determines its
  result.
-/
import proofs.«111575_j78099685310579_1_alg».proof.Proof.Gen.ReferenceIdeal
import Idealize.ShloMosaic.Lib.StableHlo.Run

noncomputable section

namespace Cert.ReferenceIdeal.RefRun

open Cert.ReferenceIdeal Cert.ReferenceIdeal.Facts₀ Cert.ReferenceIdeal.Facts Idealize.ShloMosaic Idealize.ShloMosaic.TcCoe Idealize.SL.Sem
  Idealize.ShloMosaic.StableHlo

variable {F : FTy → Type} [FloatOps F]

/-- The first graph convolution: the edge rows, the aggregation, the degrees, the quotient, the two products and the bias. -/
def sA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_1 (constant S_ .f32 0x3F800000#32),
    unary main_cst_1 main_v14 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x128 ![0, 1] bcast_S100000x1_S100000x128_0_1 : (⟨S100000x1, .f32⟩ : BufTy).Contents (Elt F) → (⟨S100000x128, .f32⟩ : BufTy).Contents (Elt F)),
    binary main_v13 main_v21 main_v22 (Host.divf : (⟨S100000x128, .f32⟩ : BufTy).Contents (Elt F) → (⟨S100000x128, .f32⟩ : BufTy).Contents (Elt F) → (⟨S100000x128, .f32⟩ : BufTy).Contents (Elt F)),
    unary main_arg3 main_v23 ((transpose S128x128 [1, 0] · transposes_S128x128_S128x128_1_0) : (⟨S128x128, .f32⟩ : BufTy).Contents (Elt F) → (⟨S128x128, .f32⟩ : BufTy).Contents (Elt F)),
    binary main_v22 main_v23 main_v24 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v25 (broadcastInDim S1x128 ![1] bcast_S128_S1x128_1 : (⟨S128, .f32⟩ : BufTy).Contents (Elt F) → (⟨S1x128, .f32⟩ : BufTy).Contents (Elt F)),
    unary main_v25 main_v26 (broadcastInDim S100000x128 ![0, 1] bcast_S1x128_S100000x128_0_1 : (⟨S1x128, .f32⟩ : BufTy).Contents (Elt F) → (⟨S100000x128, .f32⟩ : BufTy).Contents (Elt F)),
    binary main_v24 main_v26 main_v27 (addf : (⟨S100000x128, .f32⟩ : BufTy).Contents (Elt F) → (⟨S100000x128, .f32⟩ : BufTy).Contents (Elt F) → (⟨S100000x128, .f32⟩ : BufTy).Contents (Elt F)),
    unary main_arg5 main_v28 ((transpose S128x128 [1, 0] · transposes_S128x128_S128x128_1_0) : (⟨S128x128, .f32⟩ : BufTy).Contents (Elt F) → (⟨S128x128, .f32⟩ : BufTy).Contents (Elt F)),
    binary main_arg0 main_v28 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v27 main_v29 main_v30 (addf : (⟨S100000x128, .f32⟩ : BufTy).Contents (Elt F) → (⟨S100000x128, .f32⟩ : BufTy).Contents (Elt F) → (⟨S100000x128, .f32⟩ : BufTy).Contents (Elt F)) ]

/-- The rectifier of the first graph convolution: the maximum with zero. -/
def sR : List (HloOp τ sig (Elt F)) :=
  [ TRef.nullary main_call0.cst (constant S_ .f32 0x00000000#32),
    TRef.unary main_call0.cst main_call0.v0 (broadcastInDim S100000x128 ![] bcast_S_S100000x128),
    TRef.binary (.of main_v30 : TRef sig ⟨S100000x128, .f32⟩) main_call0.v0 main_call0.v1 maximumf ]

/-- The second graph convolution's aggregation of the first layer's rows and its degrees, up to the clamped degree. -/
def sB0 : List (HloOp τ sig (Elt F)) :=
  [ nullary main_c_4 (constantI S_ 32 0#32),
    unary main_c_4 main_v32 (broadcastInDim S1600000 ![] bcast_S_S1600000 : (⟨S_, .i32⟩ : BufTy).Contents (Elt F) → (⟨S1600000, .i32⟩ : BufTy).Contents (Elt F)),
    binary main_v1 main_v32 main_v33 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v34 (broadcastInDim S1600000 ![] bcast_S_S1600000 : (⟨S_, .i32⟩ : BufTy).Contents (Elt F) → (⟨S1600000, .i32⟩ : BufTy).Contents (Elt F)),
    binary main_v1 main_v34 main_v35 (addi : (⟨S1600000, .i32⟩ : BufTy).Contents (Elt F) → (⟨S1600000, .i32⟩ : BufTy).Contents (Elt F) → (⟨S1600000, .i32⟩ : BufTy).Contents (Elt F)),
    ternary main_v33 main_v35 main_v1 main_v36 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v36 main_v37 (broadcastInDim S1600000x1 ![0] bcast_S1600000_S1600000x1_0 : (⟨S1600000, .i32⟩ : BufTy).Contents (Elt F) → (⟨S1600000x1, .i32⟩ : BufTy).Contents (Elt F)),
    binary main_v31 main_v37 main_v38 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_6 (constant S_ .f32 0x00000000#32),
    unary main_cst_6 main_v39 (broadcastInDim S100000x128 ![] bcast_S_S100000x128 : (⟨S_, .f32⟩ : BufTy).Contents (Elt F) → (⟨S100000x128, .f32⟩ : BufTy).Contents (Elt F)),
    unary main_v3 main_v40 (broadcastInDim S1600000x1 ![0] bcast_S1600000_S1600000x1_0 : (⟨S1600000, .i32⟩ : BufTy).Contents (Elt F) → (⟨S1600000x1, .i32⟩ : BufTy).Contents (Elt F)),
    ternary main_v39 main_v40 main_v38 main_v41 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_7 (constant S_ .f32 0x3F800000#32),
    unary main_cst_7 main_v42 (broadcastInDim S1600000 ![] bcast_S_S1600000 : (⟨S_, .f32⟩ : BufTy).Contents (Elt F) → (⟨S1600000, .f32⟩ : BufTy).Contents (Elt F)),
    nullary main_cst_8 (constant S_ .f32 0x00000000#32),
    unary main_cst_8 main_v43 (broadcastInDim S100000 ![] bcast_S_S100000 : (⟨S_, .f32⟩ : BufTy).Contents (Elt F) → (⟨S100000, .f32⟩ : BufTy).Contents (Elt F)),
    unary main_v3 main_v44 (broadcastInDim S1600000x1 ![0] bcast_S1600000_S1600000x1_0 : (⟨S1600000, .i32⟩ : BufTy).Contents (Elt F) → (⟨S1600000x1, .i32⟩ : BufTy).Contents (Elt F)),
    ternary main_v43 main_v44 main_v42 main_v45 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_9 (constant S_ .f32 0x3F800000#32),
    unary main_cst_9 main_v46 (broadcastInDim S100000 ![] bcast_S_S100000 : (⟨S_, .f32⟩ : BufTy).Contents (Elt F) → (⟨S100000, .f32⟩ : BufTy).Contents (Elt F)),
    binary main_v45 main_v46 main_v47 (maximumf : (⟨S100000, .f32⟩ : BufTy).Contents (Elt F) → (⟨S100000, .f32⟩ : BufTy).Contents (Elt F) → (⟨S100000, .f32⟩ : BufTy).Contents (Elt F)) ]

/-- The second graph convolution's quotient, its two products and the bias. -/
def sB1 : List (HloOp τ sig (Elt F)) :=
  [ unary main_v47 main_v48 (broadcastInDim S100000x1 ![0] bcast_S100000_S100000x1_0 : (⟨S100000, .f32⟩ : BufTy).Contents (Elt F) → (⟨S100000x1, .f32⟩ : BufTy).Contents (Elt F)),
    unary main_v48 main_v49 (broadcastInDim S100000x128 ![0, 1] bcast_S100000x1_S100000x128_0_1 : (⟨S100000x1, .f32⟩ : BufTy).Contents (Elt F) → (⟨S100000x128, .f32⟩ : BufTy).Contents (Elt F)),
    binary main_v41 main_v49 main_v50 (Host.divf : (⟨S100000x128, .f32⟩ : BufTy).Contents (Elt F) → (⟨S100000x128, .f32⟩ : BufTy).Contents (Elt F) → (⟨S100000x128, .f32⟩ : BufTy).Contents (Elt F)),
    unary main_arg6 main_v51 ((transpose S128x128 [1, 0] · transposes_S128x128_S128x128_1_0) : (⟨S128x128, .f32⟩ : BufTy).Contents (Elt F) → (⟨S128x128, .f32⟩ : BufTy).Contents (Elt F)),
    binary main_v50 main_v51 main_v52 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg7 main_v53 (broadcastInDim S1x128 ![1] bcast_S128_S1x128_1 : (⟨S128, .f32⟩ : BufTy).Contents (Elt F) → (⟨S1x128, .f32⟩ : BufTy).Contents (Elt F)),
    unary main_v53 main_v54 (broadcastInDim S100000x128 ![0, 1] bcast_S1x128_S100000x128_0_1 : (⟨S1x128, .f32⟩ : BufTy).Contents (Elt F) → (⟨S100000x128, .f32⟩ : BufTy).Contents (Elt F)),
    binary main_v52 main_v54 main_v55 (addf : (⟨S100000x128, .f32⟩ : BufTy).Contents (Elt F) → (⟨S100000x128, .f32⟩ : BufTy).Contents (Elt F) → (⟨S100000x128, .f32⟩ : BufTy).Contents (Elt F)),
    unary main_arg8 main_v56 ((transpose S128x128 [1, 0] · transposes_S128x128_S128x128_1_0) : (⟨S128x128, .f32⟩ : BufTy).Contents (Elt F) → (⟨S128x128, .f32⟩ : BufTy).Contents (Elt F)),
    binary main_v31 main_v56 main_v57 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v55 main_v57 main_v58 (addf : (⟨S100000x128, .f32⟩ : BufTy).Contents (Elt F) → (⟨S100000x128, .f32⟩ : BufTy).Contents (Elt F) → (⟨S100000x128, .f32⟩ : BufTy).Contents (Elt F)) ]

/-- The rows at the target nodes and the first dense layer. -/
def sC : List (HloOp τ sig (Elt F)) :=
  [ nullary main_c_10 (constantI S_ 32 0#32),
    unary main_c_10 main_v59 (broadcastInDim S20000 ![] bcast_S_S20000 : (⟨S_, .i32⟩ : BufTy).Contents (Elt F) → (⟨S20000, .i32⟩ : BufTy).Contents (Elt F)),
    binary main_arg2 main_v59 main_v60 (cmpi .slt : (⟨S20000, .i32⟩ : BufTy).Contents (Elt F) → (⟨S20000, .i32⟩ : BufTy).Contents (Elt F) → (⟨S20000, .i1⟩ : BufTy).Contents (Elt F)),
    nullary main_c_11 (constantI S_ 32 100000#32),
    unary main_c_11 main_v61 (broadcastInDim S20000 ![] bcast_S_S20000 : (⟨S_, .i32⟩ : BufTy).Contents (Elt F) → (⟨S20000, .i32⟩ : BufTy).Contents (Elt F)),
    binary main_arg2 main_v61 main_v62 (addi : (⟨S20000, .i32⟩ : BufTy).Contents (Elt F) → (⟨S20000, .i32⟩ : BufTy).Contents (Elt F) → (⟨S20000, .i32⟩ : BufTy).Contents (Elt F)),
    ternary main_v60 main_v62 main_arg2 main_v63 (select : (⟨S20000, .i1⟩ : BufTy).Contents (Elt F) → (⟨S20000, .i32⟩ : BufTy).Contents (Elt F) → (⟨S20000, .i32⟩ : BufTy).Contents (Elt F) → (⟨S20000, .i32⟩ : BufTy).Contents (Elt F)),
    unary main_v63 main_v64 (broadcastInDim S20000x1 ![0] bcast_S20000_S20000x1_0 : (⟨S20000, .i32⟩ : BufTy).Contents (Elt F) → (⟨S20000x1, .i32⟩ : BufTy).Contents (Elt F)),
    binary main_v58 main_v64 main_v65 ((fun x i => Host.gather gather_S100000x128_S20000x1_S20000x128_1_0_n_n_0_1_1128 x i) : (⟨S100000x128, .f32⟩ : BufTy).Contents (Elt F) → (⟨S20000x1, .i32⟩ : BufTy).Contents (Elt F) → (⟨S20000x128, .f32⟩ : BufTy).Contents (Elt F)),
    unary main_arg9 main_v66 ((transpose S128x128 [1, 0] · transposes_S128x128_S128x128_1_0) : (⟨S128x128, .f32⟩ : BufTy).Contents (Elt F) → (⟨S128x128, .f32⟩ : BufTy).Contents (Elt F)),
    binary main_v65 main_v66 main_v67 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg10 main_v68 (broadcastInDim S1x128 ![1] bcast_S128_S1x128_1 : (⟨S128, .f32⟩ : BufTy).Contents (Elt F) → (⟨S1x128, .f32⟩ : BufTy).Contents (Elt F)),
    unary main_v68 main_v69 (broadcastInDim S20000x128 ![0, 1] bcast_S1x128_S20000x128_0_1 : (⟨S1x128, .f32⟩ : BufTy).Contents (Elt F) → (⟨S20000x128, .f32⟩ : BufTy).Contents (Elt F)),
    binary main_v67 main_v69 main_v70 (addf : (⟨S20000x128, .f32⟩ : BufTy).Contents (Elt F) → (⟨S20000x128, .f32⟩ : BufTy).Contents (Elt F) → (⟨S20000x128, .f32⟩ : BufTy).Contents (Elt F)) ]

/-- The column means of the first dense layer and of its squared deviations. -/
def sD1 : List (HloOp τ sig (Elt F)) :=
  [ nullary main_cst_12 (constant S_ .f32 0x00000000#32),
    binary main_v70 main_cst_12 main_v71 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    nullary main_cst_13 (constant S_ .f32 0x469C4000#32),
    unary main_cst_13 main_v72 (broadcastInDim S128 ![] bcast_S_S128 : (⟨S_, .f32⟩ : BufTy).Contents (Elt F) → (⟨S128, .f32⟩ : BufTy).Contents (Elt F)),
    binary main_v71 main_v72 main_v73 (Host.divf : (⟨S128, .f32⟩ : BufTy).Contents (Elt F) → (⟨S128, .f32⟩ : BufTy).Contents (Elt F) → (⟨S128, .f32⟩ : BufTy).Contents (Elt F)),
    unary main_v73 main_v74 (broadcastInDim S1x128 ![1] bcast_S128_S1x128_1 : (⟨S128, .f32⟩ : BufTy).Contents (Elt F) → (⟨S1x128, .f32⟩ : BufTy).Contents (Elt F)),
    unary main_v74 main_v75 (broadcastInDim S20000x128 ![0, 1] bcast_S1x128_S20000x128_0_1 : (⟨S1x128, .f32⟩ : BufTy).Contents (Elt F) → (⟨S20000x128, .f32⟩ : BufTy).Contents (Elt F)),
    binary main_v70 main_v75 main_v76 (subf : (⟨S20000x128, .f32⟩ : BufTy).Contents (Elt F) → (⟨S20000x128, .f32⟩ : BufTy).Contents (Elt F) → (⟨S20000x128, .f32⟩ : BufTy).Contents (Elt F)),
    binary main_v76 main_v76 main_v77 (mulf : (⟨S20000x128, .f32⟩ : BufTy).Contents (Elt F) → (⟨S20000x128, .f32⟩ : BufTy).Contents (Elt F) → (⟨S20000x128, .f32⟩ : BufTy).Contents (Elt F)),
    nullary main_cst_14 (constant S_ .f32 0x00000000#32),
    binary main_v77 main_cst_14 main_v78 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    nullary main_cst_15 (constant S_ .f32 0x469C4000#32),
    unary main_cst_15 main_v79 (broadcastInDim S128 ![] bcast_S_S128 : (⟨S_, .f32⟩ : BufTy).Contents (Elt F) → (⟨S128, .f32⟩ : BufTy).Contents (Elt F)),
    binary main_v78 main_v79 main_v80 (Host.divf : (⟨S128, .f32⟩ : BufTy).Contents (Elt F) → (⟨S128, .f32⟩ : BufTy).Contents (Elt F) → (⟨S128, .f32⟩ : BufTy).Contents (Elt F)) ]

/-- The first normalisation and its leaky rectifier. -/
def sD2 : List (HloOp τ sig (Elt F)) :=
  [ unary main_v73 main_v81 (broadcastInDim S1x128 ![1] bcast_S128_S1x128_1 : (⟨S128, .f32⟩ : BufTy).Contents (Elt F) → (⟨S1x128, .f32⟩ : BufTy).Contents (Elt F)),
    unary main_v81 main_v82 (broadcastInDim S20000x128 ![0, 1] bcast_S1x128_S20000x128_0_1 : (⟨S1x128, .f32⟩ : BufTy).Contents (Elt F) → (⟨S20000x128, .f32⟩ : BufTy).Contents (Elt F)),
    binary main_v70 main_v82 main_v83 (subf : (⟨S20000x128, .f32⟩ : BufTy).Contents (Elt F) → (⟨S20000x128, .f32⟩ : BufTy).Contents (Elt F) → (⟨S20000x128, .f32⟩ : BufTy).Contents (Elt F)),
    nullary main_cst_16 (constant S_ .f32 0x3727C5AC#32),
    unary main_cst_16 main_v84 (broadcastInDim S128 ![] bcast_S_S128 : (⟨S_, .f32⟩ : BufTy).Contents (Elt F) → (⟨S128, .f32⟩ : BufTy).Contents (Elt F)),
    binary main_v80 main_v84 main_v85 (addf : (⟨S128, .f32⟩ : BufTy).Contents (Elt F) → (⟨S128, .f32⟩ : BufTy).Contents (Elt F) → (⟨S128, .f32⟩ : BufTy).Contents (Elt F)),
    unary main_v85 main_v86 (Host.rsqrt : (⟨S128, .f32⟩ : BufTy).Contents (Elt F) → (⟨S128, .f32⟩ : BufTy).Contents (Elt F)),
    unary main_v86 main_v87 (broadcastInDim S1x128 ![1] bcast_S128_S1x128_1 : (⟨S128, .f32⟩ : BufTy).Contents (Elt F) → (⟨S1x128, .f32⟩ : BufTy).Contents (Elt F)),
    unary main_v87 main_v88 (broadcastInDim S20000x128 ![0, 1] bcast_S1x128_S20000x128_0_1 : (⟨S1x128, .f32⟩ : BufTy).Contents (Elt F) → (⟨S20000x128, .f32⟩ : BufTy).Contents (Elt F)),
    binary main_v83 main_v88 main_v89 (mulf : (⟨S20000x128, .f32⟩ : BufTy).Contents (Elt F) → (⟨S20000x128, .f32⟩ : BufTy).Contents (Elt F) → (⟨S20000x128, .f32⟩ : BufTy).Contents (Elt F)),
    unary main_arg15 main_v90 (broadcastInDim S1x128 ![1] bcast_S128_S1x128_1 : (⟨S128, .f32⟩ : BufTy).Contents (Elt F) → (⟨S1x128, .f32⟩ : BufTy).Contents (Elt F)),
    unary main_v90 main_v91 (broadcastInDim S20000x128 ![0, 1] bcast_S1x128_S20000x128_0_1 : (⟨S1x128, .f32⟩ : BufTy).Contents (Elt F) → (⟨S20000x128, .f32⟩ : BufTy).Contents (Elt F)),
    binary main_v89 main_v91 main_v92 (mulf : (⟨S20000x128, .f32⟩ : BufTy).Contents (Elt F) → (⟨S20000x128, .f32⟩ : BufTy).Contents (Elt F) → (⟨S20000x128, .f32⟩ : BufTy).Contents (Elt F)),
    unary main_arg16 main_v93 (broadcastInDim S1x128 ![1] bcast_S128_S1x128_1 : (⟨S128, .f32⟩ : BufTy).Contents (Elt F) → (⟨S1x128, .f32⟩ : BufTy).Contents (Elt F)),
    unary main_v93 main_v94 (broadcastInDim S20000x128 ![0, 1] bcast_S1x128_S20000x128_0_1 : (⟨S1x128, .f32⟩ : BufTy).Contents (Elt F) → (⟨S20000x128, .f32⟩ : BufTy).Contents (Elt F)),
    binary main_v92 main_v94 main_v95 (addf : (⟨S20000x128, .f32⟩ : BufTy).Contents (Elt F) → (⟨S20000x128, .f32⟩ : BufTy).Contents (Elt F) → (⟨S20000x128, .f32⟩ : BufTy).Contents (Elt F)),
    nullary main_cst_17 (constant S_ .f32 0x3DCCCCCD#32),
    TRef.nullary main_call1.cst (constant S_ .f32 0x00000000#32),
    TRef.unary main_call1.cst main_call1.v0 (broadcastInDim S20000x128 ![] bcast_S_S20000x128),
    TRef.binary (.of main_v95 : TRef sig ⟨S20000x128, .f32⟩) main_call1.v0 main_call1.v1 (cmpf .oge),
    TRef.unary (.of main_cst_17 : TRef sig ⟨S_, .f32⟩) main_call1.v2 id,
    TRef.unary main_call1.v2 main_call1.v3 (broadcastInDim S20000x128 ![] bcast_S_S20000x128),
    TRef.binary main_call1.v3 (.of main_v95 : TRef sig ⟨S20000x128, .f32⟩) main_call1.v4 mulf,
    TRef.ternary main_call1.v1 (.of main_v95 : TRef sig ⟨S20000x128, .f32⟩) main_call1.v4 main_call1.call0.v0 select ]

/-- The second dense layer's product and its bias as a row. -/
def sE0 : List (HloOp τ sig (Elt F)) :=
  [ unary main_arg11 main_v97 ((transpose S128x64 [1, 0] · transposes_S64x128_S128x64_1_0) : (⟨S64x128, .f32⟩ : BufTy).Contents (Elt F) → (⟨S128x64, .f32⟩ : BufTy).Contents (Elt F)),
    binary main_v96 main_v97 main_v98 ((fun l r => Host.dotGeneral dot_S20000x128_S128x64_S20000x64_1_0_0_1_n_n none l r) : (⟨S20000x128, .f32⟩ : BufTy).Contents (Elt F) → (⟨S128x64, .f32⟩ : BufTy).Contents (Elt F) → (⟨S20000x64, .f32⟩ : BufTy).Contents (Elt F)),
    unary main_arg12 main_v99 (broadcastInDim S1x64 ![1] bcast_S64_S1x64_1 : (⟨S64, .f32⟩ : BufTy).Contents (Elt F) → (⟨S1x64, .f32⟩ : BufTy).Contents (Elt F)) ]

/-- The second dense layer's bias added. -/
def sE1 : List (HloOp τ sig (Elt F)) :=
  [ unary main_v99 main_v100 (broadcastInDim S20000x64 ![0, 1] bcast_S1x64_S20000x64_0_1 : (⟨S1x64, .f32⟩ : BufTy).Contents (Elt F) → (⟨S20000x64, .f32⟩ : BufTy).Contents (Elt F)),
    binary main_v98 main_v100 main_v101 (addf : (⟨S20000x64, .f32⟩ : BufTy).Contents (Elt F) → (⟨S20000x64, .f32⟩ : BufTy).Contents (Elt F) → (⟨S20000x64, .f32⟩ : BufTy).Contents (Elt F)) ]

/-- The column means of the second dense layer and of its squared deviations. -/
def sF1 : List (HloOp τ sig (Elt F)) :=
  [ nullary main_cst_18 (constant S_ .f32 0x00000000#32),
    binary main_v101 main_cst_18 main_v102 ((fun x v => Host.reduceAdd x v reducesTo_S20000x64_S64_d0 h_S_) : (⟨S20000x64, .f32⟩ : BufTy).Contents (Elt F) → (⟨S_, .f32⟩ : BufTy).Contents (Elt F) → (⟨S64, .f32⟩ : BufTy).Contents (Elt F)),
    nullary main_cst_19 (constant S_ .f32 0x469C4000#32),
    unary main_cst_19 main_v103 (broadcastInDim S64 ![] bcast_S_S64 : (⟨S_, .f32⟩ : BufTy).Contents (Elt F) → (⟨S64, .f32⟩ : BufTy).Contents (Elt F)),
    binary main_v102 main_v103 main_v104 (Host.divf : (⟨S64, .f32⟩ : BufTy).Contents (Elt F) → (⟨S64, .f32⟩ : BufTy).Contents (Elt F) → (⟨S64, .f32⟩ : BufTy).Contents (Elt F)),
    unary main_v104 main_v105 (broadcastInDim S1x64 ![1] bcast_S64_S1x64_1 : (⟨S64, .f32⟩ : BufTy).Contents (Elt F) → (⟨S1x64, .f32⟩ : BufTy).Contents (Elt F)),
    unary main_v105 main_v106 (broadcastInDim S20000x64 ![0, 1] bcast_S1x64_S20000x64_0_1 : (⟨S1x64, .f32⟩ : BufTy).Contents (Elt F) → (⟨S20000x64, .f32⟩ : BufTy).Contents (Elt F)),
    binary main_v101 main_v106 main_v107 (subf : (⟨S20000x64, .f32⟩ : BufTy).Contents (Elt F) → (⟨S20000x64, .f32⟩ : BufTy).Contents (Elt F) → (⟨S20000x64, .f32⟩ : BufTy).Contents (Elt F)),
    binary main_v107 main_v107 main_v108 (mulf : (⟨S20000x64, .f32⟩ : BufTy).Contents (Elt F) → (⟨S20000x64, .f32⟩ : BufTy).Contents (Elt F) → (⟨S20000x64, .f32⟩ : BufTy).Contents (Elt F)),
    nullary main_cst_20 (constant S_ .f32 0x00000000#32),
    binary main_v108 main_cst_20 main_v109 ((fun x v => Host.reduceAdd x v reducesTo_S20000x64_S64_d0 h_S_) : (⟨S20000x64, .f32⟩ : BufTy).Contents (Elt F) → (⟨S_, .f32⟩ : BufTy).Contents (Elt F) → (⟨S64, .f32⟩ : BufTy).Contents (Elt F)),
    nullary main_cst_21 (constant S_ .f32 0x469C4000#32),
    unary main_cst_21 main_v110 (broadcastInDim S64 ![] bcast_S_S64 : (⟨S_, .f32⟩ : BufTy).Contents (Elt F) → (⟨S64, .f32⟩ : BufTy).Contents (Elt F)),
    binary main_v109 main_v110 main_v111 (Host.divf : (⟨S64, .f32⟩ : BufTy).Contents (Elt F) → (⟨S64, .f32⟩ : BufTy).Contents (Elt F) → (⟨S64, .f32⟩ : BufTy).Contents (Elt F)) ]

/-- The second normalisation and its leaky rectifier. -/
def sF2 : List (HloOp τ sig (Elt F)) :=
  [ unary main_v104 main_v112 (broadcastInDim S1x64 ![1] bcast_S64_S1x64_1 : (⟨S64, .f32⟩ : BufTy).Contents (Elt F) → (⟨S1x64, .f32⟩ : BufTy).Contents (Elt F)),
    unary main_v112 main_v113 (broadcastInDim S20000x64 ![0, 1] bcast_S1x64_S20000x64_0_1 : (⟨S1x64, .f32⟩ : BufTy).Contents (Elt F) → (⟨S20000x64, .f32⟩ : BufTy).Contents (Elt F)),
    binary main_v101 main_v113 main_v114 (subf : (⟨S20000x64, .f32⟩ : BufTy).Contents (Elt F) → (⟨S20000x64, .f32⟩ : BufTy).Contents (Elt F) → (⟨S20000x64, .f32⟩ : BufTy).Contents (Elt F)),
    nullary main_cst_22 (constant S_ .f32 0x3727C5AC#32),
    unary main_cst_22 main_v115 (broadcastInDim S64 ![] bcast_S_S64 : (⟨S_, .f32⟩ : BufTy).Contents (Elt F) → (⟨S64, .f32⟩ : BufTy).Contents (Elt F)),
    binary main_v111 main_v115 main_v116 (addf : (⟨S64, .f32⟩ : BufTy).Contents (Elt F) → (⟨S64, .f32⟩ : BufTy).Contents (Elt F) → (⟨S64, .f32⟩ : BufTy).Contents (Elt F)),
    unary main_v116 main_v117 (Host.rsqrt : (⟨S64, .f32⟩ : BufTy).Contents (Elt F) → (⟨S64, .f32⟩ : BufTy).Contents (Elt F)),
    unary main_v117 main_v118 (broadcastInDim S1x64 ![1] bcast_S64_S1x64_1 : (⟨S64, .f32⟩ : BufTy).Contents (Elt F) → (⟨S1x64, .f32⟩ : BufTy).Contents (Elt F)),
    unary main_v118 main_v119 (broadcastInDim S20000x64 ![0, 1] bcast_S1x64_S20000x64_0_1 : (⟨S1x64, .f32⟩ : BufTy).Contents (Elt F) → (⟨S20000x64, .f32⟩ : BufTy).Contents (Elt F)),
    binary main_v114 main_v119 main_v120 (mulf : (⟨S20000x64, .f32⟩ : BufTy).Contents (Elt F) → (⟨S20000x64, .f32⟩ : BufTy).Contents (Elt F) → (⟨S20000x64, .f32⟩ : BufTy).Contents (Elt F)),
    unary main_arg17 main_v121 (broadcastInDim S1x64 ![1] bcast_S64_S1x64_1 : (⟨S64, .f32⟩ : BufTy).Contents (Elt F) → (⟨S1x64, .f32⟩ : BufTy).Contents (Elt F)),
    unary main_v121 main_v122 (broadcastInDim S20000x64 ![0, 1] bcast_S1x64_S20000x64_0_1 : (⟨S1x64, .f32⟩ : BufTy).Contents (Elt F) → (⟨S20000x64, .f32⟩ : BufTy).Contents (Elt F)),
    binary main_v120 main_v122 main_v123 (mulf : (⟨S20000x64, .f32⟩ : BufTy).Contents (Elt F) → (⟨S20000x64, .f32⟩ : BufTy).Contents (Elt F) → (⟨S20000x64, .f32⟩ : BufTy).Contents (Elt F)),
    unary main_arg18 main_v124 (broadcastInDim S1x64 ![1] bcast_S64_S1x64_1 : (⟨S64, .f32⟩ : BufTy).Contents (Elt F) → (⟨S1x64, .f32⟩ : BufTy).Contents (Elt F)),
    unary main_v124 main_v125 (broadcastInDim S20000x64 ![0, 1] bcast_S1x64_S20000x64_0_1 : (⟨S1x64, .f32⟩ : BufTy).Contents (Elt F) → (⟨S20000x64, .f32⟩ : BufTy).Contents (Elt F)),
    binary main_v123 main_v125 main_v126 (addf : (⟨S20000x64, .f32⟩ : BufTy).Contents (Elt F) → (⟨S20000x64, .f32⟩ : BufTy).Contents (Elt F) → (⟨S20000x64, .f32⟩ : BufTy).Contents (Elt F)),
    nullary main_cst_23 (constant S_ .f32 0x3D4CCCCD#32),
    TRef.nullary main_call2.cst (constant S_ .f32 0x00000000#32),
    TRef.unary main_call2.cst main_call2.v0 (broadcastInDim S20000x64 ![] bcast_S_S20000x64),
    TRef.binary (.of main_v126 : TRef sig ⟨S20000x64, .f32⟩) main_call2.v0 main_call2.v1 (cmpf .oge),
    TRef.unary (.of main_cst_23 : TRef sig ⟨S_, .f32⟩) main_call2.v2 id,
    TRef.unary main_call2.v2 main_call2.v3 (broadcastInDim S20000x64 ![] bcast_S_S20000x64),
    TRef.binary main_call2.v3 (.of main_v126 : TRef sig ⟨S20000x64, .f32⟩) main_call2.v4 mulf,
    TRef.ternary main_call2.v1 (.of main_v126 : TRef sig ⟨S20000x64, .f32⟩) main_call2.v4 main_call2.call0.v0 select ]

/-- The last dense layer. -/
def sG : List (HloOp τ sig (Elt F)) :=
  [ unary main_arg13 main_v128 ((transpose S64x1 [1, 0] · transposes_S1x64_S64x1_1_0) : (⟨S1x64, .f32⟩ : BufTy).Contents (Elt F) → (⟨S64x1, .f32⟩ : BufTy).Contents (Elt F)),
    binary main_v127 main_v128 main_v129 ((fun l r => Host.dotGeneral dot_S20000x64_S64x1_S20000x1_1_0_0_1_n_n none l r) : (⟨S20000x64, .f32⟩ : BufTy).Contents (Elt F) → (⟨S64x1, .f32⟩ : BufTy).Contents (Elt F) → (⟨S20000x1, .f32⟩ : BufTy).Contents (Elt F)),
    unary main_arg14 main_v130 (broadcastInDim S1x1 ![1] bcast_S1_S1x1_1 : (⟨S1, .f32⟩ : BufTy).Contents (Elt F) → (⟨S1x1, .f32⟩ : BufTy).Contents (Elt F)),
    unary main_v130 main_v131 (broadcastInDim S20000x1 ![0, 1] bcast_S1x1_S20000x1_0_1 : (⟨S1x1, .f32⟩ : BufTy).Contents (Elt F) → (⟨S20000x1, .f32⟩ : BufTy).Contents (Elt F)),
    binary main_v129 main_v131 main_v132 (addf : (⟨S20000x1, .f32⟩ : BufTy).Contents (Elt F) → (⟨S20000x1, .f32⟩ : BufTy).Contents (Elt F) → (⟨S20000x1, .f32⟩ : BufTy).Contents (Elt F)) ]

/-- The first part of the program. -/
def ops0 : List (HloOp τ sig (Elt F)) := sA ++ (sR ++ (sB0))
/-- The second part. -/
def ops1 : List (HloOp τ sig (Elt F)) := sB1 ++ (sC ++ (sD1 ++ (sD2 ++ (sE0))))
/-- The third part. -/
def ops2 : List (HloOp τ sig (Elt F)) := sE1 ++ (sF1 ++ (sF2 ++ (sG)))
/-- The whole line. -/
abbrev ops : List (HloOp τ sig (Elt F)) := ops0 ++ (ops1 ++ ops2)

/-! ## The program is the line -/

set_option maxRecDepth 8192 in
theorem main_part0_eq (c : Dev nD) : main_part0 (F := F) c = seq ops0 := rfl
set_option maxRecDepth 8192 in
theorem main_part1_eq (c : Dev nD) : main_part1 (F := F) c = seq ops1 := rfl
set_option maxRecDepth 8192 in
theorem main_part2_eq (c : Dev nD) : main_part2 (F := F) c = seq ops2 := rfl

/-- The three parts in order are the whole line. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches device buffers only, and determines its result -/

theorem sA_sub : (sA : List (HloOp τ sig (Elt F))).Forall fun op => op.bufs ⊆ tcRefs τ sig := by
  unfold sA
  exact ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩
theorem sA_fresh : ∀ op ∈ (sA : List (HloOp τ sig (Elt F))), op.fresh = ∅ := by
  intro _ h
  unfold sA at h
  repeat (cases h with | head => rfl | tail _ h => ?_)
  exact nomatch h
theorem sR_sub : (sR : List (HloOp τ sig (Elt F))).Forall fun op => op.bufs ⊆ tcRefs τ sig := by
  unfold sR
  exact ⟨nullary_bufs_sub .., unary_bufs_sub .., binary_bufs_sub ..⟩
theorem sR_fresh : ∀ op ∈ (sR : List (HloOp τ sig (Elt F))), op.fresh = ∅ := by
  intro _ h
  unfold sR at h
  repeat (cases h with | head => rfl | tail _ h => ?_)
  exact nomatch h
theorem sB0_sub : (sB0 : List (HloOp τ sig (Elt F))).Forall fun op => op.bufs ⊆ tcRefs τ sig := by
  unfold sB0
  exact ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub ..⟩
theorem sB0_fresh : ∀ op ∈ (sB0 : List (HloOp τ sig (Elt F))), op.fresh = ∅ := by
  intro _ h
  unfold sB0 at h
  repeat (cases h with | head => rfl | tail _ h => ?_)
  exact nomatch h
theorem sB1_sub : (sB1 : List (HloOp τ sig (Elt F))).Forall fun op => op.bufs ⊆ tcRefs τ sig := by
  unfold sB1
  exact ⟨unary_bufs_sub .., unary_bufs_sub .., binary_bufs_sub .., unary_bufs_sub .., binary_bufs_sub .., unary_bufs_sub .., unary_bufs_sub .., binary_bufs_sub .., unary_bufs_sub .., binary_bufs_sub .., binary_bufs_sub ..⟩
theorem sB1_fresh : ∀ op ∈ (sB1 : List (HloOp τ sig (Elt F))), op.fresh = ∅ := by
  intro _ h
  unfold sB1 at h
  repeat (cases h with | head => rfl | tail _ h => ?_)
  exact nomatch h
theorem sC_sub : (sC : List (HloOp τ sig (Elt F))).Forall fun op => op.bufs ⊆ tcRefs τ sig := by
  unfold sC
  exact ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., unary_bufs_sub .., binary_bufs_sub ..⟩
theorem sC_fresh : ∀ op ∈ (sC : List (HloOp τ sig (Elt F))), op.fresh = ∅ := by
  intro _ h
  unfold sC at h
  repeat (cases h with | head => rfl | tail _ h => ?_)
  exact nomatch h
theorem sD1_sub : (sD1 : List (HloOp τ sig (Elt F))).Forall fun op => op.bufs ⊆ tcRefs τ sig := by
  unfold sD1
  exact ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub ..⟩
theorem sD1_fresh : ∀ op ∈ (sD1 : List (HloOp τ sig (Elt F))), op.fresh = ∅ := by
  intro _ h
  unfold sD1 at h
  repeat (cases h with | head => rfl | tail _ h => ?_)
  exact nomatch h
theorem sD2_sub : (sD2 : List (HloOp τ sig (Elt F))).Forall fun op => op.bufs ⊆ tcRefs τ sig := by
  unfold sD2
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
theorem sD2_fresh : ∀ op ∈ (sD2 : List (HloOp τ sig (Elt F))), op.fresh = ∅ := by
  intro _ h
  unfold sD2 at h
  repeat (cases h with | head => rfl | tail _ h => ?_)
  exact nomatch h
theorem sE0_sub : (sE0 : List (HloOp τ sig (Elt F))).Forall fun op => op.bufs ⊆ tcRefs τ sig := by
  unfold sE0
  exact ⟨unary_bufs_sub .., binary_bufs_sub .., unary_bufs_sub ..⟩
theorem sE0_fresh : ∀ op ∈ (sE0 : List (HloOp τ sig (Elt F))), op.fresh = ∅ := by
  intro _ h
  unfold sE0 at h
  repeat (cases h with | head => rfl | tail _ h => ?_)
  exact nomatch h
theorem sE1_sub : (sE1 : List (HloOp τ sig (Elt F))).Forall fun op => op.bufs ⊆ tcRefs τ sig := by
  unfold sE1
  exact ⟨unary_bufs_sub .., binary_bufs_sub ..⟩
theorem sE1_fresh : ∀ op ∈ (sE1 : List (HloOp τ sig (Elt F))), op.fresh = ∅ := by
  intro _ h
  unfold sE1 at h
  repeat (cases h with | head => rfl | tail _ h => ?_)
  exact nomatch h
theorem sF1_sub : (sF1 : List (HloOp τ sig (Elt F))).Forall fun op => op.bufs ⊆ tcRefs τ sig := by
  unfold sF1
  exact ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub ..⟩
theorem sF1_fresh : ∀ op ∈ (sF1 : List (HloOp τ sig (Elt F))), op.fresh = ∅ := by
  intro _ h
  unfold sF1 at h
  repeat (cases h with | head => rfl | tail _ h => ?_)
  exact nomatch h
theorem sF2_sub : (sF2 : List (HloOp τ sig (Elt F))).Forall fun op => op.bufs ⊆ tcRefs τ sig := by
  unfold sF2
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
theorem sF2_fresh : ∀ op ∈ (sF2 : List (HloOp τ sig (Elt F))), op.fresh = ∅ := by
  intro _ h
  unfold sF2 at h
  repeat (cases h with | head => rfl | tail _ h => ?_)
  exact nomatch h
theorem sG_sub : (sG : List (HloOp τ sig (Elt F))).Forall fun op => op.bufs ⊆ tcRefs τ sig := by
  unfold sG
  exact ⟨unary_bufs_sub .., binary_bufs_sub .., unary_bufs_sub .., unary_bufs_sub .., binary_bufs_sub ..⟩
theorem sG_fresh : ∀ op ∈ (sG : List (HloOp τ sig (Elt F))), op.fresh = ∅ := by
  intro _ h
  unfold sG at h
  repeat (cases h with | head => rfl | tail _ h => ?_)
  exact nomatch h

/-- An operation of the whole line is an operation of one of the stretches. -/
theorem mem_ops {op : HloOp τ sig (Elt F)} (h : op ∈ (ops : List (HloOp τ sig (Elt F)))) :
    op ∈ (sA : List (HloOp τ sig (Elt F))) ∨ op ∈ (sR : List (HloOp τ sig (Elt F))) ∨ op ∈ (sB0 : List (HloOp τ sig (Elt F))) ∨ op ∈ (sB1 : List (HloOp τ sig (Elt F))) ∨ op ∈ (sC : List (HloOp τ sig (Elt F))) ∨ op ∈ (sD1 : List (HloOp τ sig (Elt F))) ∨ op ∈ (sD2 : List (HloOp τ sig (Elt F))) ∨ op ∈ (sE0 : List (HloOp τ sig (Elt F))) ∨ op ∈ (sE1 : List (HloOp τ sig (Elt F))) ∨ op ∈ (sF1 : List (HloOp τ sig (Elt F))) ∨ op ∈ (sF2 : List (HloOp τ sig (Elt F))) ∨ op ∈ (sG : List (HloOp τ sig (Elt F))) := by
  simpa only [ops, ops0, ops1, ops2, List.mem_append, or_assoc] using h

theorem ops_sub : (ops : List (HloOp τ sig (Elt F))).Forall fun op => op.bufs ⊆ tcRefs τ sig :=
  List.forall_iff_forall_mem.mpr fun op h => by
    rcases mem_ops h with h | h | h | h | h | h | h | h | h | h | h | h
    exacts [List.forall_iff_forall_mem.mp sA_sub op h, List.forall_iff_forall_mem.mp sR_sub op h, List.forall_iff_forall_mem.mp sB0_sub op h, List.forall_iff_forall_mem.mp sB1_sub op h, List.forall_iff_forall_mem.mp sC_sub op h, List.forall_iff_forall_mem.mp sD1_sub op h, List.forall_iff_forall_mem.mp sD2_sub op h, List.forall_iff_forall_mem.mp sE0_sub op h, List.forall_iff_forall_mem.mp sE1_sub op h, List.forall_iff_forall_mem.mp sF1_sub op h, List.forall_iff_forall_mem.mp sF2_sub op h, List.forall_iff_forall_mem.mp sG_sub op h]

theorem ops_fresh : ∀ op ∈ (ops : List (HloOp τ sig (Elt F))), op.fresh = ∅ := fun op h => by
  rcases mem_ops h with h | h | h | h | h | h | h | h | h | h | h | h
  exacts [sA_fresh op h, sR_fresh op h, sB0_fresh op h, sB1_fresh op h, sC_fresh op h, sD1_fresh op h, sD2_fresh op h, sE0_fresh op h, sE1_fresh op h, sF1_fresh op h, sF2_fresh op h, sG_fresh op h]

/-! ## What each stretch writes, and that it leaves every other buffer alone -/

/-- The program's nineteen arguments. -/
abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18]

/-- The buffers that the stretch `sA` writes. -/
abbrev sA_W : List (Ref sig .tc) := [main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_v23, main_v24, main_v25, main_v26, main_v27, main_v28, main_v29, main_v30]
theorem sA_writes : (sA : List (HloOp τ sig (Elt F))).Forall fun op =>
    op.writes ⊆ (sA_W.map (Proc.devRef (τ := τ) .tc)).toFinset := by
  simp only [sA, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem sA_keep (V : Valuation τ sig (Elt F)) (r : Ref sig .tc) (h : r ∉ sA_W) :
    after sA V (Proc.devRef .tc r) = V (Proc.devRef .tc r) :=
  after_of_writes_sub sA V sA_writes h
/-- In particular each argument does. -/
theorem sA_args (V : Valuation τ sig (Elt F)) (r : Ref sig .tc) (h : r ∈ argRefs) :
    after sA V (Proc.devRef .tc r) = V (Proc.devRef .tc r) :=
  sA_keep V r ((by decide : ∀ r ∈ argRefs, r ∉ sA_W) r h)

/-- The buffers that the stretch `sR` writes. -/
abbrev sR_W : List (Ref sig .tc) := [main_call0_cst, main_call0_v0, main_v31]
theorem sR_writes : (sR : List (HloOp τ sig (Elt F))).Forall fun op =>
    op.writes ⊆ (sR_W.map (Proc.devRef (τ := τ) .tc)).toFinset := by
  simp only [sR, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem sR_keep (V : Valuation τ sig (Elt F)) (r : Ref sig .tc) (h : r ∉ sR_W) :
    after sR V (Proc.devRef .tc r) = V (Proc.devRef .tc r) :=
  after_of_writes_sub sR V sR_writes h
/-- In particular each argument does. -/
theorem sR_args (V : Valuation τ sig (Elt F)) (r : Ref sig .tc) (h : r ∈ argRefs) :
    after sR V (Proc.devRef .tc r) = V (Proc.devRef .tc r) :=
  sR_keep V r ((by decide : ∀ r ∈ argRefs, r ∉ sR_W) r h)

/-- The buffers that the stretch `sB0` writes. -/
abbrev sB0_W : List (Ref sig .tc) := [main_c_4, main_v32, main_v33, main_c_5, main_v34, main_v35, main_v36, main_v37, main_v38, main_cst_6, main_v39, main_v40, main_v41, main_cst_7, main_v42, main_cst_8, main_v43, main_v44, main_v45, main_cst_9, main_v46, main_v47]
theorem sB0_writes : (sB0 : List (HloOp τ sig (Elt F))).Forall fun op =>
    op.writes ⊆ (sB0_W.map (Proc.devRef (τ := τ) .tc)).toFinset := by
  simp only [sB0, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem sB0_keep (V : Valuation τ sig (Elt F)) (r : Ref sig .tc) (h : r ∉ sB0_W) :
    after sB0 V (Proc.devRef .tc r) = V (Proc.devRef .tc r) :=
  after_of_writes_sub sB0 V sB0_writes h
/-- In particular each argument does. -/
theorem sB0_args (V : Valuation τ sig (Elt F)) (r : Ref sig .tc) (h : r ∈ argRefs) :
    after sB0 V (Proc.devRef .tc r) = V (Proc.devRef .tc r) :=
  sB0_keep V r ((by decide : ∀ r ∈ argRefs, r ∉ sB0_W) r h)

/-- The buffers that the stretch `sB1` writes. -/
abbrev sB1_W : List (Ref sig .tc) := [main_v48, main_v49, main_v50, main_v51, main_v52, main_v53, main_v54, main_v55, main_v56, main_v57, main_v58]
theorem sB1_writes : (sB1 : List (HloOp τ sig (Elt F))).Forall fun op =>
    op.writes ⊆ (sB1_W.map (Proc.devRef (τ := τ) .tc)).toFinset := by
  simp only [sB1, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem sB1_keep (V : Valuation τ sig (Elt F)) (r : Ref sig .tc) (h : r ∉ sB1_W) :
    after sB1 V (Proc.devRef .tc r) = V (Proc.devRef .tc r) :=
  after_of_writes_sub sB1 V sB1_writes h
/-- In particular each argument does. -/
theorem sB1_args (V : Valuation τ sig (Elt F)) (r : Ref sig .tc) (h : r ∈ argRefs) :
    after sB1 V (Proc.devRef .tc r) = V (Proc.devRef .tc r) :=
  sB1_keep V r ((by decide : ∀ r ∈ argRefs, r ∉ sB1_W) r h)

/-- The buffers that the stretch `sC` writes. -/
abbrev sC_W : List (Ref sig .tc) := [main_c_10, main_v59, main_v60, main_c_11, main_v61, main_v62, main_v63, main_v64, main_v65, main_v66, main_v67, main_v68, main_v69, main_v70]
theorem sC_writes : (sC : List (HloOp τ sig (Elt F))).Forall fun op =>
    op.writes ⊆ (sC_W.map (Proc.devRef (τ := τ) .tc)).toFinset := by
  simp only [sC, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem sC_keep (V : Valuation τ sig (Elt F)) (r : Ref sig .tc) (h : r ∉ sC_W) :
    after sC V (Proc.devRef .tc r) = V (Proc.devRef .tc r) :=
  after_of_writes_sub sC V sC_writes h
/-- In particular each argument does. -/
theorem sC_args (V : Valuation τ sig (Elt F)) (r : Ref sig .tc) (h : r ∈ argRefs) :
    after sC V (Proc.devRef .tc r) = V (Proc.devRef .tc r) :=
  sC_keep V r ((by decide : ∀ r ∈ argRefs, r ∉ sC_W) r h)

/-- The buffers that the stretch `sD1` writes. -/
abbrev sD1_W : List (Ref sig .tc) := [main_cst_12, main_v71, main_cst_13, main_v72, main_v73, main_v74, main_v75, main_v76, main_v77, main_cst_14, main_v78, main_cst_15, main_v79, main_v80]
theorem sD1_writes : (sD1 : List (HloOp τ sig (Elt F))).Forall fun op =>
    op.writes ⊆ (sD1_W.map (Proc.devRef (τ := τ) .tc)).toFinset := by
  simp only [sD1, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem sD1_keep (V : Valuation τ sig (Elt F)) (r : Ref sig .tc) (h : r ∉ sD1_W) :
    after sD1 V (Proc.devRef .tc r) = V (Proc.devRef .tc r) :=
  after_of_writes_sub sD1 V sD1_writes h
/-- In particular each argument does. -/
theorem sD1_args (V : Valuation τ sig (Elt F)) (r : Ref sig .tc) (h : r ∈ argRefs) :
    after sD1 V (Proc.devRef .tc r) = V (Proc.devRef .tc r) :=
  sD1_keep V r ((by decide : ∀ r ∈ argRefs, r ∉ sD1_W) r h)

/-- The buffers that the stretch `sD2` writes. -/
abbrev sD2_W : List (Ref sig .tc) := [main_v81, main_v82, main_v83, main_cst_16, main_v84, main_v85, main_v86, main_v87, main_v88, main_v89, main_v90, main_v91, main_v92, main_v93, main_v94, main_v95, main_cst_17, main_call1_cst, main_call1_v0, main_call1_v1, main_call1_v2, main_call1_v3, main_call1_v4, main_v96]
theorem sD2_writes : (sD2 : List (HloOp τ sig (Elt F))).Forall fun op =>
    op.writes ⊆ (sD2_W.map (Proc.devRef (τ := τ) .tc)).toFinset := by
  simp only [sD2, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem sD2_keep (V : Valuation τ sig (Elt F)) (r : Ref sig .tc) (h : r ∉ sD2_W) :
    after sD2 V (Proc.devRef .tc r) = V (Proc.devRef .tc r) :=
  after_of_writes_sub sD2 V sD2_writes h
/-- In particular each argument does. -/
theorem sD2_args (V : Valuation τ sig (Elt F)) (r : Ref sig .tc) (h : r ∈ argRefs) :
    after sD2 V (Proc.devRef .tc r) = V (Proc.devRef .tc r) :=
  sD2_keep V r ((by decide : ∀ r ∈ argRefs, r ∉ sD2_W) r h)

/-- The buffers that the stretch `sE0` writes. -/
abbrev sE0_W : List (Ref sig .tc) := [main_v97, main_v98, main_v99]
theorem sE0_writes : (sE0 : List (HloOp τ sig (Elt F))).Forall fun op =>
    op.writes ⊆ (sE0_W.map (Proc.devRef (τ := τ) .tc)).toFinset := by
  simp only [sE0, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem sE0_keep (V : Valuation τ sig (Elt F)) (r : Ref sig .tc) (h : r ∉ sE0_W) :
    after sE0 V (Proc.devRef .tc r) = V (Proc.devRef .tc r) :=
  after_of_writes_sub sE0 V sE0_writes h
/-- In particular each argument does. -/
theorem sE0_args (V : Valuation τ sig (Elt F)) (r : Ref sig .tc) (h : r ∈ argRefs) :
    after sE0 V (Proc.devRef .tc r) = V (Proc.devRef .tc r) :=
  sE0_keep V r ((by decide : ∀ r ∈ argRefs, r ∉ sE0_W) r h)

/-- The buffers that the stretch `sE1` writes. -/
abbrev sE1_W : List (Ref sig .tc) := [main_v100, main_v101]
theorem sE1_writes : (sE1 : List (HloOp τ sig (Elt F))).Forall fun op =>
    op.writes ⊆ (sE1_W.map (Proc.devRef (τ := τ) .tc)).toFinset := by
  simp only [sE1, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem sE1_keep (V : Valuation τ sig (Elt F)) (r : Ref sig .tc) (h : r ∉ sE1_W) :
    after sE1 V (Proc.devRef .tc r) = V (Proc.devRef .tc r) :=
  after_of_writes_sub sE1 V sE1_writes h
/-- In particular each argument does. -/
theorem sE1_args (V : Valuation τ sig (Elt F)) (r : Ref sig .tc) (h : r ∈ argRefs) :
    after sE1 V (Proc.devRef .tc r) = V (Proc.devRef .tc r) :=
  sE1_keep V r ((by decide : ∀ r ∈ argRefs, r ∉ sE1_W) r h)

/-- The buffers that the stretch `sF1` writes. -/
abbrev sF1_W : List (Ref sig .tc) := [main_cst_18, main_v102, main_cst_19, main_v103, main_v104, main_v105, main_v106, main_v107, main_v108, main_cst_20, main_v109, main_cst_21, main_v110, main_v111]
theorem sF1_writes : (sF1 : List (HloOp τ sig (Elt F))).Forall fun op =>
    op.writes ⊆ (sF1_W.map (Proc.devRef (τ := τ) .tc)).toFinset := by
  simp only [sF1, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem sF1_keep (V : Valuation τ sig (Elt F)) (r : Ref sig .tc) (h : r ∉ sF1_W) :
    after sF1 V (Proc.devRef .tc r) = V (Proc.devRef .tc r) :=
  after_of_writes_sub sF1 V sF1_writes h
/-- In particular each argument does. -/
theorem sF1_args (V : Valuation τ sig (Elt F)) (r : Ref sig .tc) (h : r ∈ argRefs) :
    after sF1 V (Proc.devRef .tc r) = V (Proc.devRef .tc r) :=
  sF1_keep V r ((by decide : ∀ r ∈ argRefs, r ∉ sF1_W) r h)

/-- The buffers that the stretch `sF2` writes. -/
abbrev sF2_W : List (Ref sig .tc) := [main_v112, main_v113, main_v114, main_cst_22, main_v115, main_v116, main_v117, main_v118, main_v119, main_v120, main_v121, main_v122, main_v123, main_v124, main_v125, main_v126, main_cst_23, main_call2_cst, main_call2_v0, main_call2_v1, main_call2_v2, main_call2_v3, main_call2_v4, main_v127]
theorem sF2_writes : (sF2 : List (HloOp τ sig (Elt F))).Forall fun op =>
    op.writes ⊆ (sF2_W.map (Proc.devRef (τ := τ) .tc)).toFinset := by
  simp only [sF2, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem sF2_keep (V : Valuation τ sig (Elt F)) (r : Ref sig .tc) (h : r ∉ sF2_W) :
    after sF2 V (Proc.devRef .tc r) = V (Proc.devRef .tc r) :=
  after_of_writes_sub sF2 V sF2_writes h
/-- In particular each argument does. -/
theorem sF2_args (V : Valuation τ sig (Elt F)) (r : Ref sig .tc) (h : r ∈ argRefs) :
    after sF2 V (Proc.devRef .tc r) = V (Proc.devRef .tc r) :=
  sF2_keep V r ((by decide : ∀ r ∈ argRefs, r ∉ sF2_W) r h)

/-- The buffers that the stretch `sG` writes. -/
abbrev sG_W : List (Ref sig .tc) := [main_v128, main_v129, main_v130, main_v131, main_v132]
theorem sG_writes : (sG : List (HloOp τ sig (Elt F))).Forall fun op =>
    op.writes ⊆ (sG_W.map (Proc.devRef (τ := τ) .tc)).toFinset := by
  simp only [sG, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem sG_keep (V : Valuation τ sig (Elt F)) (r : Ref sig .tc) (h : r ∉ sG_W) :
    after sG V (Proc.devRef .tc r) = V (Proc.devRef .tc r) :=
  after_of_writes_sub sG V sG_writes h
/-- In particular each argument does. -/
theorem sG_args (V : Valuation τ sig (Elt F)) (r : Ref sig .tc) (h : r ∈ argRefs) :
    after sG V (Proc.devRef .tc r) = V (Proc.devRef .tc r) :=
  sG_keep V r ((by decide : ∀ r ∈ argRefs, r ∉ sG_W) r h)

end Cert.ReferenceIdeal.RefRun

end
-- ==== Proof.LibHostPieces.lean ====
/-
  Two facts for reading a long line of host operations piece by piece.

  What a buffer holds after a line of host operations is a fold over the line. When the whole line's result is too
  large a term to compare in one step, the line can be cut at any point: the fold over a concatenation is the fold
  over the second part, started from what the first part leaves (`after_append`); with `List.take_append_drop` this
  cuts a line given as one list into stretches whose results are small terms, each read from any incoming contents.

  An operation spelt over typed references moves its operands from each buffer's own type to the tensor type it
  carries and its result back; these transports are identities, and a value moved to a buffer's type and back is the
  value (`ofBuf_toBuf`). Rewriting with it before comparing a stretch's result with a closed term removes the pairs
  of transports that otherwise stand between the two sides. Both facts hold for any topology, signature and element
  values.
-/
import Idealize.ShloMosaic.Lib.StableHlo.Run

namespace Idealize.ShloMosaic.HostPieces

open Idealize.ShloMosaic Idealize.ShloMosaic.StableHlo

variable {τ : Topo} {sig : RefSig} {Val : EltTy → Type}

/-- Running two stretches of operations one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => exact ih _

/-- A line of operations cut at position `n`: the part after `n` run from what the first `n` leave. -/
theorem after_take_drop (n : ℕ) (l : List (HloOp τ sig Val)) (V : Valuation τ sig Val) :
    after l V = after (l.drop n) (after (l.take n) V) := by
  rw [← after_append, List.take_append_drop]

/-- Contents moved to a buffer's own type and back are unchanged. -/
theorem ofBuf_toBuf {T : BufTy} (x : TRef sig T) (v : T.Contents Val) : x.ofBuf (x.toBuf v) = v := by
  obtain ⟨r, rfl, _, _⟩ := x
  rfl

end Idealize.ShloMosaic.HostPieces
-- ==== Proof.RefRun.lean ====
/-
  The reference program's run, read layer by layer.

  The program is a straight line of whole-array host operations (its stretches, and that the program is their
  concatenation, are stated beside this file). What a buffer holds after a stretch is a fold over the stretch's
  operations; for each stretch that fold is read here at the buffers later stretches use, from ANY incoming
  contents, as one layer of the network applied to what the stretch's own inputs hold: the inputs are hypotheses
  (this buffer holds that value), so every equation is between small terms. The outlined rectifiers move their
  operands and results between a buffer's own type and the tensor type of the function's signature; those moves are
  identities and the closing reflexivity sees through them.

  Chaining the stretches from the launch contents gives each layer's value as a function of the nineteen
  arguments, the last being the network's result; the arguments are written by no operation and so are unchanged.
  The run theorem is then the general statement for a straight line of host operations, read at the result buffer
  and at each argument.
-/
import proofs.«111575_j78099685310579_1_alg».proof.Proof.RefRunOps
import proofs.«111575_j78099685310579_1_alg».proof.Proof.Spec
import proofs.«111575_j78099685310579_1_alg».proof.Proof.LibHostPieces

noncomputable section

namespace Cert.ReferenceIdeal.RefRun

open Cert.ReferenceIdeal Cert.ReferenceIdeal.Facts₀ Cert.ReferenceIdeal.Facts Idealize.ShloMosaic Idealize.ShloMosaic.TcCoe Idealize.SL.Sem
  Idealize.ShloMosaic.StableHlo

-- the whole-array operations whose values are sums or selections over full-size arrays are compared by their
-- operands only, never opened
attribute [local irreducible] Host.scatterAdd Host.gather Host.reduceAdd Host.divf Host.rsqrt

/-! ## Two pieces of the second dense layer, which the program's parts cut in two -/

/-- The second dense layer's product: `x · Wᵀ`, 128 to 64 columns. -/
def dot64 (x : FVec Ideal S20000x128 .f32) (W : FVec Ideal S64x128 .f32) : FVec Ideal S20000x64 .f32 :=
  Host.dotGeneral dot_S20000x128_S128x64_S20000x64_1_0_0_1_n_n none x (transpose S128x64 [1, 0] W transposes_S64x128_S128x64_1_0)

/-- A vector of 64 column values as one row. -/
def row64 (b : FVec Ideal S64 .f32) : FVec Ideal S1x64 .f32 := broadcastInDim S1x64 ![1] bcast_S64_S1x64_1 b

/-! ## Each stretch, from any contents -/

/-- After the first convolution's stretch, the source row of the edge list. -/
theorem A_v1 (V : Valuation τ sig (Elt Ideal)) :
    after (sA (F := Ideal)) V (Proc.devRef .tc main_v1) = Spec.srcRow (V (Proc.devRef .tc main_arg1)) := by
  simp only [sA]
  after_results_simp
  rfl

/-- After it, the destination row of the edge list. -/
theorem A_v3 (V : Valuation τ sig (Elt Ideal)) :
    after (sA (F := Ideal)) V (Proc.devRef .tc main_v3) = Spec.dstRow (V (Proc.devRef .tc main_arg1)) := by
  simp only [sA]
  after_results_simp
  rfl

/-- After it, the convolution of the input rows: aggregated, averaged by the clamped degrees, the two products and the bias. -/
theorem A_v30 (V : Valuation τ sig (Elt Ideal)) :
    after (sA (F := Ideal)) V (Proc.devRef .tc main_v30) = Spec.sage (Spec.aggregate (V (Proc.devRef .tc main_arg0)) (V (Proc.devRef .tc main_arg1))) (Spec.degree (V (Proc.devRef .tc main_arg1))) (V (Proc.devRef .tc main_arg0)) (V (Proc.devRef .tc main_arg3)) (V (Proc.devRef .tc main_arg4)) (V (Proc.devRef .tc main_arg5)) := by
  simp only [sA]
  after_results_simp
  rfl

/-- The rectifier's stretch leaves the maximum with zero of what it is given. -/
theorem R_v31 (V : Valuation τ sig (Elt Ideal)) {y : FVec Ideal S100000x128 .f32}
    (H0 : V (Proc.devRef .tc main_v30) = y) :
    after (sR (F := Ideal)) V (Proc.devRef .tc main_v31) = Spec.relu y := by
  simp only [sR]
  after_results_simp
  simp only [H0]
  rfl

/-- Given the two edge rows and the first layer's rows, the second aggregation's stretch leaves those rows aggregated over the edges. -/
theorem B0_v41 (V : Valuation τ sig (Elt Ideal)) {ei : IVec S2x1600000 32} {h : FVec Ideal S100000x128 .f32}
    (H0 : V (Proc.devRef .tc main_v1) = Spec.srcRow ei)
    (H1 : V (Proc.devRef .tc main_v3) = Spec.dstRow ei)
    (H2 : V (Proc.devRef .tc main_v31) = h) :
    after (sB0 (F := Ideal)) V (Proc.devRef .tc main_v41) = Spec.aggregate h ei := by
  simp only [sB0]
  after_results_simp
  simp only [H0, H1, H2]
  rfl

/-- Given the destination row, it leaves the degrees clamped below by one. -/
theorem B0_v47 (V : Valuation τ sig (Elt Ideal)) {ei : IVec S2x1600000 32}
    (H0 : V (Proc.devRef .tc main_v3) = Spec.dstRow ei) :
    after (sB0 (F := Ideal)) V (Proc.devRef .tc main_v47) = maximumf (Spec.degree ei) (broadcastInDim S100000 ![] bcast_S_S100000 (constant (F := Ideal) S_ .f32 0x3F800000#32)) := by
  simp only [sB0]
  after_results_simp
  simp only [H0]
  rfl

/-- Given the aggregated rows, the clamped degrees and the first layer's rows, the products' stretch leaves the second convolution. -/
theorem B1_v58 (V : Valuation τ sig (Elt Ideal)) {ei : IVec S2x1600000 32} {h : FVec Ideal S100000x128 .f32} {Wl Wr : FVec Ideal S128x128 .f32} {bl : FVec Ideal S128 .f32}
    (H0 : V (Proc.devRef .tc main_v41) = Spec.aggregate h ei)
    (H1 : V (Proc.devRef .tc main_v47) = maximumf (Spec.degree ei) (broadcastInDim S100000 ![] bcast_S_S100000 (constant (F := Ideal) S_ .f32 0x3F800000#32)))
    (H2 : V (Proc.devRef .tc main_v31) = h)
    (H3 : V (Proc.devRef .tc main_arg6) = Wl)
    (H4 : V (Proc.devRef .tc main_arg7) = bl)
    (H5 : V (Proc.devRef .tc main_arg8) = Wr) :
    after (sB1 (F := Ideal)) V (Proc.devRef .tc main_v58) = Spec.hidden2 h ei Wl bl Wr := by
  simp only [sB1]
  after_results_simp
  simp only [H0, H1, H2, H3, H4, H5]
  rfl

/-- Given the second layer, the selection's stretch leaves the first dense layer of the rows at the target nodes. -/
theorem C_v70 (V : Valuation τ sig (Elt Ideal)) {h2 : FVec Ideal S100000x128 .f32} {ni : IVec S20000 32} {W : FVec Ideal S128x128 .f32} {b : FVec Ideal S128 .f32}
    (H0 : V (Proc.devRef .tc main_v58) = h2)
    (H1 : V (Proc.devRef .tc main_arg2) = ni)
    (H2 : V (Proc.devRef .tc main_arg9) = W)
    (H3 : V (Proc.devRef .tc main_arg10) = b) :
    after (sC (F := Ideal)) V (Proc.devRef .tc main_v70) = Spec.lin128 (Spec.pick h2 ni) W b := by
  simp only [sC]
  after_results_simp
  simp only [H0, H1, H2, H3]
  rfl

/-- Given the first dense layer, the statistics' stretch leaves its column means. -/
theorem D1_v73 (V : Valuation τ sig (Elt Ideal)) {z : FVec Ideal S20000x128 .f32}
    (H0 : V (Proc.devRef .tc main_v70) = z) :
    after (sD1 (F := Ideal)) V (Proc.devRef .tc main_v73) = Spec.mean128 z := by
  simp only [sD1]
  after_results_simp
  simp only [H0]
  rfl

/-- And the column means of its squared deviations from them. -/
theorem D1_v80 (V : Valuation τ sig (Elt Ideal)) {z : FVec Ideal S20000x128 .f32}
    (H0 : V (Proc.devRef .tc main_v70) = z) :
    after (sD1 (F := Ideal)) V (Proc.devRef .tc main_v80) = Spec.var128 z (Spec.mean128 z) := by
  simp only [sD1]
  after_results_simp
  simp only [H0]
  rfl

/-- Given the first dense layer and its two statistics, the normalisation's stretch leaves it normalised and passed through the leaky rectifier of slope 0.1. -/
theorem D2_v96 (V : Valuation τ sig (Elt Ideal)) {z : FVec Ideal S20000x128 .f32} {g be : FVec Ideal S128 .f32}
    (H0 : V (Proc.devRef .tc main_v70) = z)
    (H1 : V (Proc.devRef .tc main_v73) = Spec.mean128 z)
    (H2 : V (Proc.devRef .tc main_v80) = Spec.var128 z (Spec.mean128 z))
    (H3 : V (Proc.devRef .tc main_arg15) = g)
    (H4 : V (Proc.devRef .tc main_arg16) = be) :
    after (sD2 (F := Ideal)) V (Proc.devRef .tc main_v96) = Spec.act128 z g be := by
  simp only [sD2]
  after_results_simp
  simp only [H0, H1, H2, H3, H4]
  rfl

/-- Given the first activation, the product with the second dense layer's transposed weights. -/
theorem E0_v98 (V : Valuation τ sig (Elt Ideal)) {a : FVec Ideal S20000x128 .f32} {W : FVec Ideal S64x128 .f32}
    (H0 : V (Proc.devRef .tc main_v96) = a)
    (H1 : V (Proc.devRef .tc main_arg11) = W) :
    after (sE0 (F := Ideal)) V (Proc.devRef .tc main_v98) = dot64 a W := by
  simp only [sE0]
  after_results_simp
  simp only [H0, H1]
  rfl

/-- The second dense layer's bias as one row. -/
theorem E0_v99 (V : Valuation τ sig (Elt Ideal)) {b : FVec Ideal S64 .f32}
    (H0 : V (Proc.devRef .tc main_arg12) = b) :
    after (sE0 (F := Ideal)) V (Proc.devRef .tc main_v99) = row64 b := by
  simp only [sE0]
  after_results_simp
  simp only [H0]
  rfl

/-- Given that product and that row, the second dense layer. -/
theorem E1_v101 (V : Valuation τ sig (Elt Ideal)) {a : FVec Ideal S20000x128 .f32} {W : FVec Ideal S64x128 .f32} {b : FVec Ideal S64 .f32}
    (H0 : V (Proc.devRef .tc main_v98) = dot64 a W)
    (H1 : V (Proc.devRef .tc main_v99) = row64 b) :
    after (sE1 (F := Ideal)) V (Proc.devRef .tc main_v101) = Spec.lin64 a W b := by
  simp only [sE1]
  after_results_simp
  simp only [H0, H1]
  rfl

/-- Given the second dense layer, its column means. -/
theorem F1_v104 (V : Valuation τ sig (Elt Ideal)) {z : FVec Ideal S20000x64 .f32}
    (H0 : V (Proc.devRef .tc main_v101) = z) :
    after (sF1 (F := Ideal)) V (Proc.devRef .tc main_v104) = Spec.mean64 z := by
  simp only [sF1]
  after_results_simp
  simp only [H0]
  rfl

/-- And the column means of its squared deviations from them. -/
theorem F1_v111 (V : Valuation τ sig (Elt Ideal)) {z : FVec Ideal S20000x64 .f32}
    (H0 : V (Proc.devRef .tc main_v101) = z) :
    after (sF1 (F := Ideal)) V (Proc.devRef .tc main_v111) = Spec.var64 z (Spec.mean64 z) := by
  simp only [sF1]
  after_results_simp
  simp only [H0]
  rfl

/-- Given the second dense layer and its two statistics, it normalised and passed through the leaky rectifier of slope 0.05. -/
theorem F2_v127 (V : Valuation τ sig (Elt Ideal)) {z : FVec Ideal S20000x64 .f32} {g be : FVec Ideal S64 .f32}
    (H0 : V (Proc.devRef .tc main_v101) = z)
    (H1 : V (Proc.devRef .tc main_v104) = Spec.mean64 z)
    (H2 : V (Proc.devRef .tc main_v111) = Spec.var64 z (Spec.mean64 z))
    (H3 : V (Proc.devRef .tc main_arg17) = g)
    (H4 : V (Proc.devRef .tc main_arg18) = be) :
    after (sF2 (F := Ideal)) V (Proc.devRef .tc main_v127) = Spec.act64 z g be := by
  simp only [sF2]
  after_results_simp
  simp only [H0, H1, H2, H3, H4]
  rfl

/-- Given the second activation, the last dense layer. -/
theorem G_v132 (V : Valuation τ sig (Elt Ideal)) {a : FVec Ideal S20000x64 .f32} {W : FVec Ideal S1x64 .f32} {b : FVec Ideal S1 .f32}
    (H0 : V (Proc.devRef .tc main_v127) = a)
    (H1 : V (Proc.devRef .tc main_arg13) = W)
    (H2 : V (Proc.devRef .tc main_arg14) = b) :
    after (sG (F := Ideal)) V (Proc.devRef .tc main_v132) = Spec.lin1 a W b := by
  simp only [sG]
  after_results_simp
  simp only [H0, H1, H2]
  rfl

/-! ## The layer values at the arguments

The network's intermediate values as functions of what the nineteen argument buffers hold. -/

/-- The first hidden layer. -/
def tH1 (V0 : Valuation τ sig (Elt Ideal)) : FVec Ideal S100000x128 .f32 := Spec.hidden1 (V0 (Proc.devRef .tc main_arg0)) (V0 (Proc.devRef .tc main_arg1)) (V0 (Proc.devRef .tc main_arg3)) (V0 (Proc.devRef .tc main_arg4)) (V0 (Proc.devRef .tc main_arg5))
/-- The second hidden layer. -/
def tH2 (V0 : Valuation τ sig (Elt Ideal)) : FVec Ideal S100000x128 .f32 := Spec.hidden2 (tH1 V0) (V0 (Proc.devRef .tc main_arg1)) (V0 (Proc.devRef .tc main_arg6)) (V0 (Proc.devRef .tc main_arg7)) (V0 (Proc.devRef .tc main_arg8))
/-- The first dense layer at the target nodes. -/
def tZ1 (V0 : Valuation τ sig (Elt Ideal)) : FVec Ideal S20000x128 .f32 := Spec.lin128 (Spec.pick (tH2 V0) (V0 (Proc.devRef .tc main_arg2))) (V0 (Proc.devRef .tc main_arg9)) (V0 (Proc.devRef .tc main_arg10))
/-- Its normalised, rectified value. -/
def tA1 (V0 : Valuation τ sig (Elt Ideal)) : FVec Ideal S20000x128 .f32 := Spec.act128 (tZ1 V0) (V0 (Proc.devRef .tc main_arg15)) (V0 (Proc.devRef .tc main_arg16))
/-- The second dense layer. -/
def tZ2 (V0 : Valuation τ sig (Elt Ideal)) : FVec Ideal S20000x64 .f32 := Spec.lin64 (tA1 V0) (V0 (Proc.devRef .tc main_arg11)) (V0 (Proc.devRef .tc main_arg12))
/-- Its normalised, rectified value. -/
def tA2 (V0 : Valuation τ sig (Elt Ideal)) : FVec Ideal S20000x64 .f32 := Spec.act64 (tZ2 V0) (V0 (Proc.devRef .tc main_arg17)) (V0 (Proc.devRef .tc main_arg18))

/-- The last dense layer of these is the network's result. -/
theorem lin1_tA2 (V0 : Valuation τ sig (Elt Ideal)) :
    Spec.lin1 (tA2 V0) (V0 (Proc.devRef .tc main_arg13)) (V0 (Proc.devRef .tc main_arg14))
      = Spec.G (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) := by
  unfold Spec.G tA2 tZ2 tA1 tZ1 tH2 tH1
  rfl

/-! ## The buffers' contents after each stretch -/

/-- The buffers' contents after the first 1 stretch. -/
def W1 (V0 : Valuation τ sig (Elt Ideal)) : Valuation τ sig (Elt Ideal) := after (sA (F := Ideal)) V0
theorem W1_args (V0 : Valuation τ sig (Elt Ideal)) (r : Ref sig .tc) (h : r ∈ argRefs) :
    W1 V0 (Proc.devRef .tc r) = V0 (Proc.devRef .tc r) :=
  sA_args V0 r h
/-- The buffers' contents after the first 2 stretches. -/
def W2 (V0 : Valuation τ sig (Elt Ideal)) : Valuation τ sig (Elt Ideal) := after (sR (F := Ideal)) (W1 V0)
theorem W2_args (V0 : Valuation τ sig (Elt Ideal)) (r : Ref sig .tc) (h : r ∈ argRefs) :
    W2 V0 (Proc.devRef .tc r) = V0 (Proc.devRef .tc r) :=
  (sR_args (W1 V0) r h).trans (W1_args V0 r h)
/-- The buffers' contents after the first 3 stretches. -/
def W3 (V0 : Valuation τ sig (Elt Ideal)) : Valuation τ sig (Elt Ideal) := after (sB0 (F := Ideal)) (W2 V0)
theorem W3_args (V0 : Valuation τ sig (Elt Ideal)) (r : Ref sig .tc) (h : r ∈ argRefs) :
    W3 V0 (Proc.devRef .tc r) = V0 (Proc.devRef .tc r) :=
  (sB0_args (W2 V0) r h).trans (W2_args V0 r h)
/-- The buffers' contents after the first 4 stretches. -/
def W4 (V0 : Valuation τ sig (Elt Ideal)) : Valuation τ sig (Elt Ideal) := after (sB1 (F := Ideal)) (W3 V0)
theorem W4_args (V0 : Valuation τ sig (Elt Ideal)) (r : Ref sig .tc) (h : r ∈ argRefs) :
    W4 V0 (Proc.devRef .tc r) = V0 (Proc.devRef .tc r) :=
  (sB1_args (W3 V0) r h).trans (W3_args V0 r h)
/-- The buffers' contents after the first 5 stretches. -/
def W5 (V0 : Valuation τ sig (Elt Ideal)) : Valuation τ sig (Elt Ideal) := after (sC (F := Ideal)) (W4 V0)
theorem W5_args (V0 : Valuation τ sig (Elt Ideal)) (r : Ref sig .tc) (h : r ∈ argRefs) :
    W5 V0 (Proc.devRef .tc r) = V0 (Proc.devRef .tc r) :=
  (sC_args (W4 V0) r h).trans (W4_args V0 r h)
/-- The buffers' contents after the first 6 stretches. -/
def W6 (V0 : Valuation τ sig (Elt Ideal)) : Valuation τ sig (Elt Ideal) := after (sD1 (F := Ideal)) (W5 V0)
theorem W6_args (V0 : Valuation τ sig (Elt Ideal)) (r : Ref sig .tc) (h : r ∈ argRefs) :
    W6 V0 (Proc.devRef .tc r) = V0 (Proc.devRef .tc r) :=
  (sD1_args (W5 V0) r h).trans (W5_args V0 r h)
/-- The buffers' contents after the first 7 stretches. -/
def W7 (V0 : Valuation τ sig (Elt Ideal)) : Valuation τ sig (Elt Ideal) := after (sD2 (F := Ideal)) (W6 V0)
theorem W7_args (V0 : Valuation τ sig (Elt Ideal)) (r : Ref sig .tc) (h : r ∈ argRefs) :
    W7 V0 (Proc.devRef .tc r) = V0 (Proc.devRef .tc r) :=
  (sD2_args (W6 V0) r h).trans (W6_args V0 r h)
/-- The buffers' contents after the first 8 stretches. -/
def W8 (V0 : Valuation τ sig (Elt Ideal)) : Valuation τ sig (Elt Ideal) := after (sE0 (F := Ideal)) (W7 V0)
theorem W8_args (V0 : Valuation τ sig (Elt Ideal)) (r : Ref sig .tc) (h : r ∈ argRefs) :
    W8 V0 (Proc.devRef .tc r) = V0 (Proc.devRef .tc r) :=
  (sE0_args (W7 V0) r h).trans (W7_args V0 r h)
/-- The buffers' contents after the first 9 stretches. -/
def W9 (V0 : Valuation τ sig (Elt Ideal)) : Valuation τ sig (Elt Ideal) := after (sE1 (F := Ideal)) (W8 V0)
theorem W9_args (V0 : Valuation τ sig (Elt Ideal)) (r : Ref sig .tc) (h : r ∈ argRefs) :
    W9 V0 (Proc.devRef .tc r) = V0 (Proc.devRef .tc r) :=
  (sE1_args (W8 V0) r h).trans (W8_args V0 r h)
/-- The buffers' contents after the first 10 stretches. -/
def W10 (V0 : Valuation τ sig (Elt Ideal)) : Valuation τ sig (Elt Ideal) := after (sF1 (F := Ideal)) (W9 V0)
theorem W10_args (V0 : Valuation τ sig (Elt Ideal)) (r : Ref sig .tc) (h : r ∈ argRefs) :
    W10 V0 (Proc.devRef .tc r) = V0 (Proc.devRef .tc r) :=
  (sF1_args (W9 V0) r h).trans (W9_args V0 r h)
/-- The buffers' contents after the first 11 stretches. -/
def W11 (V0 : Valuation τ sig (Elt Ideal)) : Valuation τ sig (Elt Ideal) := after (sF2 (F := Ideal)) (W10 V0)
theorem W11_args (V0 : Valuation τ sig (Elt Ideal)) (r : Ref sig .tc) (h : r ∈ argRefs) :
    W11 V0 (Proc.devRef .tc r) = V0 (Proc.devRef .tc r) :=
  (sF2_args (W10 V0) r h).trans (W10_args V0 r h)
/-- The buffers' contents after the first 12 stretches. -/
def W12 (V0 : Valuation τ sig (Elt Ideal)) : Valuation τ sig (Elt Ideal) := after (sG (F := Ideal)) (W11 V0)
theorem W12_args (V0 : Valuation τ sig (Elt Ideal)) (r : Ref sig .tc) (h : r ∈ argRefs) :
    W12 V0 (Proc.devRef .tc r) = V0 (Proc.devRef .tc r) :=
  (sG_args (W11 V0) r h).trans (W11_args V0 r h)

theorem W1_v1 (V0 : Valuation τ sig (Elt Ideal)) : W1 V0 (Proc.devRef .tc main_v1) = Spec.srcRow (V0 (Proc.devRef .tc main_arg1)) :=
  A_v1 V0
theorem W1_v3 (V0 : Valuation τ sig (Elt Ideal)) : W1 V0 (Proc.devRef .tc main_v3) = Spec.dstRow (V0 (Proc.devRef .tc main_arg1)) :=
  A_v3 V0
theorem W1_v30 (V0 : Valuation τ sig (Elt Ideal)) : W1 V0 (Proc.devRef .tc main_v30) = Spec.sage (Spec.aggregate (V0 (Proc.devRef .tc main_arg0)) (V0 (Proc.devRef .tc main_arg1))) (Spec.degree (V0 (Proc.devRef .tc main_arg1))) (V0 (Proc.devRef .tc main_arg0)) (V0 (Proc.devRef .tc main_arg3)) (V0 (Proc.devRef .tc main_arg4)) (V0 (Proc.devRef .tc main_arg5)) :=
  A_v30 V0
theorem W2_v1 (V0 : Valuation τ sig (Elt Ideal)) : W2 V0 (Proc.devRef .tc main_v1) = Spec.srcRow (V0 (Proc.devRef .tc main_arg1)) :=
  (sR_keep (W1 V0) main_v1 (by decide)).trans (W1_v1 V0)
theorem W2_v3 (V0 : Valuation τ sig (Elt Ideal)) : W2 V0 (Proc.devRef .tc main_v3) = Spec.dstRow (V0 (Proc.devRef .tc main_arg1)) :=
  (sR_keep (W1 V0) main_v3 (by decide)).trans (W1_v3 V0)
theorem W2_v31 (V0 : Valuation τ sig (Elt Ideal)) : W2 V0 (Proc.devRef .tc main_v31) = tH1 V0 := by
  unfold tH1 Spec.hidden1
  exact R_v31 (W1 V0) (W1_v30 V0)
theorem W3_v41 (V0 : Valuation τ sig (Elt Ideal)) : W3 V0 (Proc.devRef .tc main_v41) = Spec.aggregate (tH1 V0) (V0 (Proc.devRef .tc main_arg1)) :=
  B0_v41 (W2 V0) (W2_v1 V0) (W2_v3 V0) (W2_v31 V0)
theorem W3_v47 (V0 : Valuation τ sig (Elt Ideal)) : W3 V0 (Proc.devRef .tc main_v47) = maximumf (Spec.degree (V0 (Proc.devRef .tc main_arg1))) (broadcastInDim S100000 ![] bcast_S_S100000 (constant (F := Ideal) S_ .f32 0x3F800000#32)) :=
  B0_v47 (W2 V0) (W2_v3 V0)
theorem W3_v31 (V0 : Valuation τ sig (Elt Ideal)) : W3 V0 (Proc.devRef .tc main_v31) = tH1 V0 :=
  (sB0_keep (W2 V0) main_v31 (by decide)).trans (W2_v31 V0)
theorem W4_v58 (V0 : Valuation τ sig (Elt Ideal)) : W4 V0 (Proc.devRef .tc main_v58) = tH2 V0 := by
  unfold tH2
  exact B1_v58 (W3 V0) (W3_v41 V0) (W3_v47 V0) (W3_v31 V0) (W3_args V0 main_arg6 (by decide)) (W3_args V0 main_arg7 (by decide)) (W3_args V0 main_arg8 (by decide))
theorem W5_v70 (V0 : Valuation τ sig (Elt Ideal)) : W5 V0 (Proc.devRef .tc main_v70) = tZ1 V0 := by
  unfold tZ1
  exact C_v70 (W4 V0) (W4_v58 V0) (W4_args V0 main_arg2 (by decide)) (W4_args V0 main_arg9 (by decide)) (W4_args V0 main_arg10 (by decide))
theorem W6_v73 (V0 : Valuation τ sig (Elt Ideal)) : W6 V0 (Proc.devRef .tc main_v73) = Spec.mean128 (tZ1 V0) :=
  D1_v73 (W5 V0) (W5_v70 V0)
theorem W6_v80 (V0 : Valuation τ sig (Elt Ideal)) : W6 V0 (Proc.devRef .tc main_v80) = Spec.var128 (tZ1 V0) (Spec.mean128 (tZ1 V0)) :=
  D1_v80 (W5 V0) (W5_v70 V0)
theorem W6_v70 (V0 : Valuation τ sig (Elt Ideal)) : W6 V0 (Proc.devRef .tc main_v70) = tZ1 V0 :=
  (sD1_keep (W5 V0) main_v70 (by decide)).trans (W5_v70 V0)
theorem W7_v96 (V0 : Valuation τ sig (Elt Ideal)) : W7 V0 (Proc.devRef .tc main_v96) = tA1 V0 := by
  unfold tA1
  exact D2_v96 (W6 V0) (W6_v70 V0) (W6_v73 V0) (W6_v80 V0) (W6_args V0 main_arg15 (by decide)) (W6_args V0 main_arg16 (by decide))
theorem W8_v98 (V0 : Valuation τ sig (Elt Ideal)) : W8 V0 (Proc.devRef .tc main_v98) = dot64 (tA1 V0) (V0 (Proc.devRef .tc main_arg11)) :=
  E0_v98 (W7 V0) (W7_v96 V0) (W7_args V0 main_arg11 (by decide))
theorem W8_v99 (V0 : Valuation τ sig (Elt Ideal)) : W8 V0 (Proc.devRef .tc main_v99) = row64 (V0 (Proc.devRef .tc main_arg12)) :=
  E0_v99 (W7 V0) (W7_args V0 main_arg12 (by decide))
theorem W9_v101 (V0 : Valuation τ sig (Elt Ideal)) : W9 V0 (Proc.devRef .tc main_v101) = tZ2 V0 := by
  unfold tZ2
  exact E1_v101 (W8 V0) (W8_v98 V0) (W8_v99 V0)
theorem W10_v104 (V0 : Valuation τ sig (Elt Ideal)) : W10 V0 (Proc.devRef .tc main_v104) = Spec.mean64 (tZ2 V0) :=
  F1_v104 (W9 V0) (W9_v101 V0)
theorem W10_v111 (V0 : Valuation τ sig (Elt Ideal)) : W10 V0 (Proc.devRef .tc main_v111) = Spec.var64 (tZ2 V0) (Spec.mean64 (tZ2 V0)) :=
  F1_v111 (W9 V0) (W9_v101 V0)
theorem W10_v101 (V0 : Valuation τ sig (Elt Ideal)) : W10 V0 (Proc.devRef .tc main_v101) = tZ2 V0 :=
  (sF1_keep (W9 V0) main_v101 (by decide)).trans (W9_v101 V0)
theorem W11_v127 (V0 : Valuation τ sig (Elt Ideal)) : W11 V0 (Proc.devRef .tc main_v127) = tA2 V0 := by
  unfold tA2
  exact F2_v127 (W10 V0) (W10_v101 V0) (W10_v104 V0) (W10_v111 V0) (W10_args V0 main_arg17 (by decide)) (W10_args V0 main_arg18 (by decide))
/-- The result buffer ends at the network's value of the arguments. -/
theorem W12_v132 (V0 : Valuation τ sig (Elt Ideal)) : W12 V0 (Proc.devRef .tc main_v132)
      = Spec.G (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) :=
  (G_v132 (W11 V0) (W11_v127 V0) (W11_args V0 main_arg13 (by decide)) (W11_args V0 main_arg14 (by decide))).trans (lin1_tA2 V0)

/-- The whole line is the stretches in order. -/
theorem after_ops (V0 : Valuation τ sig (Elt Ideal)) : after (ops (F := Ideal)) V0 = W12 V0 := by
  simp only [ops, ops0, ops1, ops2, HostPieces.after_append]
  rfl

/-- On every device, from any memory with zero counters: every weakly fair execution of the reference program
    terminates with the result buffer at the network's value of the arguments' launch contents and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v132) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨(h c main_v132).trans (by rw [after_ops]; exact W12_v132 (launchContents m c)),
      (h c main_arg0).trans (by rw [after_ops]; exact W12_args (launchContents m c) main_arg0 (by decide)),
      (h c main_arg1).trans (by rw [after_ops]; exact W12_args (launchContents m c) main_arg1 (by decide)),
      (h c main_arg2).trans (by rw [after_ops]; exact W12_args (launchContents m c) main_arg2 (by decide)),
      (h c main_arg3).trans (by rw [after_ops]; exact W12_args (launchContents m c) main_arg3 (by decide)),
      (h c main_arg4).trans (by rw [after_ops]; exact W12_args (launchContents m c) main_arg4 (by decide)),
      (h c main_arg5).trans (by rw [after_ops]; exact W12_args (launchContents m c) main_arg5 (by decide)),
      (h c main_arg6).trans (by rw [after_ops]; exact W12_args (launchContents m c) main_arg6 (by decide)),
      (h c main_arg7).trans (by rw [after_ops]; exact W12_args (launchContents m c) main_arg7 (by decide)),
      (h c main_arg8).trans (by rw [after_ops]; exact W12_args (launchContents m c) main_arg8 (by decide)),
      (h c main_arg9).trans (by rw [after_ops]; exact W12_args (launchContents m c) main_arg9 (by decide)),
      (h c main_arg10).trans (by rw [after_ops]; exact W12_args (launchContents m c) main_arg10 (by decide)),
      (h c main_arg11).trans (by rw [after_ops]; exact W12_args (launchContents m c) main_arg11 (by decide)),
      (h c main_arg12).trans (by rw [after_ops]; exact W12_args (launchContents m c) main_arg12 (by decide)),
      (h c main_arg13).trans (by rw [after_ops]; exact W12_args (launchContents m c) main_arg13 (by decide)),
      (h c main_arg14).trans (by rw [after_ops]; exact W12_args (launchContents m c) main_arg14 (by decide)),
      (h c main_arg15).trans (by rw [after_ops]; exact W12_args (launchContents m c) main_arg15 (by decide)),
      (h c main_arg16).trans (by rw [after_ops]; exact W12_args (launchContents m c) main_arg16 (by decide)),
      (h c main_arg17).trans (by rw [after_ops]; exact W12_args (launchContents m c) main_arg17 (by decide)),
      (h c main_arg18).trans (by rw [after_ops]; exact W12_args (launchContents m c) main_arg18 (by decide))⟩)
    (run_seq scopedRefs_eq scopedSems_eq defs main (fun _ => ops) main_eq (fun _ => ops_sub) m ρ (fun _ => ops_fresh))

end Cert.ReferenceIdeal.RefRun

end
-- ==== Proof.lean ====
/-
  The certificate of a two-layer graph network with a perceptron head: the kernel program computes it in seven
  row-blocked regions (two graph-convolution combines, three dense layers, two fused normalise-and-rectify layers)
  between host stretches that gather, scatter-add and take batch statistics; the reference computes it with the host's
  whole-array operations alone. Over the extended reals both end with the same array, the function Spec.G of the
  nineteen argument arrays:

  * each region's output array is the host's whole-array spelling of its layer applied to the arrays the region finds,
    because every layer is row-local (a row of the result depends on that row of the row-blocked operands and on the
    whole of the small operands) and the blocks tile the rows (Region0 … Region6);
  * the host stretches are the same operations in both programs, so the kernel's result buffer, walked back through
    the run's boundaries to the launch memory, is Spec.G of the arguments (KernelValue over KernelRun);
  * the reference's run composes to the same term (RefRun).

  No law of the extended reals beyond rewriting equal summands is needed, so the precondition (finite inputs) is never
  opened. The three frames are the generated frame runs (the reference's is its run with the result dropped); the
  idealization rewrote nothing, so its statement is trivial.
-/
import proofs.«111575_j78099685310579_1_alg».proof.Defs
import proofs.«111575_j78099685310579_1_alg».proof.Proof.Gen.Kernel
import proofs.«111575_j78099685310579_1_alg».proof.Proof.Gen.Kernel.Frame
import proofs.«111575_j78099685310579_1_alg».proof.Proof.Gen.KernelIdeal
import proofs.«111575_j78099685310579_1_alg».proof.Proof.Gen.KernelIdeal.Frame
import proofs.«111575_j78099685310579_1_alg».proof.Proof.Gen.ReferenceIdeal
import proofs.«111575_j78099685310579_1_alg».proof.Proof.Gen.Pre_finite_inputs
import proofs.«111575_j78099685310579_1_alg».proof.Proof.Spec
import proofs.«111575_j78099685310579_1_alg».proof.Proof.KernelRun
import proofs.«111575_j78099685310579_1_alg».proof.Proof.KernelValue
import proofs.«111575_j78099685310579_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RefRun.run m ρ)

/-- Both runs end with the network of the argument arrays, which agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18)),
    ?_, ?_⟩
  · exact (θ_run Cert.KernelIdeal.defs _ _).mono
      (fun r h c => ⟨(h c).1.trans (Cert.KernelIdeal.Value.value m ρ c), (h c).2⟩) (Cert.KernelIdeal.Valued.run m ρ)
  · refine (θ_run Cert.ReferenceIdeal.defs _ _).mono (fun r h c => ⟨(h c).1.trans ?_, (h c).2⟩)
      (Cert.ReferenceIdeal.RefRun.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
